-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S64x128 .f32) (main_arg3 : FVec F S64 .f32) (main_arg4 : FVec F S64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S100000x64 : Shape := ⟨2, ![100000, 64]⟩
abbrev S5000x128 : Shape := ⟨2, ![5000, 128]⟩
abbrev S5000x64 : Shape := ⟨2, ![5000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 105
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000x128, .bf16⟩
  | .hbm, ⟨7, _⟩ => ⟨S128x64, .f32⟩
  | .hbm, ⟨8, _⟩ => ⟨S128x64, .bf16⟩
  | .hbm, ⟨9, _⟩ => ⟨S100000x64, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000, .f32⟩
  | .hbm, ⟨62, _⟩ => ⟨S1700000, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S1700000x1, .f32⟩
  | .hbm, ⟨73, _⟩ => ⟨S1700000x64, .f32⟩
  | .hbm, ⟨74, _⟩ => ⟨S1700000x64, .f32⟩
  | .hbm, ⟨75, _⟩ => ⟨S_, .f32⟩
  | .hbm, ⟨76, _⟩ => ⟨S100000x64, .f32⟩
  | .hbm, ⟨77, _⟩ => ⟨S1700000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S1x64, .f32⟩
  | .hbm, ⟨82, _⟩ => ⟨S1x64, .f32⟩
  | .hbm, ⟨83, _⟩ => ⟨S_, .f32⟩
  | .hbm, ⟨84, _⟩ => ⟨S1x64, .f32⟩
  | .hbm, ⟨85, _⟩ => ⟨S1x64, .f32⟩
  | .hbm, ⟨86, _⟩ => ⟨S64, .f32⟩
  | .hbm, ⟨87, _⟩ => ⟨S64, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S64, .f32⟩
  | .hbm, ⟨92, _⟩ => ⟨S64, .f32⟩
  | .hbm, ⟨93, _⟩ => ⟨S_, .f32⟩
  | .hbm, ⟨94, _⟩ => ⟨S64, .f32⟩
  | .hbm, ⟨95, _⟩ => ⟨S64, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S64, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S1x64, .f32⟩
  | .hbm, ⟨104, _⟩ => ⟨S100000x64, .f32⟩
  | .local _ .vmem, ⟨0, _⟩ => ⟨S5000x128, .bf16⟩
  | .local _ .vmem, ⟨1, _⟩ => ⟨S5000x128, .bf16⟩
  | .local _ .vmem, ⟨2, _⟩ => ⟨S128x64, .bf16⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58_0 : Ref sig .tc := ⟨.hbm, 80, rfl⟩
abbrev main_v58_1 : Ref sig .tc := ⟨.hbm, 81, rfl⟩
abbrev main_v58_2 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  transposes_S64x128_S128x64_1_0 : S64x128.Transposes [1, 0] S128x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S1x64_S5000x64 : S1x64.Broadcasts S5000x64
  reduces_S5000x64_S64 : S5000x64.Reduces [0] S64
  bcast_S_S1x64 : S_.BroadcastsInDim S1x64 (![] : Fin 0 → Fin S1x64.rank)
  shapeCasts_S1x64_S64 : S1x64.ShapeCasts S64
  bcast_S_S64 : S_.BroadcastsInDim S64 (![] : Fin 0 → Fin S64.rank)
  dot_S5000x128_S128x64_S5000x64_1_0_0_1_n_n_wf : DotDims.WF S5000x128 S128x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .bf16 = 32 ∨ (Rect.block (s := S100000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58_0) S5000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58_1) S1x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58_2) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v58_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v75) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x1 : Shape := ⟨2, ![100000, 1]⟩
abbrev S1x64 : Shape := ⟨2, ![1, 64]⟩

abbrev nBuf : Space → Nat
  | .hbm => 110
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128x64, .f32⟩
  | .hbm, ⟨7, _⟩ => ⟨S100000x64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .i1⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S1x64, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64, .f32⟩
  | .hbm, ⟨101, _⟩ => ⟨S1x64, .f32⟩
  | .hbm, ⟨102, _⟩ => ⟨S100000x64, .f32⟩
  | .hbm, ⟨103, _⟩ => ⟨S100000x64, .f32⟩
  | .hbm, ⟨104, _⟩ => ⟨S1x64, .f32⟩
  | .hbm, ⟨105, _⟩ => ⟨S100000x64, .f32⟩
  | .hbm, ⟨106, _⟩ => ⟨S100000x64, .f32⟩
  | .hbm, ⟨107, _⟩ => ⟨S1x64, .f32⟩
  | .hbm, ⟨108, _⟩ => ⟨S100000x64, .f32⟩
  | .hbm, ⟨109, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]

class Facts₀ : Prop where
  transposes_S64x128_S128x64_1_0 : S64x128.Transposes [1, 0] S128x64
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.K.FrameR0.lean ====
import proofs.«117114_j45715631899545_1_alg».proof.Proof.Gen.Kernel.Launch
import proofs.«117114_j45715631899545_1_alg».proof.Proof.Gen.Kernel.Skeleton
import proofs.«117114_j45715631899545_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, the matrix product kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole right factor, fetched at the first point only) the same way. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S5000x64 := Rect.unit (s := S5000x64) ![0, 0] S5000x64.size inb_S5000x64_S5000x64_0_0

/-! ## What the body leaves in the output window's buffer -/

/-- Window 2's staging buffer after the body, from the input windows' blocks: its one store, of the whole buffer,
    of the product of the two blocks. -/
def out0_2 (x0 : Vec F S5000x128 .bf16) (x1 : Vec F S128x64 .bf16) : Vec F S5000x64 .f32 :=
  View.canon [⟨r0_2, k0_pay1 (View.ld x0 r0_0) (View.ld x1 r0_1)⟩]

/-- The store tiles the buffer, so it covers it. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The kernel body on whole staging memrefs, the inputs' at read contents `x0`, `x1` and the output's at anything,
    runs to the continuation holding the inputs' as they were and the output's at `out0_2` of the inputs': the printed
    function is its skeleton, whose three loads and one store are run one by one. -/
theorem sound_kernel0 (c : Dev nD) (E : Set ℕ) (i : grid0.Coords) (arg1 : Memref sig .tc .vmem S5000x128 .bf16) (harg1 : arg1.IsWhole) (arg2 : Memref sig .tc .vmem S128x64 .bf16) (harg2 : arg2.IsWhole) (arg3 : Memref sig .tc .vmem S5000x64 .f32) (harg3 : arg3.IsWhole)
    (x0 : Vec F S5000x128 .bf16) (x1 : Vec F S128x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.FrameR1.Base.lean ====
/- The second kernel call (the activation-and-statistics kernel): what its whole-body runs share.
   Every load and store of the body goes through the whole-shape rectangle at zero offsets, so a buffer after a
   store reads as that store's payload, and a load after a store reads the payload; the body's one conditional
   tests whether the grid coordinate is zero, which holds at the first point only. -/
import proofs.«117114_j45715631899545_1_alg».proof.Proof.Gen.Kernel.Launch
import proofs.«117114_j45715631899545_1_alg».proof.Proof.Gen.Kernel.Skeleton
import proofs.«117114_j45715631899545_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem hz2 : (![0, 0] : Fin 2 → Nat) = fun _ => 0 := funext fun a => by fin_cases a <;> rfl

/-- After a last store through the whole-shape rectangle at zero offsets the buffer reads as that store's payload,
    whatever was stored before and whatever the buffer held. -/
theorem read_writes_whole_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.Mem.head _, View.mem_set_unit_zero h inb y⟩), View.canon_cons_unit_zero h]

/-- A load through that rectangle after such a store reads the store's payload. -/
theorem readCov_whole_last {κ : Kind} {sp : Space} {S : Shape} {e : EltTy} (v : View sig κ sp S e)
    {off : Fin S.rank → Nat} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h, View.ld_unit_zero h]

/-- The condition of the body's conditional, from the grid coordinates: the coordinate is zero. -/
abbrev cond1_0 (i : grid1.Coords) : Prop := (Scalar.cmpi .ne (Scalar.extui (Scalar.cmpi .eq (BitVec.ofNat 32 (i 0).val) 0#32)) 0#32) = 1#1

/-- It holds at the first point only: decided over the twenty points of the grid. -/
theorem hcond1_0 : ∀ t : Fin cfg1.N, cond1_0 (grid1.coords t) ↔ t.val = 0 :=
  (by decide +kernel : ∀ t : Fin grid1.N, cond1_0 (grid1.coords t) ↔ t.val = 0)

end Cert.Kernel.Fr

end
-- ==== Proof.K.FrameR1.RunA.lean ====
/- The second kernel call's body at the FIRST grid point, run whole: both accumulators are zeroed before anything
   else, so whatever they held does not matter; the activation block is the leaky-rectified sum of the aggregate block
   and the bias row; each accumulator ends as its zero plus the block's column sum (of the activations, of their
   squares), and the two whole-array outputs are copies of the accumulators. -/
import proofs.«117114_j45715631899545_1_alg».proof.Proof.K.FrameR1.Base

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first point: the two accumulators are zeroed, then the activation block is stored and the two
    column sums are added onto the accumulators and copied to the two whole-array outputs. -/
theorem sound_kernel1_A (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S5000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc : cond1_0 i)
    (x0 : Vec F S5000x64 .f32) (x1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (k1_pay3 x0 x1)
            ∗ owns (c : Thread nD τ) arg4 fullShare (k1_pay4 x0 x1 (k1_pay1 (F := F)))
            ∗ owns (c : Thread nD τ) arg5 fullShare (k1_pay5 x0 x1 (k1_pay2 (F := F)))
            ∗ owns (c : Thread nD τ) arg6 fullShare (k1_pay4 x0 x1 (k1_pay1 (F := F)))
            ∗ owns (c : Thread nD τ) arg7 fullShare (k1_pay5 x0 x1 (k1_pay2 (F := F)))) -∗ K ⟨⟩))
      ⊢ wp frame (wpE (defs₀ (F := F)) Variants.none c none) E (cc1__act_stats_kernel i arg1 harg1 arg2 harg2 arg3 harg3 arg4 harg4 arg5 harg5 arg6 harg6 arg7 harg7) K := by
  simp only [cc1__act_stats_kernel_eq_skeleton]; unfold cc1__act_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  obtain rfl := harg1.eq_unread hf0; obtain rfl := harg2.eq_unread hf1
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [read_writes_whole_last _ _ hz2]
    simp only [View.readAt_eq_ld, harg1.read_unread, harg2.read_unread, View.ld_unit_zero (S := S5000x64) hz2, View.ld_unit_zero (S := S1x64) hz2]
  isplitl [H3]
  · iexists _; isplitr
    swap; · iexact H3
    ipureintro
    rw [read_writes_whole_last _ _ hz2]
    sl_unfold_run_names
    simp only [readCov_whole_last (S := S1x64) _ hz2, View.readAt_eq_ld, harg1.read_unread, harg2.read_unread, harg6.read_unread, View.ld_unit_zero (S := S5000x64) hz2, View.ld_unit_zero (S := S1x64) hz2]
  isplitl [H4]
  · iexists _; isplitr
    swap; · iexact H4
    ipureintro
    rw [read_writes_whole_last _ _ hz2]
    sl_unfold_run_names
    simp only [readCov_whole_last (S := S1x64) _ hz2, View.readAt_eq_ld, harg1.read_unread, harg2.read_unread, harg7.read_unread, View.ld_unit_zero (S := S5000x64) hz2, View.ld_unit_zero (S := S1x64) hz2]
  isplitl [H5]
  · iexists _; isplitr
    swap; · iexact H5
    ipureintro
    sl_unfold_run_names
    rw [read_writes_whole_last _ _ hz2]
    simp only [readCov_whole_last (S := S1x64) _ hz2, View.readAt_eq_ld, harg1.read_unread, harg2.read_unread, harg6.read_unread, View.ld_unit_zero (S := S5000x64) hz2, View.ld_unit_zero (S := S1x64) hz2]
  iexists _; isplitr
  swap; · iexact H6
  ipureintro
  sl_unfold_run_names
  rw [read_writes_whole_last _ _ hz2]
  simp only [readCov_whole_last (S := S1x64) _ hz2, View.readAt_eq_ld, harg1.read_unread, harg2.read_unread, harg7.read_unread, View.ld_unit_zero (S := S5000x64) hz2, View.ld_unit_zero (S := S1x64) hz2]

end Cert.Kernel.Fr

end
-- ==== Proof.K.FrameR1.RunB.lean ====
/- The second kernel call's body at a LATER grid point, run whole: the conditional is skipped, the accumulators
   hold what the point before left, and each ends as that plus this block's column sum; the activation block and the
   two whole-array outputs as at the first point. -/
import proofs.«117114_j45715631899545_1_alg».proof.Proof.K.FrameR1.RunA

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a later point: the accumulators hold what the point before left. -/
theorem sound_kernel1_B (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S5000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc : ¬cond1_0 i)
    (x0 : Vec F S5000x64 .f32) (x1 : Vec F S1x64 .f32) (s0 s1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg3 fullShare (k1_pay3 x0 x1)
            ∗ owns (c : Thread nD τ) arg4 fullShare (k1_pay4 x0 x1 s0)
            ∗ owns (c : Thread nD τ) arg5 fullShare (k1_pay5 x0 x1 s1)
            ∗ owns (c : Thread nD τ) arg6 fullShare (k1_pay4 x0 x1 s0)
            ∗ owns (c : Thread nD τ) arg7 fullShare (k1_pay5 x0 x1 s1)) -∗ K ⟨⟩))
      ⊢ wp frame (wpE (defs₀ (F := F)) Variants.none c none) E (cc1__act_stats_kernel i arg1 harg1 arg2 harg2 arg3 harg3 arg4 harg4 arg5 harg5 arg6 harg6 arg7 harg7) K := by
  simp only [cc1__act_stats_kernel_eq_skeleton]; unfold cc1__act_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  obtain rfl := harg1.eq_unread hf0; obtain rfl := harg2.eq_unread hf1; obtain rfl := harg6.eq_unread hf5; obtain rfl := harg7.eq_unread hf6
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [read_writes_whole_last _ _ hz2]
    simp only [View.readAt_eq_ld, harg1.read_unread, harg2.read_unread, View.ld_unit_zero (S := S5000x64) hz2, View.ld_unit_zero (S := S1x64) hz2]
  isplitl [H3]
  · iexists _; isplitr
    swap; · iexact H3
    ipureintro
    rw [read_writes_whole_last _ _ hz2]
    sl_unfold_run_names
    simp only [readCov_whole_last (S := S1x64) _ hz2, View.readAt_eq_ld, harg1.read_unread, harg2.read_unread, harg6.read_unread, View.ld_unit_zero (S := S5000x64) hz2, View.ld_unit_zero (S := S1x64) hz2]
  isplitl [H4]
  · iexists _; isplitr
    swap; · iexact H4
    ipureintro
    rw [read_writes_whole_last _ _ hz2]
    sl_unfold_run_names
    simp only [readCov_whole_last (S := S1x64) _ hz2, View.readAt_eq_ld, harg1.read_unread, harg2.read_unread, harg7.read_unread, View.ld_unit_zero (S := S5000x64) hz2, View.ld_unit_zero (S := S1x64) hz2]
  isplitl [H5]
  · iexists _; isplitr
    swap; · iexact H5
    ipureintro
    sl_unfold_run_names
    rw [read_writes_whole_last _ _ hz2]
    simp only [readCov_whole_last (S := S1x64) _ hz2, View.readAt_eq_ld, harg1.read_unread, harg2.read_unread, harg6.read_unread, View.ld_unit_zero (S := S5000x64) hz2, View.ld_unit_zero (S := S1x64) hz2]
  iexists _; isplitr
  swap; · iexact H6
  ipureintro
  sl_unfold_run_names
  rw [read_writes_whole_last _ _ hz2]
  simp only [readCov_whole_last (S := S1x64) _ hz2, View.readAt_eq_ld, harg1.read_unread, harg2.read_unread, harg7.read_unread, View.ld_unit_zero (S := S5000x64) hz2, View.ld_unit_zero (S := S1x64) hz2]

end Cert.Kernel.Fr

end
-- ==== Proof.K.FrameR1.lean ====
/- The second kernel call's half of the frame, at a parameter `V` (the TensorCore's buffer contents when the region is
   entered): each window's block at a point; what the three outputs' staging buffers and the two accumulators hold after
   each point, by recursion on the point — the activation block is the payload of the point's aggregate block and the
   bias row, each accumulator is its payload over what the point before left (over the zero vector at the first point),
   and the two whole-array outputs, overwritten at every point, are the accumulators —; the invariant that carries the
   accumulators from point to point; the pipeline's proof data; the body obligation by cases on the point being the
   first; and the invariant against the launch's (in at the start, out at the end). -/
import proofs.«117114_j45715631899545_1_alg».proof.Proof.K.FrameR1.RunB

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregate's window holds its block at every point, for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's window, fetched at the first point only, holds the row at every point: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the outputs and the accumulators hold after each point -/

/-- After the body at position `n`: the three outputs' staging buffers (the activation block, the sum output, the
    sum-of-squares output), then the two accumulators. At the first point the accumulators start from the zero
    vectors the body stores there; at a later point from what the point before left. -/
def outsAt1 (c : Dev nD) : (n : ℕ) → n < cfg1.N → (Vec F S5000x64 .f32 × Vec F S1x64 .f32 × Vec F S1x64 .f32) × (Vec F S1x64 .f32 × Vec F S1x64 .f32)
  | 0, hn =>
    ((k1_pay3 (iblk1 V c 0 ⟨0, hn⟩) (iblk1 V c 1 ⟨0, hn⟩), k1_pay4 (iblk1 V c 0 ⟨0, hn⟩) (iblk1 V c 1 ⟨0, hn⟩) (k1_pay1 (F := F)), k1_pay5 (iblk1 V c 0 ⟨0, hn⟩) (iblk1 V c 1 ⟨0, hn⟩) (k1_pay2 (F := F))),
     (k1_pay4 (iblk1 V c 0 ⟨0, hn⟩) (iblk1 V c 1 ⟨0, hn⟩) (k1_pay1 (F := F)), k1_pay5 (iblk1 V c 0 ⟨0, hn⟩) (iblk1 V c 1 ⟨0, hn⟩) (k1_pay2 (F := F))))
  | n + 1, hn =>
    ((k1_pay3 (iblk1 V c 0 ⟨n + 1, hn⟩) (iblk1 V c 1 ⟨n + 1, hn⟩), k1_pay4 (iblk1 V c 0 ⟨n + 1, hn⟩) (iblk1 V c 1 ⟨n + 1, hn⟩) (outsAt1 c n (Nat.lt_of_succ_lt hn)).2.1, k1_pay5 (iblk1 V c 0 ⟨n + 1, hn⟩) (iblk1 V c 1 ⟨n + 1, hn⟩) (outsAt1 c n (Nat.lt_of_succ_lt hn)).2.2),
     (k1_pay4 (iblk1 V c 0 ⟨n + 1, hn⟩) (iblk1 V c 1 ⟨n + 1, hn⟩) (outsAt1 c n (Nat.lt_of_succ_lt hn)).2.1, k1_pay5 (iblk1 V c 0 ⟨n + 1, hn⟩) (iblk1 V c 1 ⟨n + 1, hn⟩) (outsAt1 c n (Nat.lt_of_succ_lt hn)).2.2))

/-- `outsAt1` at the first point. -/
theorem outsAt1_A (c : Dev nD) (t : Fin cfg1.N) (h0 : t.val = 0) :
    outsAt1 V c t.val t.isLt =
    ((k1_pay3 (iblk1 V c 0 t) (iblk1 V c 1 t), k1_pay4 (iblk1 V c 0 t) (iblk1 V c 1 t) (k1_pay1 (F := F)), k1_pay5 (iblk1 V c 0 t) (iblk1 V c 1 t) (k1_pay2 (F := F))),
     (k1_pay4 (iblk1 V c 0 t) (iblk1 V c 1 t) (k1_pay1 (F := F)), k1_pay5 (iblk1 V c 0 t) (iblk1 V c 1 t) (k1_pay2 (F := F)))) := by
  obtain ⟨n, hn⟩ := t
  cases n with
  | zero => rfl
  | succ n => exact absurd h0 (Nat.succ_ne_zero n)

/-- `outsAt1` at a later point: over what the point before left in the accumulators. -/
theorem outsAt1_B (c : Dev nD) (t : Fin cfg1.N) (h0 : t.val ≠ 0) :
    outsAt1 V c t.val t.isLt =
    ((k1_pay3 (iblk1 V c 0 t) (iblk1 V c 1 t), k1_pay4 (iblk1 V c 0 t) (iblk1 V c 1 t) (outsAt1 V c (t.val - 1) (Nat.lt_of_le_of_lt (Nat.sub_le _ _) t.isLt)).2.1, k1_pay5 (iblk1 V c 0 t) (iblk1 V c 1 t) (outsAt1 V c (t.val - 1) (Nat.lt_of_le_of_lt (Nat.sub_le _ _) t.isLt)).2.2),
     (k1_pay4 (iblk1 V c 0 t) (iblk1 V c 1 t) (outsAt1 V c (t.val - 1) (Nat.lt_of_le_of_lt (Nat.sub_le _ _) t.isLt)).2.1, k1_pay5 (iblk1 V c 0 t) (iblk1 V c 1 t) (outsAt1 V c (t.val - 1) (Nat.lt_of_le_of_lt (Nat.sub_le _ _) t.isLt)).2.2)) := by
  obtain ⟨n, hn⟩ := t
  cases n with
  | zero => exact absurd rfl h0
  | succ n => rfl

/-- At every point the activation block is the payload of the point's two input blocks; -/
theorem outsAt1_act (c : Dev nD) (t : Fin cfg1.N) :
    (outsAt1 V c t.val t.isLt).1.1 = k1_pay3 (iblk1 V c 0 t) (iblk1 V c 1 t) := by
  obtain ⟨n, hn⟩ := t
  cases n with
  | zero => rfl
  | succ n => rfl

/-- the sum output is the first accumulator; -/
theorem outsAt1_sum (c : Dev nD) (t : Fin cfg1.N) : (outsAt1 V c t.val t.isLt).1.2.1 = (outsAt1 V c t.val t.isLt).2.1 := by
  obtain ⟨n, hn⟩ := t
  cases n with
  | zero => rfl
  | succ n => rfl

/-- and the sum-of-squares output is the second. -/
theorem outsAt1_sq (c : Dev nD) (t : Fin cfg1.N) : (outsAt1 V c t.val t.isLt).1.2.2 = (outsAt1 V c t.val t.isLt).2.2 := by
  obtain ⟨n, hn⟩ := t
  cases n with
  | zero => rfl
  | succ n => rfl

/-! ## The invariant: the accumulators carried between points -/

/-- The two accumulators: whole scoped buffers of the kernel's own, passed beside the windows. -/
abbrev scM1_0 : Memref sig .tc .vmem S1x64 .f32 := Memref.whole cc1_scratch0
abbrev scM1_1 : Memref sig .tc .vmem S1x64 .f32 := Memref.whole cc1_scratch1

/-- A whole scoped buffer of the core at some contents. -/
abbrev anyBuf (c : Dev nD) (b : Ref sig .tc) : sProp 𝕄 :=
  iprop(∃ f : Buf (Elt F) ((c : Thread nD τ).loc b), ((c : Thread nD τ).loc b) ↦{fullShare} f)

/-- The launch's invariant for this pipeline with the two accumulators as memrefs owned at some contents: the other
    kernel calls' staging buffers at anything, the accumulators, the generator register at some state. -/
theorem PhiA1_eq (c : Dev nD) :
    (Pipeline.ΦA spec1 c : sProp 𝕄)
      = iprop(iprop(anyBuf c cc0_stg0_0 ∗ anyBuf c cc0_stg0_1 ∗ anyBuf c cc0_stg1_0 ∗ anyBuf c cc0_stg2_0 ∗ anyBuf c cc0_stg2_1 ∗ (∃ d, owns (c : Thread nD τ) scM1_0 fullShare d) ∗ (∃ d, owns (c : Thread nD τ) scM1_1 fullShare d) ∗ anyBuf c cc2_stg0_0 ∗ anyBuf c cc2_stg0_1 ∗ anyBuf c cc2_stg1_0 ∗ anyBuf c cc2_stg2_0 ∗ anyBuf c cc2_stg3_0 ∗ anyBuf c cc2_stg4_0 ∗ anyBuf c cc2_stg5_0 ∗ anyBuf c cc2_stg5_1) ∗ (∃ r, prngReg c r)) := by
  unfold Pipeline.ΦA; rw [scopedRest1_eq]; simp only [scM1_0, scM1_1, owns_whole]; try rfl

/-- The region invariant before position `n`: before the first point the launch's (every scoped buffer that is no
    staging buffer of this pipeline at anything); afterwards the same with the two accumulators at what the point
    before left in them. -/
def PhiS1 (c : Dev nD) : (n : ℕ) → n ≤ cfg1.N → sProp 𝕄
  | 0, _ => Pipeline.ΦA spec1 c
  | n + 1, hn => iprop(iprop(anyBuf c cc0_stg0_0 ∗ anyBuf c cc0_stg0_1 ∗ anyBuf c cc0_stg1_0 ∗ anyBuf c cc0_stg2_0 ∗ anyBuf c cc0_stg2_1 ∗ owns (c : Thread nD τ) scM1_0 fullShare (outsAt1 V c n hn).2.1 ∗ owns (c : Thread nD τ) scM1_1 fullShare (outsAt1 V c n hn).2.2 ∗ anyBuf c cc2_stg0_0 ∗ anyBuf c cc2_stg0_1 ∗ anyBuf c cc2_stg1_0 ∗ anyBuf c cc2_stg2_0 ∗ anyBuf c cc2_stg3_0 ∗ anyBuf c cc2_stg4_0 ∗ anyBuf c cc2_stg5_0 ∗ anyBuf c cc2_stg5_1) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop(anyBuf c cc0_stg0_0 ∗ anyBuf c cc0_stg0_1 ∗ anyBuf c cc0_stg1_0 ∗ anyBuf c cc0_stg2_0 ∗ anyBuf c cc0_stg2_1 ∗ owns (c : Thread nD τ) scM1_0 fullShare (outsAt1 V c n hn).2.1 ∗ owns (c : Thread nD τ) scM1_1 fullShare (outsAt1 V c n hn).2.2 ∗ anyBuf c cc2_stg0_0 ∗ anyBuf c cc2_stg0_1 ∗ anyBuf c cc2_stg1_0 ∗ anyBuf c cc2_stg2_0 ∗ anyBuf c cc2_stg3_0 ∗ anyBuf c cc2_stg4_0 ∗ anyBuf c cc2_stg5_0 ∗ anyBuf c cc2_stg5_1) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(anyBuf c cc0_stg0_0 ∗ anyBuf c cc0_stg0_1 ∗ anyBuf c cc0_stg1_0 ∗ anyBuf c cc0_stg2_0 ∗ anyBuf c cc0_stg2_1 ∗ owns (c : Thread nD τ) scM1_0 fullShare (outsAt1 V c (n - 1) (by omega)).2.1 ∗ owns (c : Thread nD τ) scM1_1 fullShare (outsAt1 V c (n - 1) (by omega)).2.2 ∗ anyBuf c cc2_stg0_0 ∗ anyBuf c cc2_stg0_1 ∗ anyBuf c cc2_stg1_0 ∗ anyBuf c cc2_stg2_0 ∗ anyBuf c cc2_stg3_0 ∗ anyBuf c cc2_stg4_0 ∗ anyBuf c cc2_stg5_0 ∗ anyBuf c cc2_stg5_1) ∗ (∃ r, prngReg c r)) := by
  cases n with
  | zero => exact absurd rfl hz
  | succ n => rfl

/-! ## The pipeline's proof data -/

/-- The proof data of this pipeline on core `c`: the arrays as the region finds them (`V`); after the body at point
    `t` each input's buffer at its block and the outputs' at `outsAt1`'s components; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1.1
    | ⟨3, _⟩ => (outsAt1 V c t.val t.isLt).1.2.1
    | ⟨4, _⟩ => (outsAt1 V c t.val t.isLt).1.2.2
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1.1 := by dsimp only [dat1]
theorem after1_3 (c : Dev nD) (t : Fin cfg1.N) : (dat1 V c).after 3 t = (outsAt1 V c t.val t.isLt).1.2.1 := by dsimp only [dat1]
theorem after1_4 (c : Dev nD) (t : Fin cfg1.N) : (dat1 V c).after 4 t = (outsAt1 V c t.val t.isLt).1.2.2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4800000 in
/-- The body at any point: the inputs' memrefs hold their blocks; the point is the first or a later one; at the
    first the invariant hands the body the accumulators at anything (they are zeroed before being read), at a later
    one at what the point before left; the outputs' buffers are handed over at anything (each is overwritten whole
    before it matters); the invariant takes the accumulators back at this point's contents; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  by_cases h0 : t.val = 0
  · rw [outsAt1_A V c t h0]; dsimp only
    rw [PhiS1_castSucc V c t, PhiS1_zero V c _ _ h0, PhiA1_eq]
    iintro ⟨⟨⟨B1, B2, B3, B4, B5, HS0, HS1, BT⟩, Hg⟩, Ho, ⟨%d0, H0⟩, ⟨%d1, H1⟩, ⟨%d2, H2⟩, ⟨%d3, H3⟩, ⟨%d4, H4⟩⟩
    iapply (sound_kernel1_A c Set.univ (grid1.coords t) _ _ _ _ _ _ _ _ _ _ _ _ _ _ ((hcond1_0 t).mpr h0) (iblk1 V c 0 t) (iblk1 V c 1 t) _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [B1 B2 B3 B4 B5 HS0 HS1 BT Hg]
    · isplitr [Hg]
      · isplitl [B1]; · iexact B1
        isplitl [B2]; · iexact B2
        isplitl [B3]; · iexact B3
        isplitl [B4]; · iexact B4
        isplitl [B5]; · iexact B5
        isplitl [HS0]; · iexact HS0
        isplitl [HS1]; · iexact HS1
        iexact BT
      iexact Hg
    isplitl [Ho]; · iexact Ho
    isplitl [H0]; · iexact H0
    isplitl [H1]; · iexact H1
    isplitl [H2]; · iexact H2
    isplitl [H3]; · iexact H3
    iexact H4
  · rw [outsAt1_B V c t h0]; dsimp only
    rw [PhiS1_castSucc V c t, PhiS1_pos V c _ _ h0]
    iintro ⟨⟨⟨B1, B2, B3, B4, B5, HS0, HS1, BT⟩, Hg⟩, Ho, ⟨%d0, H0⟩, ⟨%d1, H1⟩, ⟨%d2, H2⟩, ⟨%d3, H3⟩, ⟨%d4, H4⟩⟩
    iapply (sound_kernel1_B c Set.univ (grid1.coords t) _ _ _ _ _ _ _ _ _ _ _ _ _ _ (fun h => h0 ((hcond1_0 t).mp h)) (iblk1 V c 0 t) (iblk1 V c 1 t) _ _ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [B1 B2 B3 B4 B5 HS0 HS1 BT Hg]
    · isplitr [Hg]
      · isplitl [B1]; · iexact B1
        isplitl [B2]; · iexact B2
        isplitl [B3]; · iexact B3
        isplitl [B4]; · iexact B4
        isplitl [B5]; · iexact B5
        isplitl [HS0]; · iexact HS0
        isplitl [HS1]; · iexact HS1
        iexact BT
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant against the launch's -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨B1, B2, B3, B4, B5, HS0, HS1, BT⟩, Hg⟩
  isplitr [Hg]
  · isplitl [B1]; · iexact B1
    isplitl [B2]; · iexact B2
    isplitl [B3]; · iexact B3
    isplitl [B4]; · iexact B4
    isplitl [B5]; · iexact B5
    isplitl [HS0]; · iexists _; iexact HS0
    isplitl [HS1]; · iexists _; iexact HS1
    iexact BT
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.Kernel.Fr

end
-- ==== Proof.K.FrameR2.lean ====
import proofs.«117114_j45715631899545_1_alg».proof.Proof.Gen.Kernel.Launch
import proofs.«117114_j45715631899545_1_alg».proof.Proof.Gen.Kernel.Skeleton
import proofs.«117114_j45715631899545_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 2 of @main: custom_call 2, the normalisation kernel (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (a whole row vector, fetched at the first point only) the same way. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (a whole row vector, fetched at the first point only) the same way. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (a whole row vector, fetched at the first point only) the same way. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (a whole row vector, fetched at the first point only) the same way. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0

/-! ## What the body leaves in the output window's buffer -/

/-- Window 5's staging buffer after the body, from the input windows' blocks: its one store, of the whole buffer,
    of the block shifted and scaled entrywise by the four row vectors. -/
def out2_5 (x0 : Vec F S5000x64 .f32) (x1 x2 x3 x4 : Vec F S1x64 .f32) : Vec F S5000x64 .f32 :=
  View.canon [⟨r2_0, k2_pay1 (View.ld x0 r2_0) (View.ld x1 r2_1) (View.ld x2 r2_1) (View.ld x3 r2_1) (View.ld x4 r2_1)⟩]

/-- The store tiles the buffer, so it covers it. -/
theorem cover2_5 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The kernel body on whole staging memrefs, the inputs' at read contents `x0` … `x4` and the output's at anything,
    runs to the continuation holding the inputs' as they were and the output's at `out2_5` of the inputs': the printed
    function is its skeleton, whose six loads and one store are run one by one. -/
theorem sound_kernel2 (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__norm_kernel i arg1 harg1 arg2 harg2 arg3 harg3 arg4 harg4 arg5 harg5 arg6 harg6) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point
    `t` each input's buffer at its block and the output's at `out2_5` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's case split reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.FrameRun.lean ====
import proofs.«117114_j45715631899545_1_alg».proof.Proof.Gen.Kernel.Launch
import proofs.«117114_j45715631899545_1_alg».proof.Proof.Gen.Kernel.Skeleton
import proofs.«117114_j45715631899545_1_alg».proof.Proof.Gen.Kernel.Points
import proofs.«117114_j45715631899545_1_alg».proof.Proof.Gen.Kernel.Regions
import proofs.«117114_j45715631899545_1_alg».proof.Proof.K.FrameR0
import proofs.«117114_j45715631899545_1_alg».proof.Proof.K.FrameR1
import proofs.«117114_j45715631899545_1_alg».proof.Proof.K.FrameR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return

## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
theorem W1_of (c : Dev nD) (r : Ref sig .tc) (h : r ∉ hostOps0_W) : W1 m ρ c r = W0 m ρ c r :=
  StableHlo.after_of_writes_sub hostOps0 _ hostOps0_writes h
/-- The same read at the TensorCore's references (what region 0's proof data take). -/
abbrev Vin0 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev Vout0 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
theorem W3_of (c : Dev nD) (r : Ref sig .tc) (h : r ∉ hostOps1_W) : W3 m ρ c r = W2 m ρ c r :=
  StableHlo.after_of_writes_sub hostOps1 _ hostOps1_writes h

/-- After `hostOps1_1`. -/
abbrev W4 : Dev nD → Valuation τ sig (Elt F) := fun c => StableHlo.after hostOps1_1 (W3 m ρ c)
theorem W4_of (c : Dev nD) (r : Ref sig .tc) (h : r ∉ hostOps1_1_W) : W4 m ρ c r = W3 m ρ c r :=
  StableHlo.after_of_writes_sub hostOps1_1 _ hostOps1_1_writes h

/-- After `hostOps1_2` (region 1's entry). -/
abbrev W5 : Dev nD → Valuation τ sig (Elt F) := fun c => StableHlo.after hostOps1_2 (W4 m ρ c)
theorem W5_of (c : Dev nD) (r : Ref sig .tc) (h : r ∉ hostOps1_2_W) : W5 m ρ c r = W4 m ρ c r :=
  StableHlo.after_of_writes_sub hostOps1_2 _ hostOps1_2_writes h
/-- The same read at the TensorCore's references (what region 1's proof data take). -/
abbrev Vin1 : (c : Dev nD) → (b : Ref sig .tc) → Buf (Elt F) ((c : Thread nD τ).loc b) := fun c b => W5 m ρ c b

/-- At region 1's exit: its arrays at what the pipeline leaves (the inputs as entered, each output's write-backs
    folded), every other buffer as entered. -/
def W6 (c : Dev nD) : Valuation τ sig (Elt F) :=
  Pipeline.withArrays spec1 c (W5 m ρ c) fun w => (dat1 (Vin1 m ρ) c).arrAt w cfg1.N
theorem W6_arr (c : Dev nD) (w : Fin cfg1.W) :
    W6 m ρ c (Proc.devRef .tc (Pipeline.arrRef spec1 w)) = (dat1 (Vin1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (region 1's exit contents). -/
abbrev Vout1 : (c : Dev nD) → (b : Ref sig .tc) → Buf (Elt F) ((c : Thread nD τ).loc b) := fun c b => W6 m ρ c b
/-- At region 1's exit each of its arrays holds what the pipeline leaves and every other buffer what it held at entry. -/
theorem hF1 (c : Dev nD) (w : Fin cfg1.W) : (dat1 (Vin1 m ρ) c).arrAt w cfg1.N = Vout1 m ρ c (Pipeline.arrRef spec1 w) :=
  (W6_arr m ρ c w).symm
theorem hrest1 (c : Dev nD) : ∀ b, b ∉ Finset.univ.image (Pipeline.arrRef spec1) → Vout1 m ρ c b = Vin1 m ρ c b :=
  fun b hb => W6_of_ne m ρ c b fun w e => hb (Finset.mem_image.mpr ⟨w, Finset.mem_univ _, e⟩)

/-- After `hostOps2` (region 2's entry). -/
abbrev W7 : Dev nD → Valuation τ sig (Elt F) := fun c => StableHlo.after hostOps2 (W6 m ρ c)
theorem W7_of (c : Dev nD) (r : Ref sig .tc) (h : r ∉ hostOps2_W) : W7 m ρ c r = W6 m ρ c r :=
  StableHlo.after_of_writes_sub hostOps2 _ hostOps2_writes h
/-- The same read at the TensorCore's references (what region 2's proof data take). -/
abbrev Vin2 : (c : Dev nD) → (b : Ref sig .tc) → Buf (Elt F) ((c : Thread nD τ).loc b) := fun c b => W7 m ρ c b

/-- At region 2's exit: its arrays at what the pipeline leaves (the inputs as entered, each output's write-backs
    folded), every other buffer as entered. -/
def W8 (c : Dev nD) : Valuation τ sig (Elt F) :=
  Pipeline.withArrays spec2 c (W7 m ρ c) fun w => (dat2 (Vin2 m ρ) c).arrAt w cfg2.N
theorem W8_arr (c : Dev nD) (w : Fin cfg2.W) :
    W8 m ρ c (Proc.devRef .tc (Pipeline.arrRef spec2 w)) = (dat2 (Vin2 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (region 2's exit contents). -/
abbrev Vout2 : (c : Dev nD) → (b : Ref sig .tc) → Buf (Elt F) ((c : Thread nD τ).loc b) := fun c b => W8 m ρ c b
/-- At region 2's exit each of its arrays holds what the pipeline leaves and every other buffer what it held at entry. -/
theorem hF2 (c : Dev nD) (w : Fin cfg2.W) : (dat2 (Vin2 m ρ) c).arrAt w cfg2.N = Vout2 m ρ c (Pipeline.arrRef spec2 w) :=
  (W8_arr m ρ c w).symm
theorem hrest2 (c : Dev nD) : ∀ b, b ∉ Finset.univ.image (Pipeline.arrRef spec2) → Vout2 m ρ c b = Vin2 m ρ c b :=
  fun b hb => W8_of_ne m ρ c b fun w e => hb (Finset.mem_image.mpr ⟨w, Finset.mem_univ _, e⟩)

/-! ### The arguments end as launched: no host operation and no region writes one, so the fold at an argument's
    buffer walks back to the launch memory -/

/-- A reference no host stretch writes and no region's window is laid on holds at the end what it held at launch. -/
theorem W8_of_untouched (c : Dev nD) (r : Ref sig .tc)
    (h0 : r ∉ hostOps0_W) (h1 : r ∉ hostOps1_W) (h11 : r ∉ hostOps1_1_W) (h12 : r ∉ hostOps1_2_W) (h2 : r ∉ hostOps2_W)
    (a0 : ∀ w, Pipeline.arrRef spec0 w ≠ r) (a1 : ∀ w, Pipeline.arrRef spec1 w ≠ r) (a2 : ∀ w, Pipeline.arrRef spec2 w ≠ r) :
    W8 m ρ c (Proc.devRef .tc r) = m ((c : Thread nD τ).loc r) :=
  calc W8 m ρ c (Proc.devRef .tc r)
    _ = W7 m ρ c (Proc.devRef .tc r) := W8_of_ne m ρ c r a2
    _ = W6 m ρ c (Proc.devRef .tc r) := W7_of m ρ c r h2
    _ = W5 m ρ c (Proc.devRef .tc r) := W6_of_ne m ρ c r a1
    _ = W4 m ρ c (Proc.devRef .tc r) := W5_of m ρ c r h12
    _ = W3 m ρ c (Proc.devRef .tc r) := W4_of m ρ c r h11
    _ = W2 m ρ c (Proc.devRef .tc r) := W3_of m ρ c r h1
    _ = W1 m ρ c (Proc.devRef .tc r) := W2_of_ne m ρ c r a0
    _ = W0 m ρ c (Proc.devRef .tc r) := W1_of m ρ c r h0
    _ = m ((c : Thread nD τ).loc r) := rfl

theorem W8_main_arg0 (c : Dev nD) : W8 m ρ c (Proc.devRef .tc main_arg0) = m ((c : Thread nD τ).loc main_arg0) :=
  W8_of_untouched m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of_untouched m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of_untouched m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of_untouched m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of_untouched m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of_untouched m ρ c main_arg5 (by decide) (by decide) (by decide) (by decide) (by decide) (by decide) (by decide) (by decide)

/-- A reference `hostOps0` does not write and no window of region 0 is laid on holds at region 0's exit what it held
    at launch. -/
theorem W2_of_untouched (c : Dev nD) (r : Ref sig .tc) (h0 : r ∉ hostOps0_W) (a0 : ∀ w, Pipeline.arrRef spec0 w ≠ r) :
    W2 m ρ c (Proc.devRef .tc r) = m ((c : Thread nD τ).loc r) :=
  calc W2 m ρ c (Proc.devRef .tc r)
    _ = W1 m ρ c (Proc.devRef .tc r) := W2_of_ne m ρ c r a0
    _ = W0 m ρ c (Proc.devRef .tc r) := W1_of m ρ c r h0
    _ = m ((c : Thread nD τ).loc r) := rfl

/-- A reference none of the first four host stretches writes and no window of regions 0 and 1 is laid on holds at
    region 1's exit what it held at launch. -/
theorem W6_of_untouched (c : Dev nD) (r : Ref sig .tc)
    (h0 : r ∉ hostOps0_W) (h1 : r ∉ hostOps1_W) (h11 : r ∉ hostOps1_1_W) (h12 : r ∉ hostOps1_2_W)
    (a0 : ∀ w, Pipeline.arrRef spec0 w ≠ r) (a1 : ∀ w, Pipeline.arrRef spec1 w ≠ r) :
    W6 m ρ c (Proc.devRef .tc r) = m ((c : Thread nD τ).loc r) :=
  calc W6 m ρ c (Proc.devRef .tc r)
    _ = W5 m ρ c (Proc.devRef .tc r) := W6_of_ne m ρ c r a1
    _ = W4 m ρ c (Proc.devRef .tc r) := W5_of m ρ c r h12
    _ = W3 m ρ c (Proc.devRef .tc r) := W4_of m ρ c r h11
    _ = W2 m ρ c (Proc.devRef .tc r) := W3_of m ρ c r h1
    _ = m ((c : Thread nD τ).loc r) := W2_of_untouched m ρ c r h0 a0

theorem W2_main_arg1 (c : Dev nD) : W2 m ρ c (Proc.devRef .tc main_arg1) = m ((c : Thread nD τ).loc main_arg1) :=
  W2_of_untouched m ρ c main_arg1 (by decide) (by decide)
theorem W2_main_arg3 (c : Dev nD) : W2 m ρ c (Proc.devRef .tc main_arg3) = m ((c : Thread nD τ).loc main_arg3) :=
  W2_of_untouched m ρ c main_arg3 (by decide) (by decide)
theorem W6_main_arg4 (c : Dev nD) : W6 m ρ c (Proc.devRef .tc main_arg4) = m ((c : Thread nD τ).loc main_arg4) :=
  W6_of_untouched m ρ c main_arg4 (by decide) (by decide) (by decide) (by decide) (by decide) (by decide)
theorem W6_main_arg5 (c : Dev nD) : W6 m ρ c (Proc.devRef .tc main_arg5) = m ((c : Thread nD τ).loc main_arg5) :=
  W6_of_untouched m ρ c main_arg5 (by decide) (by decide) (by decide) (by decide) (by decide) (by decide)
/-- `hostOps2` does not write region 1's first output array. -/
theorem W7_main_v58_0 (c : Dev nD) : W7 m ρ c (Proc.devRef .tc main_v58_0) = W6 m ρ c (Proc.devRef .tc main_v58_0) :=
  W7_of m ρ c main_v58_0 (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W8`, the generator
    register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- REGION 0 (custom_call 0) over the thread state: entered from every unscoped buffer at `W1`, left at `W2`.
    Its arrays split out of the unscoped buffers and put back at the exit contents; the generator register into the
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W5`, left at `W6`.
    Its arrays split out of the unscoped buffers and put back at the exit contents; the generator register into the
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun w => A_eq1 (Vin1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (Vin1 m ρ) c).Φ 0 from rfl]
    refine (?_ : _ ⊢ (Pipeline.ΦA spec1 c : sProp 𝕄)).trans (hin1 (Vin1 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (Vin1 m ρ) c).Φ (Fin.last cfg1.N) from rfl]
    refine (hout1 (Vin1 m ρ) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W7`, left at `W8`.
    Its arrays split out of the unscoped buffers and put back at the exit contents; the generator register into the
    invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ) ]
/-- @main is the run of the segments. -/
theorem main_run (c : Dev nD) : main (F := F) c = Pipeline.Seg.run (segs m ρ) := by
  rw [main_chain c, Pipeline.Seg.run_eq_chain]
  rfl

set_option backward.isDefEq.respectTransparency.types false in
/-- THE RUN: from any memory with zero counters, every weakly fair execution of @main on the TensorCores terminates,
    nothing faulting, and every final state holds every unscoped buffer at the last boundary's contents `W8`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: at the compiled mesh, from any memory with zero counters, every weakly fair execution of @main on the
    TensorCores terminates, nothing faulting, and every final state has the argument arrays as launched: each argument
    is an unscoped buffer no segment writes, so the last boundary's contents at it are the launch's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩) (run_all m ρ)

end Cert.Kernel.Fr

end
-- ==== Proof.FrameR0.lean ====
import proofs.«117114_j45715631899545_1_alg».proof.Proof.Gen.KernelIdeal.Launch
import proofs.«117114_j45715631899545_1_alg».proof.Proof.Gen.KernelIdeal.Skeleton
import proofs.«117114_j45715631899545_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, the matrix product kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole right factor, fetched at the first point only) the same way. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S5000x64 := Rect.unit (s := S5000x64) ![0, 0] S5000x64.size inb_S5000x64_S5000x64_0_0

/-! ## What the body leaves in the output window's buffer -/

/-- Window 2's staging buffer after the body, from the input windows' blocks: its one store, of the whole buffer,
    of the product of the two blocks. -/
def out0_2 (x0 : Vec F S5000x128 .bf16) (x1 : Vec F S128x64 .bf16) : Vec F S5000x64 .f32 :=
  View.canon [⟨r0_2, k0_pay1 (View.ld x0 r0_0) (View.ld x1 r0_1)⟩]

/-- The store tiles the buffer, so it covers it. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The kernel body on whole staging memrefs, the inputs' at read contents `x0`, `x1` and the output's at anything,
    runs to the continuation holding the inputs' as they were and the output's at `out0_2` of the inputs': the printed
    function is its skeleton, whose three loads and one store are run one by one. -/
theorem sound_kernel0 (c : Dev nD) (E : Set ℕ) (i : grid0.Coords) (arg1 : Memref sig .tc .vmem S5000x128 .bf16) (harg1 : arg1.IsWhole) (arg2 : Memref sig .tc .vmem S128x64 .bf16) (harg2 : arg2.IsWhole) (arg3 : Memref sig .tc .vmem S5000x64 .f32) (harg3 : arg3.IsWhole)
    (x0 : Vec F S5000x128 .bf16) (x1 : Vec F S128x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameR1.Base.lean ====
/- The second kernel call (the activation-and-statistics kernel): what its whole-body runs share.
   Every load and store of the body goes through the whole-shape rectangle at zero offsets, so a buffer after a
   store reads as that store's payload, and a load after a store reads the payload; the body's one conditional
   tests whether the grid coordinate is zero, which holds at the first point only. -/
import proofs.«117114_j45715631899545_1_alg».proof.Proof.Gen.KernelIdeal.Launch
import proofs.«117114_j45715631899545_1_alg».proof.Proof.Gen.KernelIdeal.Skeleton
import proofs.«117114_j45715631899545_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem hz2 : (![0, 0] : Fin 2 → Nat) = fun _ => 0 := funext fun a => by fin_cases a <;> rfl

/-- After a last store through the whole-shape rectangle at zero offsets the buffer reads as that store's payload,
    whatever was stored before and whatever the buffer held. -/
theorem read_writes_whole_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.Mem.head _, View.mem_set_unit_zero h inb y⟩), View.canon_cons_unit_zero h]

/-- A load through that rectangle after such a store reads the store's payload. -/
theorem readCov_whole_last {κ : Kind} {sp : Space} {S : Shape} {e : EltTy} (v : View sig κ sp S e)
    {off : Fin S.rank → Nat} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩), View.canon_cons_unit_zero h, View.ld_unit_zero h]

/-- The condition of the body's conditional, from the grid coordinates: the coordinate is zero. -/
abbrev cond1_0 (i : grid1.Coords) : Prop := (Scalar.cmpi .ne (Scalar.extui (Scalar.cmpi .eq (BitVec.ofNat 32 (i 0).val) 0#32)) 0#32) = 1#1

/-- It holds at the first point only: decided over the twenty points of the grid. -/
theorem hcond1_0 : ∀ t : Fin cfg1.N, cond1_0 (grid1.coords t) ↔ t.val = 0 :=
  (by decide +kernel : ∀ t : Fin grid1.N, cond1_0 (grid1.coords t) ↔ t.val = 0)

end Cert.KernelIdeal.Fr

end
-- ==== Proof.FrameR1.RunA.lean ====
/- The second kernel call's body at the FIRST grid point, run whole: both accumulators are zeroed before anything
   else, so whatever they held does not matter; the activation block is the leaky-rectified sum of the aggregate block
   and the bias row; each accumulator ends as its zero plus the block's column sum (of the activations, of their
   squares), and the two whole-array outputs are copies of the accumulators. -/
import proofs.«117114_j45715631899545_1_alg».proof.Proof.FrameR1.Base

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first point: the two accumulators are zeroed, then the activation block is stored and the two
    column sums are added onto the accumulators and copied to the two whole-array outputs. -/
theorem sound_kernel1_A (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S5000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc : cond1_0 i)
    (x0 : Vec F S5000x64 .f32) (x1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (k1_pay3 x0 x1)
            ∗ owns (c : Thread nD τ) arg4 fullShare (k1_pay4 x0 x1 (k1_pay1 (F := F)))
            ∗ owns (c : Thread nD τ) arg5 fullShare (k1_pay5 x0 x1 (k1_pay2 (F := F)))
            ∗ owns (c : Thread nD τ) arg6 fullShare (k1_pay4 x0 x1 (k1_pay1 (F := F)))
            ∗ owns (c : Thread nD τ) arg7 fullShare (k1_pay5 x0 x1 (k1_pay2 (F := F)))) -∗ K ⟨⟩))
      ⊢ wp frame (wpE (defs₀ (F := F)) Variants.none c none) E (cc1__act_stats_kernel i arg1 harg1 arg2 harg2 arg3 harg3 arg4 harg4 arg5 harg5 arg6 harg6 arg7 harg7) K := by
  simp only [cc1__act_stats_kernel_eq_skeleton]; unfold cc1__act_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  obtain rfl := harg1.eq_unread hf0; obtain rfl := harg2.eq_unread hf1
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [read_writes_whole_last _ _ hz2]
    simp only [View.readAt_eq_ld, harg1.read_unread, harg2.read_unread, View.ld_unit_zero (S := S5000x64) hz2, View.ld_unit_zero (S := S1x64) hz2]
  isplitl [H3]
  · iexists _; isplitr
    swap; · iexact H3
    ipureintro
    rw [read_writes_whole_last _ _ hz2]
    sl_unfold_run_names
    simp only [readCov_whole_last (S := S1x64) _ hz2, View.readAt_eq_ld, harg1.read_unread, harg2.read_unread, harg6.read_unread, View.ld_unit_zero (S := S5000x64) hz2, View.ld_unit_zero (S := S1x64) hz2]
  isplitl [H4]
  · iexists _; isplitr
    swap; · iexact H4
    ipureintro
    rw [read_writes_whole_last _ _ hz2]
    sl_unfold_run_names
    simp only [readCov_whole_last (S := S1x64) _ hz2, View.readAt_eq_ld, harg1.read_unread, harg2.read_unread, harg7.read_unread, View.ld_unit_zero (S := S5000x64) hz2, View.ld_unit_zero (S := S1x64) hz2]
  isplitl [H5]
  · iexists _; isplitr
    swap; · iexact H5
    ipureintro
    sl_unfold_run_names
    rw [read_writes_whole_last _ _ hz2]
    simp only [readCov_whole_last (S := S1x64) _ hz2, View.readAt_eq_ld, harg1.read_unread, harg2.read_unread, harg6.read_unread, View.ld_unit_zero (S := S5000x64) hz2, View.ld_unit_zero (S := S1x64) hz2]
  iexists _; isplitr
  swap; · iexact H6
  ipureintro
  sl_unfold_run_names
  rw [read_writes_whole_last _ _ hz2]
  simp only [readCov_whole_last (S := S1x64) _ hz2, View.readAt_eq_ld, harg1.read_unread, harg2.read_unread, harg7.read_unread, View.ld_unit_zero (S := S5000x64) hz2, View.ld_unit_zero (S := S1x64) hz2]

end Cert.KernelIdeal.Fr

end
-- ==== Proof.FrameR1.RunB.lean ====
/- The second kernel call's body at a LATER grid point, run whole: the conditional is skipped, the accumulators
   hold what the point before left, and each ends as that plus this block's column sum; the activation block and the
   two whole-array outputs as at the first point. -/
import proofs.«117114_j45715631899545_1_alg».proof.Proof.FrameR1.RunA

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a later point: the accumulators hold what the point before left. -/
theorem sound_kernel1_B (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S5000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc : ¬cond1_0 i)
    (x0 : Vec F S5000x64 .f32) (x1 : Vec F S1x64 .f32) (s0 s1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg3 fullShare (k1_pay3 x0 x1)
            ∗ owns (c : Thread nD τ) arg4 fullShare (k1_pay4 x0 x1 s0)
            ∗ owns (c : Thread nD τ) arg5 fullShare (k1_pay5 x0 x1 s1)
            ∗ owns (c : Thread nD τ) arg6 fullShare (k1_pay4 x0 x1 s0)
            ∗ owns (c : Thread nD τ) arg7 fullShare (k1_pay5 x0 x1 s1)) -∗ K ⟨⟩))
      ⊢ wp frame (wpE (defs₀ (F := F)) Variants.none c none) E (cc1__act_stats_kernel i arg1 harg1 arg2 harg2 arg3 harg3 arg4 harg4 arg5 harg5 arg6 harg6 arg7 harg7) K := by
  simp only [cc1__act_stats_kernel_eq_skeleton]; unfold cc1__act_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  obtain rfl := harg1.eq_unread hf0; obtain rfl := harg2.eq_unread hf1; obtain rfl := harg6.eq_unread hf5; obtain rfl := harg7.eq_unread hf6
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [read_writes_whole_last _ _ hz2]
    simp only [View.readAt_eq_ld, harg1.read_unread, harg2.read_unread, View.ld_unit_zero (S := S5000x64) hz2, View.ld_unit_zero (S := S1x64) hz2]
  isplitl [H3]
  · iexists _; isplitr
    swap; · iexact H3
    ipureintro
    rw [read_writes_whole_last _ _ hz2]
    sl_unfold_run_names
    simp only [readCov_whole_last (S := S1x64) _ hz2, View.readAt_eq_ld, harg1.read_unread, harg2.read_unread, harg6.read_unread, View.ld_unit_zero (S := S5000x64) hz2, View.ld_unit_zero (S := S1x64) hz2]
  isplitl [H4]
  · iexists _; isplitr
    swap; · iexact H4
    ipureintro
    rw [read_writes_whole_last _ _ hz2]
    sl_unfold_run_names
    simp only [readCov_whole_last (S := S1x64) _ hz2, View.readAt_eq_ld, harg1.read_unread, harg2.read_unread, harg7.read_unread, View.ld_unit_zero (S := S5000x64) hz2, View.ld_unit_zero (S := S1x64) hz2]
  isplitl [H5]
  · iexists _; isplitr
    swap; · iexact H5
    ipureintro
    sl_unfold_run_names
    rw [read_writes_whole_last _ _ hz2]
    simp only [readCov_whole_last (S := S1x64) _ hz2, View.readAt_eq_ld, harg1.read_unread, harg2.read_unread, harg6.read_unread, View.ld_unit_zero (S := S5000x64) hz2, View.ld_unit_zero (S := S1x64) hz2]
  iexists _; isplitr
  swap; · iexact H6
  ipureintro
  sl_unfold_run_names
  rw [read_writes_whole_last _ _ hz2]
  simp only [readCov_whole_last (S := S1x64) _ hz2, View.readAt_eq_ld, harg1.read_unread, harg2.read_unread, harg7.read_unread, View.ld_unit_zero (S := S5000x64) hz2, View.ld_unit_zero (S := S1x64) hz2]

end Cert.KernelIdeal.Fr

end
-- ==== Proof.FrameR1.lean ====
/- The second kernel call's half of the frame, at a parameter `V` (the TensorCore's buffer contents when the region is
   entered): each window's block at a point; what the three outputs' staging buffers and the two accumulators hold after
   each point, by recursion on the point — the activation block is the payload of the point's aggregate block and the
   bias row, each accumulator is its payload over what the point before left (over the zero vector at the first point),
   and the two whole-array outputs, overwritten at every point, are the accumulators —; the invariant that carries the
   accumulators from point to point; the pipeline's proof data; the body obligation by cases on the point being the
   first; and the invariant against the launch's (in at the start, out at the end). -/
import proofs.«117114_j45715631899545_1_alg».proof.Proof.FrameR1.RunB

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregate's window holds its block at every point, for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's window, fetched at the first point only, holds the row at every point: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the outputs and the accumulators hold after each point -/

/-- After the body at position `n`: the three outputs' staging buffers (the activation block, the sum output, the
    sum-of-squares output), then the two accumulators. At the first point the accumulators start from the zero
    vectors the body stores there; at a later point from what the point before left. -/
def outsAt1 (c : Dev nD) : (n : ℕ) → n < cfg1.N → (Vec F S5000x64 .f32 × Vec F S1x64 .f32 × Vec F S1x64 .f32) × (Vec F S1x64 .f32 × Vec F S1x64 .f32)
  | 0, hn =>
    ((k1_pay3 (iblk1 V c 0 ⟨0, hn⟩) (iblk1 V c 1 ⟨0, hn⟩), k1_pay4 (iblk1 V c 0 ⟨0, hn⟩) (iblk1 V c 1 ⟨0, hn⟩) (k1_pay1 (F := F)), k1_pay5 (iblk1 V c 0 ⟨0, hn⟩) (iblk1 V c 1 ⟨0, hn⟩) (k1_pay2 (F := F))),
     (k1_pay4 (iblk1 V c 0 ⟨0, hn⟩) (iblk1 V c 1 ⟨0, hn⟩) (k1_pay1 (F := F)), k1_pay5 (iblk1 V c 0 ⟨0, hn⟩) (iblk1 V c 1 ⟨0, hn⟩) (k1_pay2 (F := F))))
  | n + 1, hn =>
    ((k1_pay3 (iblk1 V c 0 ⟨n + 1, hn⟩) (iblk1 V c 1 ⟨n + 1, hn⟩), k1_pay4 (iblk1 V c 0 ⟨n + 1, hn⟩) (iblk1 V c 1 ⟨n + 1, hn⟩) (outsAt1 c n (Nat.lt_of_succ_lt hn)).2.1, k1_pay5 (iblk1 V c 0 ⟨n + 1, hn⟩) (iblk1 V c 1 ⟨n + 1, hn⟩) (outsAt1 c n (Nat.lt_of_succ_lt hn)).2.2),
     (k1_pay4 (iblk1 V c 0 ⟨n + 1, hn⟩) (iblk1 V c 1 ⟨n + 1, hn⟩) (outsAt1 c n (Nat.lt_of_succ_lt hn)).2.1, k1_pay5 (iblk1 V c 0 ⟨n + 1, hn⟩) (iblk1 V c 1 ⟨n + 1, hn⟩) (outsAt1 c n (Nat.lt_of_succ_lt hn)).2.2))

/-- `outsAt1` at the first point. -/
theorem outsAt1_A (c : Dev nD) (t : Fin cfg1.N) (h0 : t.val = 0) :
    outsAt1 V c t.val t.isLt =
    ((k1_pay3 (iblk1 V c 0 t) (iblk1 V c 1 t), k1_pay4 (iblk1 V c 0 t) (iblk1 V c 1 t) (k1_pay1 (F := F)), k1_pay5 (iblk1 V c 0 t) (iblk1 V c 1 t) (k1_pay2 (F := F))),
     (k1_pay4 (iblk1 V c 0 t) (iblk1 V c 1 t) (k1_pay1 (F := F)), k1_pay5 (iblk1 V c 0 t) (iblk1 V c 1 t) (k1_pay2 (F := F)))) := by
  obtain ⟨n, hn⟩ := t
  cases n with
  | zero => rfl
  | succ n => exact absurd h0 (Nat.succ_ne_zero n)

/-- `outsAt1` at a later point: over what the point before left in the accumulators. -/
theorem outsAt1_B (c : Dev nD) (t : Fin cfg1.N) (h0 : t.val ≠ 0) :
    outsAt1 V c t.val t.isLt =
    ((k1_pay3 (iblk1 V c 0 t) (iblk1 V c 1 t), k1_pay4 (iblk1 V c 0 t) (iblk1 V c 1 t) (outsAt1 V c (t.val - 1) (Nat.lt_of_le_of_lt (Nat.sub_le _ _) t.isLt)).2.1, k1_pay5 (iblk1 V c 0 t) (iblk1 V c 1 t) (outsAt1 V c (t.val - 1) (Nat.lt_of_le_of_lt (Nat.sub_le _ _) t.isLt)).2.2),
     (k1_pay4 (iblk1 V c 0 t) (iblk1 V c 1 t) (outsAt1 V c (t.val - 1) (Nat.lt_of_le_of_lt (Nat.sub_le _ _) t.isLt)).2.1, k1_pay5 (iblk1 V c 0 t) (iblk1 V c 1 t) (outsAt1 V c (t.val - 1) (Nat.lt_of_le_of_lt (Nat.sub_le _ _) t.isLt)).2.2)) := by
  obtain ⟨n, hn⟩ := t
  cases n with
  | zero => exact absurd rfl h0
  | succ n => rfl

/-- At every point the activation block is the payload of the point's two input blocks; -/
theorem outsAt1_act (c : Dev nD) (t : Fin cfg1.N) :
    (outsAt1 V c t.val t.isLt).1.1 = k1_pay3 (iblk1 V c 0 t) (iblk1 V c 1 t) := by
  obtain ⟨n, hn⟩ := t
  cases n with
  | zero => rfl
  | succ n => rfl

/-- the sum output is the first accumulator; -/
theorem outsAt1_sum (c : Dev nD) (t : Fin cfg1.N) : (outsAt1 V c t.val t.isLt).1.2.1 = (outsAt1 V c t.val t.isLt).2.1 := by
  obtain ⟨n, hn⟩ := t
  cases n with
  | zero => rfl
  | succ n => rfl

/-- and the sum-of-squares output is the second. -/
theorem outsAt1_sq (c : Dev nD) (t : Fin cfg1.N) : (outsAt1 V c t.val t.isLt).1.2.2 = (outsAt1 V c t.val t.isLt).2.2 := by
  obtain ⟨n, hn⟩ := t
  cases n with
  | zero => rfl
  | succ n => rfl

/-! ## The invariant: the accumulators carried between points -/

/-- The two accumulators: whole scoped buffers of the kernel's own, passed beside the windows. -/
abbrev scM1_0 : Memref sig .tc .vmem S1x64 .f32 := Memref.whole cc1_scratch0
abbrev scM1_1 : Memref sig .tc .vmem S1x64 .f32 := Memref.whole cc1_scratch1

/-- A whole scoped buffer of the core at some contents. -/
abbrev anyBuf (c : Dev nD) (b : Ref sig .tc) : sProp 𝕄 :=
  iprop(∃ f : Buf (Elt F) ((c : Thread nD τ).loc b), ((c : Thread nD τ).loc b) ↦{fullShare} f)

/-- The launch's invariant for this pipeline with the two accumulators as memrefs owned at some contents: the other
    kernel calls' staging buffers at anything, the accumulators, the generator register at some state. -/
theorem PhiA1_eq (c : Dev nD) :
    (Pipeline.ΦA spec1 c : sProp 𝕄)
      = iprop(iprop(anyBuf c cc0_stg0_0 ∗ anyBuf c cc0_stg0_1 ∗ anyBuf c cc0_stg1_0 ∗ anyBuf c cc0_stg2_0 ∗ anyBuf c cc0_stg2_1 ∗ (∃ d, owns (c : Thread nD τ) scM1_0 fullShare d) ∗ (∃ d, owns (c : Thread nD τ) scM1_1 fullShare d) ∗ anyBuf c cc2_stg0_0 ∗ anyBuf c cc2_stg0_1 ∗ anyBuf c cc2_stg1_0 ∗ anyBuf c cc2_stg2_0 ∗ anyBuf c cc2_stg3_0 ∗ anyBuf c cc2_stg4_0 ∗ anyBuf c cc2_stg5_0 ∗ anyBuf c cc2_stg5_1) ∗ (∃ r, prngReg c r)) := by
  unfold Pipeline.ΦA; rw [scopedRest1_eq]; simp only [scM1_0, scM1_1, owns_whole]; try rfl

/-- The region invariant before position `n`: before the first point the launch's (every scoped buffer that is no
    staging buffer of this pipeline at anything); afterwards the same with the two accumulators at what the point
    before left in them. -/
def PhiS1 (c : Dev nD) : (n : ℕ) → n ≤ cfg1.N → sProp 𝕄
  | 0, _ => Pipeline.ΦA spec1 c
  | n + 1, hn => iprop(iprop(anyBuf c cc0_stg0_0 ∗ anyBuf c cc0_stg0_1 ∗ anyBuf c cc0_stg1_0 ∗ anyBuf c cc0_stg2_0 ∗ anyBuf c cc0_stg2_1 ∗ owns (c : Thread nD τ) scM1_0 fullShare (outsAt1 V c n hn).2.1 ∗ owns (c : Thread nD τ) scM1_1 fullShare (outsAt1 V c n hn).2.2 ∗ anyBuf c cc2_stg0_0 ∗ anyBuf c cc2_stg0_1 ∗ anyBuf c cc2_stg1_0 ∗ anyBuf c cc2_stg2_0 ∗ anyBuf c cc2_stg3_0 ∗ anyBuf c cc2_stg4_0 ∗ anyBuf c cc2_stg5_0 ∗ anyBuf c cc2_stg5_1) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop(anyBuf c cc0_stg0_0 ∗ anyBuf c cc0_stg0_1 ∗ anyBuf c cc0_stg1_0 ∗ anyBuf c cc0_stg2_0 ∗ anyBuf c cc0_stg2_1 ∗ owns (c : Thread nD τ) scM1_0 fullShare (outsAt1 V c n hn).2.1 ∗ owns (c : Thread nD τ) scM1_1 fullShare (outsAt1 V c n hn).2.2 ∗ anyBuf c cc2_stg0_0 ∗ anyBuf c cc2_stg0_1 ∗ anyBuf c cc2_stg1_0 ∗ anyBuf c cc2_stg2_0 ∗ anyBuf c cc2_stg3_0 ∗ anyBuf c cc2_stg4_0 ∗ anyBuf c cc2_stg5_0 ∗ anyBuf c cc2_stg5_1) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(anyBuf c cc0_stg0_0 ∗ anyBuf c cc0_stg0_1 ∗ anyBuf c cc0_stg1_0 ∗ anyBuf c cc0_stg2_0 ∗ anyBuf c cc0_stg2_1 ∗ owns (c : Thread nD τ) scM1_0 fullShare (outsAt1 V c (n - 1) (by omega)).2.1 ∗ owns (c : Thread nD τ) scM1_1 fullShare (outsAt1 V c (n - 1) (by omega)).2.2 ∗ anyBuf c cc2_stg0_0 ∗ anyBuf c cc2_stg0_1 ∗ anyBuf c cc2_stg1_0 ∗ anyBuf c cc2_stg2_0 ∗ anyBuf c cc2_stg3_0 ∗ anyBuf c cc2_stg4_0 ∗ anyBuf c cc2_stg5_0 ∗ anyBuf c cc2_stg5_1) ∗ (∃ r, prngReg c r)) := by
  cases n with
  | zero => exact absurd rfl hz
  | succ n => rfl

/-! ## The pipeline's proof data -/

/-- The proof data of this pipeline on core `c`: the arrays as the region finds them (`V`); after the body at point
    `t` each input's buffer at its block and the outputs' at `outsAt1`'s components; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1.1
    | ⟨3, _⟩ => (outsAt1 V c t.val t.isLt).1.2.1
    | ⟨4, _⟩ => (outsAt1 V c t.val t.isLt).1.2.2
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1.1 := by dsimp only [dat1]
theorem after1_3 (c : Dev nD) (t : Fin cfg1.N) : (dat1 V c).after 3 t = (outsAt1 V c t.val t.isLt).1.2.1 := by dsimp only [dat1]
theorem after1_4 (c : Dev nD) (t : Fin cfg1.N) : (dat1 V c).after 4 t = (outsAt1 V c t.val t.isLt).1.2.2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4800000 in
/-- The body at any point: the inputs' memrefs hold their blocks; the point is the first or a later one; at the
    first the invariant hands the body the accumulators at anything (they are zeroed before being read), at a later
    one at what the point before left; the outputs' buffers are handed over at anything (each is overwritten whole
    before it matters); the invariant takes the accumulators back at this point's contents; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  by_cases h0 : t.val = 0
  · rw [outsAt1_A V c t h0]; dsimp only
    rw [PhiS1_castSucc V c t, PhiS1_zero V c _ _ h0, PhiA1_eq]
    iintro ⟨⟨⟨B1, B2, B3, B4, B5, HS0, HS1, BT⟩, Hg⟩, Ho, ⟨%d0, H0⟩, ⟨%d1, H1⟩, ⟨%d2, H2⟩, ⟨%d3, H3⟩, ⟨%d4, H4⟩⟩
    iapply (sound_kernel1_A c Set.univ (grid1.coords t) _ _ _ _ _ _ _ _ _ _ _ _ _ _ ((hcond1_0 t).mpr h0) (iblk1 V c 0 t) (iblk1 V c 1 t) _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [B1 B2 B3 B4 B5 HS0 HS1 BT Hg]
    · isplitr [Hg]
      · isplitl [B1]; · iexact B1
        isplitl [B2]; · iexact B2
        isplitl [B3]; · iexact B3
        isplitl [B4]; · iexact B4
        isplitl [B5]; · iexact B5
        isplitl [HS0]; · iexact HS0
        isplitl [HS1]; · iexact HS1
        iexact BT
      iexact Hg
    isplitl [Ho]; · iexact Ho
    isplitl [H0]; · iexact H0
    isplitl [H1]; · iexact H1
    isplitl [H2]; · iexact H2
    isplitl [H3]; · iexact H3
    iexact H4
  · rw [outsAt1_B V c t h0]; dsimp only
    rw [PhiS1_castSucc V c t, PhiS1_pos V c _ _ h0]
    iintro ⟨⟨⟨B1, B2, B3, B4, B5, HS0, HS1, BT⟩, Hg⟩, Ho, ⟨%d0, H0⟩, ⟨%d1, H1⟩, ⟨%d2, H2⟩, ⟨%d3, H3⟩, ⟨%d4, H4⟩⟩
    iapply (sound_kernel1_B c Set.univ (grid1.coords t) _ _ _ _ _ _ _ _ _ _ _ _ _ _ (fun h => h0 ((hcond1_0 t).mp h)) (iblk1 V c 0 t) (iblk1 V c 1 t) _ _ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [B1 B2 B3 B4 B5 HS0 HS1 BT Hg]
    · isplitr [Hg]
      · isplitl [B1]; · iexact B1
        isplitl [B2]; · iexact B2
        isplitl [B3]; · iexact B3
        isplitl [B4]; · iexact B4
        isplitl [B5]; · iexact B5
        isplitl [HS0]; · iexact HS0
        isplitl [HS1]; · iexact HS1
        iexact BT
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant against the launch's -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨B1, B2, B3, B4, B5, HS0, HS1, BT⟩, Hg⟩
  isplitr [Hg]
  · isplitl [B1]; · iexact B1
    isplitl [B2]; · iexact B2
    isplitl [B3]; · iexact B3
    isplitl [B4]; · iexact B4
    isplitl [B5]; · iexact B5
    isplitl [HS0]; · iexists _; iexact HS0
    isplitl [HS1]; · iexists _; iexact HS1
    iexact BT
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.KernelIdeal.Fr

end
-- ==== Proof.FrameR2.lean ====
import proofs.«117114_j45715631899545_1_alg».proof.Proof.Gen.KernelIdeal.Launch
import proofs.«117114_j45715631899545_1_alg».proof.Proof.Gen.KernelIdeal.Skeleton
import proofs.«117114_j45715631899545_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 2 of @main: custom_call 2, the normalisation kernel (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (a whole row vector, fetched at the first point only) the same way. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (a whole row vector, fetched at the first point only) the same way. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (a whole row vector, fetched at the first point only) the same way. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (a whole row vector, fetched at the first point only) the same way. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0

/-! ## What the body leaves in the output window's buffer -/

/-- Window 5's staging buffer after the body, from the input windows' blocks: its one store, of the whole buffer,
    of the block shifted and scaled entrywise by the four row vectors. -/
def out2_5 (x0 : Vec F S5000x64 .f32) (x1 x2 x3 x4 : Vec F S1x64 .f32) : Vec F S5000x64 .f32 :=
  View.canon [⟨r2_0, k2_pay1 (View.ld x0 r2_0) (View.ld x1 r2_1) (View.ld x2 r2_1) (View.ld x3 r2_1) (View.ld x4 r2_1)⟩]

/-- The store tiles the buffer, so it covers it. -/
theorem cover2_5 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The kernel body on whole staging memrefs, the inputs' at read contents `x0` … `x4` and the output's at anything,
    runs to the continuation holding the inputs' as they were and the output's at `out2_5` of the inputs': the printed
    function is its skeleton, whose six loads and one store are run one by one. -/
theorem sound_kernel2 (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__norm_kernel i arg1 harg1 arg2 harg2 arg3 harg3 arg4 harg4 arg5 harg5 arg6 harg6) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point
    `t` each input's buffer at its block and the output's at `out2_5` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's case split reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrameRun.lean ====
import proofs.«117114_j45715631899545_1_alg».proof.Proof.Gen.KernelIdeal.Launch
import proofs.«117114_j45715631899545_1_alg».proof.Proof.Gen.KernelIdeal.Skeleton
import proofs.«117114_j45715631899545_1_alg».proof.Proof.Gen.KernelIdeal.Points
import proofs.«117114_j45715631899545_1_alg».proof.Proof.Gen.KernelIdeal.Regions
import proofs.«117114_j45715631899545_1_alg».proof.Proof.FrameR0
import proofs.«117114_j45715631899545_1_alg».proof.Proof.FrameR1
import proofs.«117114_j45715631899545_1_alg».proof.Proof.FrameR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return

## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
theorem W1_of (c : Dev nD) (r : Ref sig .tc) (h : r ∉ hostOps0_W) : W1 m ρ c r = W0 m ρ c r :=
  StableHlo.after_of_writes_sub hostOps0 _ hostOps0_writes h
/-- The same read at the TensorCore's references (what region 0's proof data take). -/
abbrev Vin0 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev Vout0 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
theorem W3_of (c : Dev nD) (r : Ref sig .tc) (h : r ∉ hostOps1_W) : W3 m ρ c r = W2 m ρ c r :=
  StableHlo.after_of_writes_sub hostOps1 _ hostOps1_writes h

/-- After `hostOps1_1`. -/
abbrev W4 : Dev nD → Valuation τ sig (Elt F) := fun c => StableHlo.after hostOps1_1 (W3 m ρ c)
theorem W4_of (c : Dev nD) (r : Ref sig .tc) (h : r ∉ hostOps1_1_W) : W4 m ρ c r = W3 m ρ c r :=
  StableHlo.after_of_writes_sub hostOps1_1 _ hostOps1_1_writes h

/-- After `hostOps1_2` (region 1's entry). -/
abbrev W5 : Dev nD → Valuation τ sig (Elt F) := fun c => StableHlo.after hostOps1_2 (W4 m ρ c)
theorem W5_of (c : Dev nD) (r : Ref sig .tc) (h : r ∉ hostOps1_2_W) : W5 m ρ c r = W4 m ρ c r :=
  StableHlo.after_of_writes_sub hostOps1_2 _ hostOps1_2_writes h
/-- The same read at the TensorCore's references (what region 1's proof data take). -/
abbrev Vin1 : (c : Dev nD) → (b : Ref sig .tc) → Buf (Elt F) ((c : Thread nD τ).loc b) := fun c b => W5 m ρ c b

/-- At region 1's exit: its arrays at what the pipeline leaves (the inputs as entered, each output's write-backs
    folded), every other buffer as entered. -/
def W6 (c : Dev nD) : Valuation τ sig (Elt F) :=
  Pipeline.withArrays spec1 c (W5 m ρ c) fun w => (dat1 (Vin1 m ρ) c).arrAt w cfg1.N
theorem W6_arr (c : Dev nD) (w : Fin cfg1.W) :
    W6 m ρ c (Proc.devRef .tc (Pipeline.arrRef spec1 w)) = (dat1 (Vin1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (region 1's exit contents). -/
abbrev Vout1 : (c : Dev nD) → (b : Ref sig .tc) → Buf (Elt F) ((c : Thread nD τ).loc b) := fun c b => W6 m ρ c b
/-- At region 1's exit each of its arrays holds what the pipeline leaves and every other buffer what it held at entry. -/
theorem hF1 (c : Dev nD) (w : Fin cfg1.W) : (dat1 (Vin1 m ρ) c).arrAt w cfg1.N = Vout1 m ρ c (Pipeline.arrRef spec1 w) :=
  (W6_arr m ρ c w).symm
theorem hrest1 (c : Dev nD) : ∀ b, b ∉ Finset.univ.image (Pipeline.arrRef spec1) → Vout1 m ρ c b = Vin1 m ρ c b :=
  fun b hb => W6_of_ne m ρ c b fun w e => hb (Finset.mem_image.mpr ⟨w, Finset.mem_univ _, e⟩)

/-- After `hostOps2` (region 2's entry). -/
abbrev W7 : Dev nD → Valuation τ sig (Elt F) := fun c => StableHlo.after hostOps2 (W6 m ρ c)
theorem W7_of (c : Dev nD) (r : Ref sig .tc) (h : r ∉ hostOps2_W) : W7 m ρ c r = W6 m ρ c r :=
  StableHlo.after_of_writes_sub hostOps2 _ hostOps2_writes h
/-- The same read at the TensorCore's references (what region 2's proof data take). -/
abbrev Vin2 : (c : Dev nD) → (b : Ref sig .tc) → Buf (Elt F) ((c : Thread nD τ).loc b) := fun c b => W7 m ρ c b

/-- At region 2's exit: its arrays at what the pipeline leaves (the inputs as entered, each output's write-backs
    folded), every other buffer as entered. -/
def W8 (c : Dev nD) : Valuation τ sig (Elt F) :=
  Pipeline.withArrays spec2 c (W7 m ρ c) fun w => (dat2 (Vin2 m ρ) c).arrAt w cfg2.N
theorem W8_arr (c : Dev nD) (w : Fin cfg2.W) :
    W8 m ρ c (Proc.devRef .tc (Pipeline.arrRef spec2 w)) = (dat2 (Vin2 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (region 2's exit contents). -/
abbrev Vout2 : (c : Dev nD) → (b : Ref sig .tc) → Buf (Elt F) ((c : Thread nD τ).loc b) := fun c b => W8 m ρ c b
/-- At region 2's exit each of its arrays holds what the pipeline leaves and every other buffer what it held at entry. -/
theorem hF2 (c : Dev nD) (w : Fin cfg2.W) : (dat2 (Vin2 m ρ) c).arrAt w cfg2.N = Vout2 m ρ c (Pipeline.arrRef spec2 w) :=
  (W8_arr m ρ c w).symm
theorem hrest2 (c : Dev nD) : ∀ b, b ∉ Finset.univ.image (Pipeline.arrRef spec2) → Vout2 m ρ c b = Vin2 m ρ c b :=
  fun b hb => W8_of_ne m ρ c b fun w e => hb (Finset.mem_image.mpr ⟨w, Finset.mem_univ _, e⟩)

/-! ### The arguments end as launched: no host operation and no region writes one, so the fold at an argument's
    buffer walks back to the launch memory -/

/-- A reference no host stretch writes and no region's window is laid on holds at the end what it held at launch. -/
theorem W8_of_untouched (c : Dev nD) (r : Ref sig .tc)
    (h0 : r ∉ hostOps0_W) (h1 : r ∉ hostOps1_W) (h11 : r ∉ hostOps1_1_W) (h12 : r ∉ hostOps1_2_W) (h2 : r ∉ hostOps2_W)
    (a0 : ∀ w, Pipeline.arrRef spec0 w ≠ r) (a1 : ∀ w, Pipeline.arrRef spec1 w ≠ r) (a2 : ∀ w, Pipeline.arrRef spec2 w ≠ r) :
    W8 m ρ c (Proc.devRef .tc r) = m ((c : Thread nD τ).loc r) :=
  calc W8 m ρ c (Proc.devRef .tc r)
    _ = W7 m ρ c (Proc.devRef .tc r) := W8_of_ne m ρ c r a2
    _ = W6 m ρ c (Proc.devRef .tc r) := W7_of m ρ c r h2
    _ = W5 m ρ c (Proc.devRef .tc r) := W6_of_ne m ρ c r a1
    _ = W4 m ρ c (Proc.devRef .tc r) := W5_of m ρ c r h12
    _ = W3 m ρ c (Proc.devRef .tc r) := W4_of m ρ c r h11
    _ = W2 m ρ c (Proc.devRef .tc r) := W3_of m ρ c r h1
    _ = W1 m ρ c (Proc.devRef .tc r) := W2_of_ne m ρ c r a0
    _ = W0 m ρ c (Proc.devRef .tc r) := W1_of m ρ c r h0
    _ = m ((c : Thread nD τ).loc r) := rfl

theorem W8_main_arg0 (c : Dev nD) : W8 m ρ c (Proc.devRef .tc main_arg0) = m ((c : Thread nD τ).loc main_arg0) :=
  W8_of_untouched m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of_untouched m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of_untouched m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of_untouched m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of_untouched m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of_untouched m ρ c main_arg5 (by decide) (by decide) (by decide) (by decide) (by decide) (by decide) (by decide) (by decide)

/-- A reference `hostOps0` does not write and no window of region 0 is laid on holds at region 0's exit what it held
    at launch. -/
theorem W2_of_untouched (c : Dev nD) (r : Ref sig .tc) (h0 : r ∉ hostOps0_W) (a0 : ∀ w, Pipeline.arrRef spec0 w ≠ r) :
    W2 m ρ c (Proc.devRef .tc r) = m ((c : Thread nD τ).loc r) :=
  calc W2 m ρ c (Proc.devRef .tc r)
    _ = W1 m ρ c (Proc.devRef .tc r) := W2_of_ne m ρ c r a0
    _ = W0 m ρ c (Proc.devRef .tc r) := W1_of m ρ c r h0
    _ = m ((c : Thread nD τ).loc r) := rfl

/-- A reference none of the first four host stretches writes and no window of regions 0 and 1 is laid on holds at
    region 1's exit what it held at launch. -/
theorem W6_of_untouched (c : Dev nD) (r : Ref sig .tc)
    (h0 : r ∉ hostOps0_W) (h1 : r ∉ hostOps1_W) (h11 : r ∉ hostOps1_1_W) (h12 : r ∉ hostOps1_2_W)
    (a0 : ∀ w, Pipeline.arrRef spec0 w ≠ r) (a1 : ∀ w, Pipeline.arrRef spec1 w ≠ r) :
    W6 m ρ c (Proc.devRef .tc r) = m ((c : Thread nD τ).loc r) :=
  calc W6 m ρ c (Proc.devRef .tc r)
    _ = W5 m ρ c (Proc.devRef .tc r) := W6_of_ne m ρ c r a1
    _ = W4 m ρ c (Proc.devRef .tc r) := W5_of m ρ c r h12
    _ = W3 m ρ c (Proc.devRef .tc r) := W4_of m ρ c r h11
    _ = W2 m ρ c (Proc.devRef .tc r) := W3_of m ρ c r h1
    _ = m ((c : Thread nD τ).loc r) := W2_of_untouched m ρ c r h0 a0

theorem W2_main_arg1 (c : Dev nD) : W2 m ρ c (Proc.devRef .tc main_arg1) = m ((c : Thread nD τ).loc main_arg1) :=
  W2_of_untouched m ρ c main_arg1 (by decide) (by decide)
theorem W2_main_arg3 (c : Dev nD) : W2 m ρ c (Proc.devRef .tc main_arg3) = m ((c : Thread nD τ).loc main_arg3) :=
  W2_of_untouched m ρ c main_arg3 (by decide) (by decide)
theorem W6_main_arg4 (c : Dev nD) : W6 m ρ c (Proc.devRef .tc main_arg4) = m ((c : Thread nD τ).loc main_arg4) :=
  W6_of_untouched m ρ c main_arg4 (by decide) (by decide) (by decide) (by decide) (by decide) (by decide)
theorem W6_main_arg5 (c : Dev nD) : W6 m ρ c (Proc.devRef .tc main_arg5) = m ((c : Thread nD τ).loc main_arg5) :=
  W6_of_untouched m ρ c main_arg5 (by decide) (by decide) (by decide) (by decide) (by decide) (by decide)
/-- `hostOps2` does not write region 1's first output array. -/
theorem W7_main_v58_0 (c : Dev nD) : W7 m ρ c (Proc.devRef .tc main_v58_0) = W6 m ρ c (Proc.devRef .tc main_v58_0) :=
  W7_of m ρ c main_v58_0 (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W8`, the generator
    register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- REGION 0 (custom_call 0) over the thread state: entered from every unscoped buffer at `W1`, left at `W2`.
    Its arrays split out of the unscoped buffers and put back at the exit contents; the generator register into the
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W5`, left at `W6`.
    Its arrays split out of the unscoped buffers and put back at the exit contents; the generator register into the
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun w => A_eq1 (Vin1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (Vin1 m ρ) c).Φ 0 from rfl]
    refine (?_ : _ ⊢ (Pipeline.ΦA spec1 c : sProp 𝕄)).trans (hin1 (Vin1 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (Vin1 m ρ) c).Φ (Fin.last cfg1.N) from rfl]
    refine (hout1 (Vin1 m ρ) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W7`, left at `W8`.
    Its arrays split out of the unscoped buffers and put back at the exit contents; the generator register into the
    invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ) ]
/-- @main is the run of the segments. -/
theorem main_run (c : Dev nD) : main (F := F) c = Pipeline.Seg.run (segs m ρ) := by
  rw [main_chain c, Pipeline.Seg.run_eq_chain]
  rfl

set_option backward.isDefEq.respectTransparency.types false in
/-- THE RUN: from any memory with zero counters, every weakly fair execution of @main on the TensorCores terminates,
    nothing faulting, and every final state holds every unscoped buffer at the last boundary's contents `W8`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: at the compiled mesh, from any memory with zero counters, every weakly fair execution of @main on the
    TensorCores terminates, nothing faulting, and every final state has the argument arrays as launched: each argument
    is an unscoped buffer no segment writes, so the last boundary's contents at it are the launch's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩) (run_all m ρ)

end Cert.KernelIdeal.Fr

end
-- ==== Proof.PreReal.lean ====
/-
  The precondition read back: when the printed predicate "every float input is finite" holds of the argument arrays at the
  ideal values, every entry of the node features, of the weight and of the bias is a real number (neither infinity).
  Each conjunct is a reduction by "and" over the one-bit words of |x| < +infinity; the reduction being 1 makes every
  word 1, and |x| < +infinity over the extended reals says x is neither infinity.
-/
import proofs.«117114_j45715631899545_1_alg».proof.Pre_finite_inputs
import proofs.«117114_j45715631899545_1_alg».proof.Proof.Gen.Pre_finite_inputs
import Idealize.ShloMosaic.Lib.ReduceAll
import Idealize.ShloMosaic.Lib.ValueIdx
import Idealize.ShloMosaic.PureOps.Ideal

noncomputable section

namespace Cert.Bridge.Pre

open Idealize.ShloMosaic Cert.Pre_finite_inputs

/-- An extended real is a real number. -/
def IsReal (x : EReal) : Prop := ∃ r : ℝ, x = (r : EReal)

instance : Subsingleton S_.Idx := ⟨fun a b => funext fun d => d.elim0⟩

/-- The f32 word of +infinity is the top of the extended reals. -/
theorem inf_word : Ideal.ofBits .f32 0x7F800000#32 = (⊤ : EReal) := by simp [Ideal.ofBits, Ideal.ieee]

/-- |x| < +infinity over the extended reals: x is a real number. -/
theorem isReal_of_abs_lt (x : EReal) (h : Ideal.cmp .olt (max x (-x)) (⊤ : EReal) = 1#1) : IsReal x := by
  induction x using EReal.rec with
  | bot => exfalso; revert h; simp [Ideal.cmp]
  | coe r => exact ⟨r, rfl⟩
  | top => exfalso; revert h; simp [Ideal.cmp]

variable [Facts]

/-- One conjunct of the predicate: the "all" of |a| < +infinity being 1 makes every entry of a a real number. -/
theorem all_real {s : Shape} {axes : List (Fin s.rank)} (a : FVec Ideal s .f32) (hb : S_.BroadcastsInDim s (![] : Fin 0 → Fin s.rank))
    (hr : s.ReducesTo axes S_) (hu : 0 < S_.numel) (init : IVec S_ 1)
    (h : Host.reduce IntOp.andi (cmpf .olt (Host.absf a) (broadcastInDim s ![] hb (constant (F := Ideal) S_ .f32 0x7F800000#32))) init hr hu ValueIdx.ix0 = 1#1)
    (i : s.Idx) : IsReal (a i) := by
  have e := Host.reduce_andi_all _ init hr hu ValueIdx.ix0 h i
  refine isReal_of_abs_lt (a i) ?_
  rw [← inf_word]
  exact e

/-- The predicate being all ones: the node features, the weight and the bias hold real numbers. -/
theorem reals_of_pre (a0 : FVec Ideal S100000x128 .f32) (a1 : IVec S2x1600000 32) (a2 : FVec Ideal S64x128 .f32)
    (a3 a4 a5 : FVec Ideal S64 .f32) (h : fn (F := Ideal) a0 a1 a2 a3 a4 a5 = fun _ => 1#1) :
    (∀ i, IsReal (a0 i)) ∧ (∀ i, IsReal (a2 i)) ∧ (∀ i, IsReal (a3 i)) := by
  have h0 := congrFun h ValueIdx.ix0
  dsimp only [fn, fn_part1] at h0
  obtain ⟨h1, _⟩ := IntOp.andi_eq_one.1 h0
  obtain ⟨h2, _⟩ := IntOp.andi_eq_one.1 h1
  obtain ⟨h3, hb⟩ := IntOp.andi_eq_one.1 h2
  obtain ⟨hx, hw⟩ := IntOp.andi_eq_one.1 h3
  exact ⟨fun i => all_real a0 _ _ _ _ hx i, fun i => all_real a2 _ _ _ _ hw i, fun i => all_real a3 _ _ _ _ hb i⟩

end Cert.Bridge.Pre

end
-- ==== Proof.PostKernel.lean ====
/-
  The kernel program's side of the batch normalization, as pure functions of extended reals.

  The activation a = out > 0 ? out : c·out of out = agg + bias, read entry by entry; the host stretch between the two
  last kernels, which turns the column sums s = Σ a and q = Σ a² into the one-row arrays mean, 1/sqrt(var + eps), gamma
  and beta; and the last kernel's pointwise ((a − mean)·invstd)·gamma + beta. Each kernel payload, read at an entry of a
  block, is the same scalar formula at the block's entries.
-/
import proofs.«117114_j45715631899545_1_alg».proof.Proof.Gen.KernelIdeal.Skeleton
import proofs.«117114_j45715631899545_1_alg».proof.Proof.Gen.KernelIdeal.Launch
import Idealize.ShloMosaic.Lib.ValueLayout
import Idealize.ShloMosaic.Lib.IdealHost
import Idealize.ShloMosaic.Lib.StableHlo.Run

noncomputable section

namespace Cert.Bridge.Post

open Idealize.ShloMosaic Idealize.ShloMosaic.ValueIdx Idealize.ShloMosaic.StableHlo Idealize.SL.Sem
open Cert.KernelIdeal Cert.KernelIdeal.Gen

/-! ## The activation -/

/-- One entry of the activation: with out = a + b, out itself where out > 0 and the literal slope times out elsewhere. -/
def act1 (a b : EReal) : EReal :=
  Scalar.select (Ideal.cmp .ogt (a + b) (Ideal.ofBits .f32 0x00000000#32)) (a + b)
    (Ideal.ofBits .f32 0x3C23D70A#32 * (a + b))

/-- The activation of the whole array: entry (n, f) from agg at (n, f) and the bias row at (0, f). -/
def KAct (agg : FVec Ideal S100000x64 .f32) (b2 : FVec Ideal S1x64 .f32) : FVec Ideal S100000x64 .f32 :=
  fun i => act1 (agg i) (b2 (ix2 (0 : Fin 1) (i 1)))

theorem KAct_apply (agg : FVec Ideal S100000x64 .f32) (b2 : FVec Ideal S1x64 .f32) (n : Fin 100000) (f : Fin 64) :
    KAct agg b2 (ix2 n f) = act1 (agg (ix2 n f)) (b2 (ix2 (0 : Fin 1) f)) := rfl

/-- The middle kernel's activation payload at an entry of its block is the same formula at the block's entries. -/
theorem kact_block (x0 : Vec Ideal S5000x64 .f32) (v5 : Vec Ideal S1x64 .f32) (p : Fin 5000) (f : Fin 64) :
    k1_pay3 (F := Ideal) x0 v5 (ix2 p f) = act1 (x0 (ix2 p f)) (v5 (ix2 (0 : Fin 1) f)) := by
  unfold k1_pay3
  simp only [select_apply, cmpf_apply, mulf_apply, addf_apply, broadcast_apply, shapeCast_self]
  rw [broadcastTo_1b_ab_apply]
  rfl

/-! ## The middle kernel's two accumulators -/

/-- The sum of a [5000, 64] block over its rows, read at a column. -/
theorem colsum_block (src : FVec Ideal S5000x64 .f32) (hφ : FKind.Formats .f32)
    (hacc : (0x00000000#32 : BitVec 32) = FKind.add.neutral .f32 hφ) (f : Fin 64) :
    multiReduction .add [0] S64 src 0x00000000#32 reduces_S5000x64_S64 hφ hacc (ix1 f) = ∑ r : Fin 5000, src (ix2 r f) := by
  refine (Ideal.multiReduction_add_single src 0x00000000#32 reduces_S5000x64_S64 hφ hacc (ix1 f)).trans ?_
  refine Finset.sum_congr rfl fun k _ => ?_
  exact congrArg src (funext fun a => Fin.ext (by match a with | ⟨0, _⟩ => rfl | ⟨1, _⟩ => rfl))

/-- The two accumulators start at zero. -/
theorem pay1_zero (f : Fin 64) : k1_pay1 (F := Ideal) (ix2 (0 : Fin 1) f) = 0 := by
  unfold k1_pay1
  simp only [shapeCast_self, broadcast_apply]
  exact Ideal.ofBits_zero_f32

theorem pay2_zero (f : Fin 64) : k1_pay2 (F := Ideal) (ix2 (0 : Fin 1) f) = 0 := by
  unfold k1_pay2
  simp only [shapeCast_self, broadcast_apply]
  exact Ideal.ofBits_zero_f32

/-- The first accumulator after a block: the carried row plus the block's column sums of the activation. -/
theorem pay4_apply (v3 : Vec Ideal S5000x64 .f32) (v5 v15 : Vec Ideal S1x64 .f32) (f : Fin 64) :
    k1_pay4 (F := Ideal) v3 v5 v15 (ix2 (0 : Fin 1) f)
      = v15 (ix2 (0 : Fin 1) f) + ∑ r : Fin 5000, k1_pay3 (F := Ideal) v3 v5 (ix2 r f) := by
  unfold k1_pay4
  simp only [shapeCast_self, addf_apply]
  refine congrArg (v15 (ix2 (0 : Fin 1) f) + ·) ?_
  refine (shapeCast_a_1a_apply _ shapeCasts_S64_S1x64 (0 : Fin 1) f).trans ?_
  exact colsum_block _ _ _ f

/-- The second accumulator after a block: the carried row plus the block's column sums of the squared activation. -/
theorem pay5_apply (v3 : Vec Ideal S5000x64 .f32) (v5 v22 : Vec Ideal S1x64 .f32) (f : Fin 64) :
    k1_pay5 (F := Ideal) v3 v5 v22 (ix2 (0 : Fin 1) f)
      = v22 (ix2 (0 : Fin 1) f)
        + ∑ r : Fin 5000, k1_pay3 (F := Ideal) v3 v5 (ix2 r f) * k1_pay3 (F := Ideal) v3 v5 (ix2 r f) := by
  unfold k1_pay5
  simp only [shapeCast_self, addf_apply]
  refine congrArg (v22 (ix2 (0 : Fin 1) f) + ·) ?_
  refine (shapeCast_a_1a_apply _ shapeCasts_S64_S1x64 (0 : Fin 1) f).trans ?_
  exact colsum_block _ _ _ f

/-! ## The last kernel's pointwise formula -/

/-- The normalization of the whole array from the four one-row arrays: ((a − mean)·invstd)·gamma + beta, each row read at
    (0, f). -/
def KNorm (act : FVec Ideal S100000x64 .f32) (m2 r2 g2 b2 : FVec Ideal S1x64 .f32) : FVec Ideal S100000x64 .f32 :=
  fun i => ((act i - m2 (ix2 (0 : Fin 1) (i 1))) * r2 (ix2 (0 : Fin 1) (i 1))) * g2 (ix2 (0 : Fin 1) (i 1))
    + b2 (ix2 (0 : Fin 1) (i 1))

theorem KNorm_apply (act : FVec Ideal S100000x64 .f32) (m2 r2 g2 b2 : FVec Ideal S1x64 .f32) (n : Fin 100000) (f : Fin 64) :
    KNorm act m2 r2 g2 b2 (ix2 n f)
      = ((act (ix2 n f) - m2 (ix2 (0 : Fin 1) f)) * r2 (ix2 (0 : Fin 1) f)) * g2 (ix2 (0 : Fin 1) f) + b2 (ix2 (0 : Fin 1) f) := rfl

/-- The last kernel's payload at an entry of its block is the same formula at the block's entries. -/
theorem knorm_block (x0 : Vec Ideal S5000x64 .f32) (v2 v6 v10 v14 : Vec Ideal S1x64 .f32) (p : Fin 5000) (f : Fin 64) :
    k2_pay1 (F := Ideal) x0 v2 v6 v10 v14 (ix2 p f)
      = ((x0 (ix2 p f) - v2 (ix2 (0 : Fin 1) f)) * v6 (ix2 (0 : Fin 1) f)) * v10 (ix2 (0 : Fin 1) f) + v14 (ix2 (0 : Fin 1) f) := by
  unfold k2_pay1
  simp only [addf_apply, mulf_apply, subf_apply, shapeCast_self]
  rw [broadcastTo_1b_ab_apply, broadcastTo_1b_ab_apply, broadcastTo_1b_ab_apply, broadcastTo_1b_ab_apply]

/-! ## The host stretch between the two last kernels -/

/-- A [64] array as the one row of a [1, 64] array (the program's reshape of the bias, of gamma and of beta). -/
def row (v : FVec Ideal S64 .f32) : FVec Ideal S1x64 .f32 := shapeCast S1x64 v shapeCasts_S64_S1x64

/-- The column means as a [64] array: the row of sums divided by the literal 100000, flattened. -/
def mean1 (s : FVec Ideal S1x64 .f32) : FVec Ideal S64 .f32 :=
  shapeCast S64 (Host.divf s (broadcastInDim S1x64 ![] bcast_S_S1x64 (constant (F := Ideal) S_ .f32 0x47C35000#32)))
    shapeCasts_S1x64_S64

/-- The column variances: the mean of squares minus the squared mean, and 0 where that is negative. -/
def var1 (s q : FVec Ideal S1x64 .f32) : FVec Ideal S64 .f32 :=
  maximumf
    (subf
      (Host.divf (shapeCast S64 q shapeCasts_S1x64_S64)
        (broadcastInDim S64 ![] bcast_S_S64 (constant (F := Ideal) S_ .f32 0x47C35000#32)))
      (mulf (mean1 s) (mean1 s)))
    (broadcastInDim S64 ![] bcast_S_S64 (constant (F := Ideal) S_ .f32 0x00000000#32))

/-- 1 / sqrt(var + eps) as a [64] array. -/
def invstd1 (s q : FVec Ideal S1x64 .f32) : FVec Ideal S64 .f32 :=
  Host.rsqrt (addf (var1 s q) (broadcastInDim S64 ![] bcast_S_S64 (constant (F := Ideal) S_ .f32 0x3727C5AC#32)))

/-- The four one-row arrays the last kernel reads. -/
def mean2 (s : FVec Ideal S1x64 .f32) : FVec Ideal S1x64 .f32 := row (mean1 s)
def invstd2 (s q : FVec Ideal S1x64 .f32) : FVec Ideal S1x64 .f32 := row (invstd1 s q)
def gamma2 (g : FVec Ideal S64 .f32) : FVec Ideal S1x64 .f32 := row g
def beta2 (be : FVec Ideal S64 .f32) : FVec Ideal S1x64 .f32 := row be

/-! ### The four rows read at an entry -/

theorem row_apply (v : FVec Ideal S64 .f32) (f : Fin 64) : row v (ix2 (0 : Fin 1) f) = v (ix1 f) :=
  shapeCast_a_1a_apply v shapeCasts_S64_S1x64 (0 : Fin 1) f

theorem mean1_apply (s : FVec Ideal S1x64 .f32) (f : Fin 64) :
    mean1 s (ix1 f) = Ideal.div (s (ix2 (0 : Fin 1) f)) (Ideal.ofBits .f32 0x47C35000#32) := by
  unfold mean1
  exact shapeCast_1a_a_apply _ shapeCasts_S1x64_S64 f

theorem var1_apply (s q : FVec Ideal S1x64 .f32) (f : Fin 64) :
    var1 s q (ix1 f)
      = max (Ideal.div (q (ix2 (0 : Fin 1) f)) (Ideal.ofBits .f32 0x47C35000#32) - mean1 s (ix1 f) * mean1 s (ix1 f))
          (Ideal.ofBits .f32 0x00000000#32) := by
  unfold var1
  simp only [maximumf_apply, subf_apply, mulf_apply, hostDivf_apply]
  rw [shapeCast_1a_a_apply]
  rfl

theorem invstd1_apply (s q : FVec Ideal S1x64 .f32) (f : Fin 64) :
    invstd1 s q (ix1 f) = Ideal.rsqrt (var1 s q (ix1 f) + Ideal.ofBits .f32 0x3727C5AC#32) := rfl

theorem mean2_apply (s : FVec Ideal S1x64 .f32) (f : Fin 64) :
    mean2 s (ix2 (0 : Fin 1) f) = Ideal.div (s (ix2 (0 : Fin 1) f)) (Ideal.ofBits .f32 0x47C35000#32) :=
  (row_apply _ f).trans (mean1_apply s f)

theorem invstd2_apply (s q : FVec Ideal S1x64 .f32) (f : Fin 64) :
    invstd2 s q (ix2 (0 : Fin 1) f)
      = Ideal.rsqrt
          (max (Ideal.div (q (ix2 (0 : Fin 1) f)) (Ideal.ofBits .f32 0x47C35000#32)
                - Ideal.div (s (ix2 (0 : Fin 1) f)) (Ideal.ofBits .f32 0x47C35000#32)
                  * Ideal.div (s (ix2 (0 : Fin 1) f)) (Ideal.ofBits .f32 0x47C35000#32))
              (Ideal.ofBits .f32 0x00000000#32)
            + Ideal.ofBits .f32 0x3727C5AC#32) := by
  refine (row_apply _ f).trans ?_
  rw [invstd1_apply, var1_apply, mean1_apply]

theorem gamma2_apply (g : FVec Ideal S64 .f32) (f : Fin 64) : gamma2 g (ix2 (0 : Fin 1) f) = g (ix1 f) := row_apply g f
theorem beta2_apply (be : FVec Ideal S64 .f32) (f : Fin 64) : beta2 be (ix2 (0 : Fin 1) f) = be (ix1 f) := row_apply be f

/-! ### What the host stretch leaves in the four arrays -/

theorem khost2_v72 (W : Valuation τ sig (Elt Ideal)) :
    StableHlo.after (hostOps2 (F := Ideal)) W (Proc.devRef .tc main_v72) = mean2 (W (Proc.devRef .tc main_v58_1)) := by
  after_results_simp; rfl

theorem khost2_v73 (W : Valuation τ sig (Elt Ideal)) :
    StableHlo.after (hostOps2 (F := Ideal)) W (Proc.devRef .tc main_v73)
      = invstd2 (W (Proc.devRef .tc main_v58_1)) (W (Proc.devRef .tc main_v58_2)) := by
  after_results_simp; rfl

theorem khost2_v74 (W : Valuation τ sig (Elt Ideal)) :
    StableHlo.after (hostOps2 (F := Ideal)) W (Proc.devRef .tc main_v74) = gamma2 (W (Proc.devRef .tc main_arg4)) := by
  after_results_simp; rfl

theorem khost2_v75 (W : Valuation τ sig (Elt Ideal)) :
    StableHlo.after (hostOps2 (F := Ideal)) W (Proc.devRef .tc main_v75) = beta2 (W (Proc.devRef .tc main_arg5)) := by
  after_results_simp; rfl

/-- What the host stretch leaves in the four arrays, from whatever contents it starts at. -/
theorem khost2_term (W : Valuation τ sig (Elt Ideal)) :
    StableHlo.after (hostOps2 (F := Ideal)) W (Proc.devRef .tc main_v72) = mean2 (W (Proc.devRef .tc main_v58_1))
    ∧ StableHlo.after (hostOps2 (F := Ideal)) W (Proc.devRef .tc main_v73)
        = invstd2 (W (Proc.devRef .tc main_v58_1)) (W (Proc.devRef .tc main_v58_2))
    ∧ StableHlo.after (hostOps2 (F := Ideal)) W (Proc.devRef .tc main_v74) = gamma2 (W (Proc.devRef .tc main_arg4))
    ∧ StableHlo.after (hostOps2 (F := Ideal)) W (Proc.devRef .tc main_v75) = beta2 (W (Proc.devRef .tc main_arg5)) := by
  exact ⟨khost2_v72 W, khost2_v73 W, khost2_v74 W, khost2_v75 W⟩

end Cert.Bridge.Post

end
-- ==== Proof.ValueR1.lean ====
/-
  What the second region leaves in its three output arrays, at the ideal values. Point t of the grid reads rows
  5000 t .. 5000 t + 4999 of the aggregated array and the bias row, writes the activation of those rows back as the same rows
  of the first output, and adds, per column, the block's sum and the block's sum of squares to two rows carried from
  point to point (zeroed at the first point). After the last point the carried rows hold, per column, the sum of the activation
  over all 100000 rows and the sum of its squares; they are what the second and third outputs end holding.
-/
import proofs.«117114_j45715631899545_1_alg».proof.Proof.FrameR1
import proofs.«117114_j45715631899545_1_alg».proof.Proof.PostKernel
import Idealize.ShloMosaic.Lib.Pipeline.Value

set_option maxRecDepth 16384

noncomputable section

namespace Cert.KernelIdeal.Val

open Cert.KernelIdeal Cert.KernelIdeal.Gen Cert.KernelIdeal.Fr Cert.Bridge.Post
open Idealize.ShloMosaic Idealize.ShloMosaic.TcCoe Idealize.ShloMosaic.ValueIdx Idealize.SL.Sem
open Idealize.ShloMosaic.Pipeline (Dat)

theorem hz1 : (![0, 0] : Fin 2 → Nat) = fun _ => 0 := funext fun a => by fin_cases a <;> rfl

/-- A sum over the first (n + 1) blocks of 5000 is the sum over the first n blocks plus block n's. -/
theorem range_step {M : Type} [AddCommMonoid M] (g : ℕ → M) (n : ℕ) :
    ∑ j ∈ Finset.range ((n + 1) * 5000), g j
      = ∑ j ∈ Finset.range (n * 5000), g j + ∑ r : Fin 5000, g (n * 5000 + r.val) := by
  rw [show (n + 1) * 5000 = n * 5000 + 5000 by ring, Finset.sum_range_add,
    Fin.sum_univ_eq_sum_range (fun r => g (n * 5000 + r)) 5000]

/-- Per column, the sum over all rows, as a [1, 64] row. -/
def SumArr (A : FVec Ideal S100000x64 .f32) : FVec Ideal S1x64 .f32 :=
  fun i => ∑ n : Fin 100000, A (ix2 n (⟨(i 1).val, idx2_lt1 i⟩ : Fin 64))

/-- Per column, the sum of squares over all rows, as a [1, 64] row. -/
def SqArr (A : FVec Ideal S100000x64 .f32) : FVec Ideal S1x64 .f32 :=
  fun i => ∑ n : Fin 100000, A (ix2 n (⟨(i 1).val, idx2_lt1 i⟩ : Fin 64)) * A (ix2 n (⟨(i 1).val, idx2_lt1 i⟩ : Fin 64))

theorem SumArr_apply (A : FVec Ideal S100000x64 .f32) (f : Fin 64) :
    SumArr A (ix2 (0 : Fin 1) f) = ∑ n : Fin 100000, A (ix2 n f) := rfl

theorem SqArr_apply (A : FVec Ideal S100000x64 .f32) (f : Fin 64) :
    SqArr A (ix2 (0 : Fin 1) f) = ∑ n : Fin 100000, A (ix2 n f) * A (ix2 n f) := rfl

/-- A block's activation at an entry, from the same entry of the aggregated array and the bias row's column. -/
theorem block_act (x0 : Vec Ideal S5000x64 .f32) (v5 : Vec Ideal S1x64 .f32)
    (A : FVec Ideal S100000x64 .f32) (B : FVec Ideal S1x64 .f32) (i : S100000x64.Idx) (p : Fin 5000) (q : Fin 64)
    (h0 : x0 (ix2 p q) = A i) (h1 : v5 (ix2 (0 : Fin 1) q) = B (ix2 (0 : Fin 1) (i 1))) :
    k1_pay3 (F := Ideal) x0 v5 (ix2 p q) = KAct A B i := by
  rw [kact_block, h0, h1]
  rfl

/-- The printed index maps over the grid: the row windows move one block of rows per point, the [1, 64] rows stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

/-- Column f of the activation array by the row's number (zero past the rows). -/
def colA (c : Dev nD) (f : Fin 64) (j : ℕ) : EReal :=
  if h : j < 100000 then KAct (V c main_v56) (V c main_v57) (ix2 (⟨j, h⟩ : Fin 100000) f) else 0

theorem colA_total (c : Dev nD) (f : Fin 64) :
    ∑ j ∈ Finset.range 100000, colA V c f j = ∑ n : Fin 100000, KAct (V c main_v56) (V c main_v57) (ix2 n f) := by
  rw [← Fin.sum_univ_eq_sum_range (fun j => colA V c f j) 100000]
  exact Finset.sum_congr rfl fun n _ => by unfold colA; rw [dif_pos n.isLt]

theorem colA_sq_total (c : Dev nD) (f : Fin 64) :
    ∑ j ∈ Finset.range 100000, colA V c f j * colA V c f j
      = ∑ n : Fin 100000, KAct (V c main_v56) (V c main_v57) (ix2 n f) * KAct (V c main_v56) (V c main_v57) (ix2 n f) := by
  rw [← Fin.sum_univ_eq_sum_range (fun j => colA V c f j * colA V c f j) 100000]
  exact Finset.sum_congr rfl fun n _ => by unfold colA; rw [dif_pos n.isLt]

/-- The activation block of point t, entry (r, f): the activation array at row 5000 t + r. -/
theorem blk_act (c : Dev nD) (t : Fin cfg1.N) (r : Fin 5000) (f : Fin 64) :
    k1_pay3 (F := Ideal) (iblk1 V c 0 t) (iblk1 V c 1 t) (ix2 r f) = colA V c f (t.val * 5000 + r.val) := by
  have hN : cfg1.N = 20 := N_1
  have ht : t.val < 20 := hN ▸ t.isLt
  obtain ⟨e0, e1, e2, e3, e4, e5, e6, e7, e8, e9⟩ := idx_facts1 t
  unfold colA
  rw [dif_pos (by omega : t.val * 5000 + r.val < 100000)]
  refine block_act _ _ _ _ _ r f ?_ ?_
  · show V c main_v56 (((cfg1.win 0).blk t).view.emb (ix2 r f)) = V c main_v56 _
    refine congrArg _ (funext fun a => Fin.ext ?_)
    match a with
    | ⟨0, _⟩ => show win1_0.index t (0 : Fin 2) * 5000 + 1 * r.val = t.val * 5000 + r.val; omega
    | ⟨1, _⟩ => show win1_0.index t (1 : Fin 2) * 64 + 1 * f.val = f.val; omega
  · show V c main_v57 (((cfg1.win 1).blk t).view.emb (ix2 (0 : Fin 1) f)) = V c main_v57 _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * f.val = f.val; omega

/-- THE ACCUMULATION: after point n the two carried rows hold, per column, the sum and the sum of squares of the activation
    over rows 0 .. 5000 (n + 1) - 1. -/
theorem acc_inv (c : Dev nD) : ∀ (n : ℕ) (hn : n < cfg1.N) (f : Fin 64),
    (outsAt1 V c n hn).2.1 (ix2 (0 : Fin 1) f) = ∑ j ∈ Finset.range ((n + 1) * 5000), colA V c f j
    ∧ (outsAt1 V c n hn).2.2 (ix2 (0 : Fin 1) f) = ∑ j ∈ Finset.range ((n + 1) * 5000), colA V c f j * colA V c f j
  | 0, hn, f => by
    show k1_pay4 (F := Ideal) (iblk1 V c 0 ⟨0, hn⟩) (iblk1 V c 1 ⟨0, hn⟩) (k1_pay1 (F := Ideal)) (ix2 (0 : Fin 1) f) = _
      ∧ k1_pay5 (F := Ideal) (iblk1 V c 0 ⟨0, hn⟩) (iblk1 V c 1 ⟨0, hn⟩) (k1_pay2 (F := Ideal)) (ix2 (0 : Fin 1) f) = _
    constructor
    · refine (pay4_apply _ _ _ f).trans ?_
      rw [pay1_zero, zero_add, range_step (colA V c f) 0, Nat.zero_mul, Finset.range_zero, Finset.sum_empty, zero_add]
      exact Finset.sum_congr rfl fun r _ => (blk_act V c ⟨0, hn⟩ r f).trans (by rw [Nat.zero_mul])
    · refine (pay5_apply _ _ _ f).trans ?_
      rw [pay2_zero, zero_add, range_step (fun j => colA V c f j * colA V c f j) 0, Nat.zero_mul, Finset.range_zero,
        Finset.sum_empty, zero_add]
      exact Finset.sum_congr rfl fun r _ => by
        rw [blk_act V c ⟨0, hn⟩ r f]; show colA V c f (0 * 5000 + r.val) * colA V c f (0 * 5000 + r.val) = _; rw [Nat.zero_mul]
  | n + 1, hn, f => by
    have ih := acc_inv c n (Nat.lt_of_succ_lt hn) f
    show k1_pay4 (F := Ideal) (iblk1 V c 0 ⟨n + 1, hn⟩) (iblk1 V c 1 ⟨n + 1, hn⟩) (outsAt1 V c n (Nat.lt_of_succ_lt hn)).2.1 (ix2 (0 : Fin 1) f) = _
      ∧ k1_pay5 (F := Ideal) (iblk1 V c 0 ⟨n + 1, hn⟩) (iblk1 V c 1 ⟨n + 1, hn⟩) (outsAt1 V c n (Nat.lt_of_succ_lt hn)).2.2 (ix2 (0 : Fin 1) f) = _
    constructor
    · refine (pay4_apply _ _ _ f).trans ?_
      rw [ih.1, range_step (colA V c f) (n + 1)]
      exact congrArg _ (Finset.sum_congr rfl fun r _ => blk_act V c ⟨n + 1, hn⟩ r f)
    · refine (pay5_apply _ _ _ f).trans ?_
      rw [ih.2, range_step (fun j => colA V c f j * colA V c f j) (n + 1)]
      exact congrArg _ (Finset.sum_congr rfl fun r _ => by rw [blk_act V c ⟨n + 1, hn⟩ r f])

/-! ## The activation output -/

/-- What point t writes back to the first output is block t of the activation array. -/
theorem flushed1_act (c : Dev nD) (t : Fin cfg1.N) :
    (dat1 V c).flushed 2 t = ((cfg1.win 2).blk t).view.read (Elt Ideal) (KAct (V c main_v56) (V c main_v57)) := by
  show (cfg1.win 2).cut (grid1.coords t) ((dat1 V c).after 2 t) = _
  rw [after1_2, outsAt1_act]
  obtain ⟨e0, e1, e2, e3, e4, e5, e6, e7, e8, e9⟩ := idx_facts1 t
  funext j
  obtain ⟨p, q, rfl⟩ : ∃ (p : Fin 5000) (q : Fin 64), j = ix2 p q := ⟨j 0, j 1, eq_ix2 j⟩
  show k1_pay3 (F := Ideal) (iblk1 V c 0 t) (iblk1 V c 1 t) (ix2 p q)
    = KAct (V c main_v56) (V c main_v57) (((cfg1.win 2).blk t).view.emb (ix2 p q))
  refine block_act _ _ _ _ _ p q ?_ ?_
  · show V c main_v56 (((cfg1.win 0).blk t).view.emb (ix2 p q)) = V c main_v56 _
    refine congrArg _ (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  · show V c main_v57 (((cfg1.win 1).blk t).view.emb (ix2 (0 : Fin 1) q)) = V c main_v57 _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega

theorem mem_blk1_act (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v58_0).slice (win1_2.rect t)).set ↔ _
  rw [View.set_slice_whole, Rect.mem_set_unit]
  exact Iff.rfl

theorem cover1_act (i : S100000x64.Idx) : ∃ t : Fin cfg1.N, (cfg1.win 2).flush t = true ∧ i ∈ ((cfg1.win 2).blk t).view.set := by
  have hi0 : (i 0).val < 100000 := idx2_lt0 i
  have hi1 : (i 1).val < 64 := idx2_lt1 i
  have hN : cfg1.N = 20 := N_1
  refine ⟨⟨(i 0).val / 5000, by rw [hN]; omega⟩, flush1_2 _, ?_⟩
  rw [mem_blk1_act]
  obtain ⟨e0, e1, e2, e3, e4, e5, e6, e7, e8, e9⟩ := idx_facts1 ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; dsimp only; omega
  | ⟨1, _⟩ => show win1_2.index _ (1 : Fin 2) * 64 ≤ (i 1).val ∧ (i 1).val < win1_2.index _ (1 : Fin 2) * 64 + 64; rw [e5]; omega

/-- The first output after the region: the activation of the aggregated array and the bias row the region finds. -/
theorem final1_act (c : Dev nD) : (dat1 V c).arrAt 2 cfg1.N = KAct (V c main_v56) (V c main_v57) :=
  (dat1 V c).arrAt_eq_of_cover 2 _ (fun t _ => flushed1_act V c t) cover1_act

/-! ## The two statistics outputs: written back once, after the last point -/

theorem last_of_flush (t : Fin cfg1.N) (h : t.val % 20 = 19) : t.val = 19 := by
  have hN : cfg1.N = 20 := N_1
  have ht : t.val < 20 := hN ▸ t.isLt
  omega

set_option maxRecDepth 200000 in
theorem flushed1_sum (c : Dev nD) (t : Fin cfg1.N) (hf : (cfg1.win 3).flush t = true) :
    (dat1 V c).flushed 3 t = ((cfg1.win 3).blk t).view.read (Elt Ideal) (SumArr (KAct (V c main_v56) (V c main_v57))) := by
  have h19 : t.val = 19 := last_of_flush t ((flush1_3 t).mp hf)
  obtain ⟨e0, e1, e2, e3, e4, e5, e6, e7, e8, e9⟩ := idx_facts1 t
  show (cfg1.win 3).cut (grid1.coords t) ((dat1 V c).after 3 t) = _
  rw [after1_3, outsAt1_sum]
  funext j
  obtain ⟨z, f, rfl⟩ : ∃ (z : Fin 1) (f : Fin 64), j = ix2 z f := ⟨j 0, j 1, eq_ix2 j⟩
  obtain rfl : z = 0 := Subsingleton.elim _ _
  show (outsAt1 V c t.val t.isLt).2.1 (ix2 (0 : Fin 1) f)
    = SumArr (KAct (V c main_v56) (V c main_v57)) (((cfg1.win 3).blk t).view.emb (ix2 (0 : Fin 1) f))
  have hsum := (acc_inv V c t.val t.isLt f).1
  have hr : (t.val + 1) * 5000 = 100000 := by omega
  rw [hr] at hsum
  rw [hsum, colA_total]
  unfold SumArr
  refine Finset.sum_congr rfl fun n _ => congrArg _ (congrArg _ (Fin.ext ?_))
  show f.val = win1_3.index t (1 : Fin 2) * 64 + 1 * f.val
  omega

set_option maxRecDepth 200000 in
theorem flushed1_sq (c : Dev nD) (t : Fin cfg1.N) (hf : (cfg1.win 4).flush t = true) :
    (dat1 V c).flushed 4 t = ((cfg1.win 4).blk t).view.read (Elt Ideal) (SqArr (KAct (V c main_v56) (V c main_v57))) := by
  have h19 : t.val = 19 := last_of_flush t ((flush1_4 t).mp hf)
  obtain ⟨e0, e1, e2, e3, e4, e5, e6, e7, e8, e9⟩ := idx_facts1 t
  show (cfg1.win 4).cut (grid1.coords t) ((dat1 V c).after 4 t) = _
  rw [after1_4, outsAt1_sq]
  funext j
  obtain ⟨z, f, rfl⟩ : ∃ (z : Fin 1) (f : Fin 64), j = ix2 z f := ⟨j 0, j 1, eq_ix2 j⟩
  obtain rfl : z = 0 := Subsingleton.elim _ _
  show (outsAt1 V c t.val t.isLt).2.2 (ix2 (0 : Fin 1) f)
    = SqArr (KAct (V c main_v56) (V c main_v57)) (((cfg1.win 4).blk t).view.emb (ix2 (0 : Fin 1) f))
  have hsum := (acc_inv V c t.val t.isLt f).2
  have hr : (t.val + 1) * 5000 = 100000 := by omega
  rw [hr] at hsum
  rw [hsum, colA_sq_total]
  unfold SqArr
  have hidx : (⟨((((cfg1.win 4).blk t).view.emb (ix2 (0 : Fin 1) f)) 1).val, idx2_lt1 _⟩ : Fin 64) = f := Fin.ext (by
    show win1_4.index t (1 : Fin 2) * 64 + 1 * f.val = f.val
    omega)
  rw [hidx]

theorem mem_blk1_sum (t : Fin cfg1.N) (i : S1x64.Idx) :
    i ∈ ((cfg1.win 3).blk t).view.set ↔ ∀ a : Fin 2, win1_3.index t a * S1x64.size a ≤ (i a).val ∧ (i a).val < win1_3.index t a * S1x64.size a + S1x64.size a := by
  show i ∈ ((View.whole main_v58_1).slice (win1_3.rect t)).set ↔ _
  rw [View.set_slice_whole, Rect.mem_set_unit]
  exact Iff.rfl

theorem mem_blk1_sq (t : Fin cfg1.N) (i : S1x64.Idx) :
    i ∈ ((cfg1.win 4).blk t).view.set ↔ ∀ a : Fin 2, win1_4.index t a * S1x64.size a ≤ (i a).val ∧ (i a).val < win1_4.index t a * S1x64.size a + S1x64.size a := by
  show i ∈ ((View.whole main_v58_2).slice (win1_4.rect t)).set ↔ _
  rw [View.set_slice_whole, Rect.mem_set_unit]
  exact Iff.rfl

theorem cover1_sum (i : S1x64.Idx) : ∃ t : Fin cfg1.N, (cfg1.win 3).flush t = true ∧ i ∈ ((cfg1.win 3).blk t).view.set := by
  have hi0 : (i 0).val < 1 := idx2_lt0 i
  have hi1 : (i 1).val < 64 := idx2_lt1 i
  have hN : cfg1.N = 20 := N_1
  refine ⟨⟨19, by rw [hN]; omega⟩, (flush1_3 _).mpr rfl, ?_⟩
  rw [mem_blk1_sum]
  obtain ⟨e0, e1, e2, e3, e4, e5, e6, e7, e8, e9⟩ := idx_facts1 ⟨19, by rw [hN]; omega⟩
  intro a
  match a with
  | ⟨0, _⟩ => show win1_3.index _ (0 : Fin 2) * 1 ≤ (i 0).val ∧ (i 0).val < win1_3.index _ (0 : Fin 2) * 1 + 1; rw [e6]; omega
  | ⟨1, _⟩ => show win1_3.index _ (1 : Fin 2) * 64 ≤ (i 1).val ∧ (i 1).val < win1_3.index _ (1 : Fin 2) * 64 + 64; rw [e7]; omega

theorem cover1_sq (i : S1x64.Idx) : ∃ t : Fin cfg1.N, (cfg1.win 4).flush t = true ∧ i ∈ ((cfg1.win 4).blk t).view.set := by
  have hi0 : (i 0).val < 1 := idx2_lt0 i
  have hi1 : (i 1).val < 64 := idx2_lt1 i
  have hN : cfg1.N = 20 := N_1
  refine ⟨⟨19, by rw [hN]; omega⟩, (flush1_4 _).mpr rfl, ?_⟩
  rw [mem_blk1_sq]
  obtain ⟨e0, e1, e2, e3, e4, e5, e6, e7, e8, e9⟩ := idx_facts1 ⟨19, by rw [hN]; omega⟩
  intro a
  match a with
  | ⟨0, _⟩ => show win1_4.index _ (0 : Fin 2) * 1 ≤ (i 0).val ∧ (i 0).val < win1_4.index _ (0 : Fin 2) * 1 + 1; rw [e8]; omega
  | ⟨1, _⟩ => show win1_4.index _ (1 : Fin 2) * 64 ≤ (i 1).val ∧ (i 1).val < win1_4.index _ (1 : Fin 2) * 64 + 64; rw [e9]; omega

/-- The second output after the region: per column, the sum of the activation over all rows. -/
theorem final1_sum (c : Dev nD) : (dat1 V c).arrAt 3 cfg1.N = SumArr (KAct (V c main_v56) (V c main_v57)) :=
  (dat1 V c).arrAt_eq_of_cover 3 _ (fun t hf => flushed1_sum V c t hf) cover1_sum

/-- The third output after the region: per column, the sum of the squared activation over all rows. -/
theorem final1_sq (c : Dev nD) : (dat1 V c).arrAt 4 cfg1.N = SqArr (KAct (V c main_v56) (V c main_v57)) :=
  (dat1 V c).arrAt_eq_of_cover 4 _ (fun t hf => flushed1_sq V c t hf) cover1_sq

end Cert.KernelIdeal.Val

end
-- ==== Proof.ValueR2.lean ====
/-
  What the third region leaves in its output array, at the ideal values: each entry of the activation array minus its
  column's mean, times the column's inverse standard deviation, times the column's scale, plus the column's shift, the four
  column statistics read from [1, 64] rows. Point t of the grid does this for rows 5000 t .. 5000 t + 4999; the twenty
  blocks tile the rows.
-/
import proofs.«117114_j45715631899545_1_alg».proof.Proof.FrameR2
import proofs.«117114_j45715631899545_1_alg».proof.Proof.PostKernel
import Idealize.ShloMosaic.Lib.Pipeline.Value

set_option maxRecDepth 16384

noncomputable section

namespace Cert.KernelIdeal.Val

open Cert.KernelIdeal Cert.KernelIdeal.Gen Cert.KernelIdeal.Fr Cert.Bridge.Post
open Idealize.ShloMosaic Idealize.ShloMosaic.TcCoe Idealize.ShloMosaic.ValueIdx Idealize.SL.Sem
open Idealize.ShloMosaic.Pipeline (Dat)

theorem hz2' : (![0, 0] : Fin 2 → Nat) = fun _ => 0 := funext fun a => by fin_cases a <;> rfl

/-- A block of 5000 rows of the normalised array, from the same rows of the activation and the four rows of statistics. -/
theorem block_N (x0 : Vec Ideal S5000x64 .f32) (v2 v6 v10 v14 : Vec Ideal S1x64 .f32)
    (A : FVec Ideal S100000x64 .f32) (M R G B : FVec Ideal S1x64 .f32) (i : S100000x64.Idx) (p : Fin 5000) (q : Fin 64)
    (h0 : x0 (ix2 p q) = A i)
    (h1 : v2 (ix2 (0 : Fin 1) q) = M (ix2 (0 : Fin 1) (i 1)))
    (h2 : v6 (ix2 (0 : Fin 1) q) = R (ix2 (0 : Fin 1) (i 1)))
    (h3 : v10 (ix2 (0 : Fin 1) q) = G (ix2 (0 : Fin 1) (i 1)))
    (h4 : v14 (ix2 (0 : Fin 1) q) = B (ix2 (0 : Fin 1) (i 1))) :
    k2_pay1 (F := Ideal) x0 v2 v6 v10 v14 (ix2 p q) = KNorm A M R G B i := by
  rw [knorm_block, h0, h1, h2, h3, h4]
  rfl

/-- The printed index maps over the grid: the row windows move one block of rows per point, the statistics stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- What point t writes back is block t of the normalised array of the arrays the region finds. -/
theorem flushed2_eq (c : Dev nD) (t : Fin cfg2.N) :
    (dat2 V c).flushed 5 t = ((cfg2.win 5).blk t).view.read (Elt Ideal)
      (KNorm (V c main_v58_0) (V c main_v72) (V c main_v73) (V c main_v74) (V c main_v75)) := by
  show (cfg2.win 5).cut (grid2.coords t) ((dat2 V c).after 5 t) = _
  rw [after2_5]
  unfold out2_5
  rw [View.canon_unit_zero hz2']
  simp only [View.ld_unit_zero (S := S5000x64) hz2', View.ld_unit_zero (S := S1x64) hz2']
  obtain ⟨e0, e1, e2, e3, e4, e5, e6, e7, e8, e9, e10, e11⟩ := idx_facts2 t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = KNorm (V c main_v58_0) (V c main_v72) (V c main_v73) (V c main_v74) (V c main_v75) (((cfg2.win 5).blk t).view.emb (ix2 p q))
  refine block_N _ _ _ _ _ _ _ _ _ _ _ p q ?_ ?_ ?_ ?_ ?_
  · show V c main_v58_0 (((cfg2.win 0).blk t).view.emb (ix2 p q)) = V c main_v58_0 _
    refine congrArg _ (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 64 + 1 * q.val = win2_5.index t (1 : Fin 2) * 64 + 1 * q.val; omega
  · show V c main_v72 (((cfg2.win 1).blk t).view.emb (ix2 (0 : Fin 1) q)) = V c main_v72 _
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * q.val = win2_5.index t (1 : Fin 2) * 64 + 1 * q.val; omega
  · show V c main_v73 (((cfg2.win 2).blk t).view.emb (ix2 (0 : Fin 1) q)) = V c main_v73 _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q.val = win2_5.index t (1 : Fin 2) * 64 + 1 * q.val; omega
  · show V c main_v74 (((cfg2.win 3).blk t).view.emb (ix2 (0 : Fin 1) q)) = V c main_v74 _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * q.val = win2_5.index t (1 : Fin 2) * 64 + 1 * q.val; omega
  · show V c main_v75 (((cfg2.win 4).blk t).view.emb (ix2 (0 : Fin 1) q)) = V c main_v75 _
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * q.val = win2_5.index t (1 : Fin 2) * 64 + 1 * q.val; omega

/-- An index of the output is in point t's block iff its row is among the block's 5000 rows. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v76).slice (win2_5.rect t)).set ↔ _
  rw [View.set_slice_whole, Rect.mem_set_unit]
  exact Iff.rfl

/-- Every entry of the output is in the block of the point its row falls in. -/
theorem cover2 (i : S100000x64.Idx) : ∃ t : Fin cfg2.N, (cfg2.win 5).flush t = true ∧ i ∈ ((cfg2.win 5).blk t).view.set := by
  have hi0 : (i 0).val < 100000 := idx2_lt0 i
  have hi1 : (i 1).val < 64 := idx2_lt1 i
  have hN : cfg2.N = 20 := N_2
  refine ⟨⟨(i 0).val / 5000, by rw [hN]; omega⟩, flush2_5 _, ?_⟩
  rw [mem_blk2]
  obtain ⟨e0, e1, e2, e3, e4, e5, e6, e7, e8, e9, e10, e11⟩ := idx_facts2 ⟨(i 0).val / 5000, by rw [hN]; omega⟩
  intro a
  match a with
  | ⟨0, _⟩ => show win2_5.index _ (0 : Fin 2) * 5000 ≤ (i 0).val ∧ (i 0).val < win2_5.index _ (0 : Fin 2) * 5000 + 5000; rw [e10]; dsimp only; omega
  | ⟨1, _⟩ => show win2_5.index _ (1 : Fin 2) * 64 ≤ (i 1).val ∧ (i 1).val < win2_5.index _ (1 : Fin 2) * 64 + 64; rw [e11]; omega

/-- The output array after the region: the normalised array of the arrays the region finds. -/
theorem final2 (c : Dev nD) : (dat2 V c).arrAt 5 cfg2.N
    = KNorm (V c main_v58_0) (V c main_v72) (V c main_v73) (V c main_v74) (V c main_v75) :=
  (dat2 V c).arrAt_eq_of_cover 5 _ (fun t _ => flushed2_eq V c t) cover2

end Cert.KernelIdeal.Val

end
-- ==== Proof.KernelValue.lean ====
/-
  The kernel program's result array, read back through its run at the ideal values: the normalised activation
  (region 3 of the activation, the four rows of statistics the host computes from the two rows of sums region 2 leaves),
  with the activation and the sums as functions of the aggregated array and the bias row that region 2 finds.
-/
import proofs.«117114_j45715631899545_1_alg».proof.Proof.FrameRun
import proofs.«117114_j45715631899545_1_alg».proof.Proof.ValueR1
import proofs.«117114_j45715631899545_1_alg».proof.Proof.ValueR2
import proofs.«117114_j45715631899545_1_alg».proof.Proof.PostKernel

noncomputable section

namespace Cert.KernelIdeal.Val

open Cert.KernelIdeal Cert.KernelIdeal.Gen Cert.KernelIdeal.Fr Cert.Bridge.Post
open Idealize.ShloMosaic Idealize.ShloMosaic.TcCoe Idealize.ShloMosaic.ValueIdx Idealize.SL.Sem

variable (m : (ℓ : Loc nD τ sig) → Buf (Elt Ideal) ℓ) (ρ : Dev nD → PrngReg)

/-- The aggregated array and the bias row as the second region finds them. -/
abbrev aggIn (c : Dev nD) : FVec Ideal S100000x64 .f32 := W5 m ρ c (Proc.devRef .tc main_v56)
abbrev biasIn (c : Dev nD) : FVec Ideal S1x64 .f32 := W5 m ρ c (Proc.devRef .tc main_v57)

/-- The activation array the second region leaves. -/
theorem act_out (c : Dev nD) : W6 m ρ c (Proc.devRef .tc main_v58_0) = KAct (aggIn m ρ c) (biasIn m ρ c) :=
  (W6_arr m ρ c 2).trans (final1_act (Vin1 m ρ) c)

/-- The per-column sums the second region leaves. -/
theorem sum_out (c : Dev nD) : W6 m ρ c (Proc.devRef .tc main_v58_1) = SumArr (KAct (aggIn m ρ c) (biasIn m ρ c)) :=
  (W6_arr m ρ c 3).trans (final1_sum (Vin1 m ρ) c)

/-- The per-column sums of squares the second region leaves. -/
theorem sq_out (c : Dev nD) : W6 m ρ c (Proc.devRef .tc main_v58_2) = SqArr (KAct (aggIn m ρ c) (biasIn m ρ c)) :=
  (W6_arr m ρ c 4).trans (final1_sq (Vin1 m ρ) c)

/-- The result array after the run, from what the second region finds and the scale and shift arguments. -/
theorem result_from_agg (c : Dev nD) :
    W8 m ρ c (Proc.devRef .tc main_v76)
      = KNorm (KAct (aggIn m ρ c) (biasIn m ρ c))
          (mean2 (SumArr (KAct (aggIn m ρ c) (biasIn m ρ c))))
          (invstd2 (SumArr (KAct (aggIn m ρ c) (biasIn m ρ c))) (SqArr (KAct (aggIn m ρ c) (biasIn m ρ c))))
          (gamma2 (m ((c : Thread nD τ).loc main_arg4))) (beta2 (m ((c : Thread nD τ).loc main_arg5))) := by
  refine (W8_arr m ρ c 5).trans ((final2 (Vin2 m ρ) c).trans ?_)
  show KNorm (W7 m ρ c (Proc.devRef .tc main_v58_0)) (W7 m ρ c (Proc.devRef .tc main_v72)) (W7 m ρ c (Proc.devRef .tc main_v73))
      (W7 m ρ c (Proc.devRef .tc main_v74)) (W7 m ρ c (Proc.devRef .tc main_v75)) = _
  rw [W7_main_v58_0, act_out]
  rw [show W7 m ρ c (Proc.devRef .tc main_v72) = mean2 (W6 m ρ c (Proc.devRef .tc main_v58_1)) from khost2_v72 (W6 m ρ c),
    show W7 m ρ c (Proc.devRef .tc main_v73) = invstd2 (W6 m ρ c (Proc.devRef .tc main_v58_1)) (W6 m ρ c (Proc.devRef .tc main_v58_2)) from khost2_v73 (W6 m ρ c),
    show W7 m ρ c (Proc.devRef .tc main_v74) = gamma2 (W6 m ρ c (Proc.devRef .tc main_arg4)) from khost2_v74 (W6 m ρ c),
    show W7 m ρ c (Proc.devRef .tc main_v75) = beta2 (W6 m ρ c (Proc.devRef .tc main_arg5)) from khost2_v75 (W6 m ρ c),
    sum_out, sq_out, W6_main_arg4, W6_main_arg5]

end Cert.KernelIdeal.Val

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.MatmulBlock.lean ====
/-
  The first kernel's block, read at an entry. The body multiplies a block of 5000 rows of the (rounded) node features
  by the whole (rounded, transposed) weight into a zero accumulator; at the ideal values the entry in row p and column q
  of the product is the sum over the 128 shared coordinates of block(p, k) * weight(k, q).
-/
import proofs.«117114_j45715631899545_1_alg».proof.Proof.Gen.KernelIdeal.Skeleton
import proofs.«117114_j45715631899545_1_alg».proof.Proof.LibPlainDot
import Idealize.ShloMosaic.Lib.Pipeline.Value
import Idealize.ShloMosaic.Lib.ValueIdx
import Idealize.ShloMosaic.PureOps.Ideal.Laws

noncomputable section

namespace Cert.Bridge.Mm

open Idealize.ShloMosaic Idealize.ShloMosaic.ValueIdx Cert.KernelIdeal Cert.KernelIdeal.Gen

/-- The printed dimension numbers of the block product are the plain ones. -/
theorem dims_eq : dot_S5000x128_S128x64_S5000x64_1_0_0_1_n_n = DotDims.plain 5000 128 64 := rfl

/-- The block product at an entry. -/
theorem pay1_apply (v0 : FVec Ideal S5000x128 .bf16) (v2 : FVec Ideal S128x64 .bf16) (p : Fin 5000) (q : Fin 64) :
    k0_pay1 (F := Ideal) v0 v2 (ix2 p q) = ∑ k : Fin 128, v0 (ix2 p k) * v2 (ix2 k q) := by
  unfold k0_pay1
  simp only [shapeCast_self]
  exact Cert.Lib.PlainDot.matmul_zero_apply 5000 128 64 (φ₁ := .bf16) (φ₂ := .bf16) none v0 v2 (ix2 p q)

end Cert.Bridge.Mm

end
-- ==== Proof.ValueR0.lean ====
/-
  What the first region leaves in its output array, at the ideal values: the matrix product of the array its first window
  reads (100000 rows of 128) with the array its second window reads (128 by 64), entry by entry. Point t of the grid
  multiplies rows 5000 t .. 5000 t + 4999 by the whole second array and writes the product back as rows
  5000 t .. 5000 t + 4999 of the output; the twenty blocks tile the output's rows.
-/
import proofs.«117114_j45715631899545_1_alg».proof.Proof.FrameR0
import proofs.«117114_j45715631899545_1_alg».proof.Proof.MatmulBlock
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- Rows times columns: entry (n, q) is the sum over k of x (n, k) * w (k, q). -/
def H (x : S100000x128.Idx → EReal) (w : S128x64.Idx → EReal) : S100000x64.Idx → EReal :=
  fun i => ∑ k : Fin 128, x (ix2 (⟨(i 0).val, idx2_lt0 i⟩ : Fin 100000) k) * w (ix2 k (⟨(i 1).val, idx2_lt1 i⟩ : Fin 64))

/-- A block of 5000 rows of the product, from the same rows of the left array. -/
theorem block_H (x0 : Vec Ideal S5000x128 .bf16) (x1 : Vec Ideal S128x64 .bf16)
    (X : S100000x128.Idx → EReal) (W : S128x64.Idx → EReal) (i : S100000x64.Idx) (p : Fin 5000) (q : Fin 64)
    (h0 : ∀ k : Fin 128, x0 (ix2 p k) = X (ix2 (⟨(i 0).val, idx2_lt0 i⟩ : Fin 100000) k))
    (h1 : ∀ k : Fin 128, x1 (ix2 k q) = W (ix2 k (⟨(i 1).val, idx2_lt1 i⟩ : Fin 64))) :
    k0_pay1 (F := Ideal) x0 x1 (ix2 p q) = H X W i := by
  rw [Cert.Bridge.Mm.pay1_apply]
  unfold H
  exact Finset.sum_congr rfl fun k _ => by rw [h0 k, h1 k]

/-- The printed index maps over the grid: the row windows move one block of rows per point, the weight stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the arrays the region finds. -/
theorem flushed0_eq (c : Dev nD) (t : Fin cfg0.N) :
    (dat0 V c).flushed 2 t = ((cfg0.win 2).blk t).view.read (Elt Ideal) (H (V c main_v0) (V c main_v2)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x64) hz2]
  obtain ⟨e0, e1, e2, e3, e4, e5⟩ := idx_facts0 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q) = H (V c main_v0) (V c main_v2) (((cfg0.win 2).blk t).view.emb (ix2 p q))
  refine block_H _ _ _ _ _ p q (fun k => ?_) (fun k => ?_)
  · show V c main_v0 (((cfg0.win 0).blk t).view.emb (ix2 p k)) = V c main_v0 _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c main_v2 (((cfg0.win 1).blk t).view.emb (ix2 k q)) = V c main_v2 _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

/-- An index of the output is in point t's block iff its row is among the block's 5000 rows. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v3).slice (win0_2.rect t)).set ↔ _
  rw [View.set_slice_whole, Rect.mem_set_unit]
  exact Iff.rfl

/-- Every entry of the output is in the block of the point its row falls in. -/
theorem cover0 (i : S100000x64.Idx) : ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 20 := N_0
  refine ⟨⟨(i 0).val / 5000, by rw [hN]; omega⟩, flush0_2 _, ?_⟩
  rw [mem_blk0]
  obtain ⟨e0, e1, e2, e3, e4, e5⟩ := idx_facts0 ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; dsimp only; omega
  | ⟨1, _⟩ => show win0_2.index _ (1 : Fin 2) * 64 ≤ (i 1).val ∧ (i 1).val < win0_2.index _ (1 : Fin 2) * 64 + 64; rw [e5]; omega

/-- The output array after the region: the product of the two arrays the region finds. -/
theorem final0 (c : Dev nD) : (dat0 V c).arrAt 2 cfg0.N = H (V c main_v0) (V c main_v2) :=
  (dat0 V c).arrAt_eq_of_cover 2 (H (V c main_v0) (V c main_v2)) (fun t _ => flushed0_eq V c t) cover0

end Cert.KernelIdeal.Val

end
-- ==== Proof.HostRead0.lean ====
/-
  What the host operations before the first region write: the node features rounded to the narrower format, and the weight
  transposed and then rounded, each as a function of the argument arrays (whatever else the buffers hold).
-/
import proofs.«117114_j45715631899545_1_alg».proof.Proof.Gen.KernelIdeal.Launch
import Idealize.ShloMosaic.Lib.StableHlo.Run
import Idealize.ShloMosaic.PureOps.Ideal

noncomputable section

namespace Cert.KernelIdeal.Val

open Cert.KernelIdeal Cert.KernelIdeal.Gen
open Idealize.ShloMosaic Idealize.ShloMosaic.TcCoe Idealize.ShloMosaic.StableHlo Idealize.SL.Sem

/-- The node features, rounded to the narrower format (at the ideal values: unchanged). -/
def xb (x : FVec Ideal S100000x128 .f32) : FVec Ideal S100000x128 .bf16 := truncf .bf16 x bitsLt_bf16_f32

/-- The weight, transposed to 128 by 64, then rounded (at the ideal values: the transpose). -/
def wb (w : FVec Ideal S64x128 .f32) : FVec Ideal S128x64 .bf16 :=
  truncf .bf16 (transpose S128x64 [1, 0] w transposes_S64x128_S128x64_1_0) bitsLt_bf16_f32

/-- The first window's array: the node features, rounded. -/
theorem host0_v0 (W : Valuation τ sig (Elt Ideal)) :
    StableHlo.after (hostOps0 (F := Ideal)) W (Proc.devRef .tc main_v0) = xb (W (Proc.devRef .tc main_arg0)) := by
  after_results_simp; rfl

/-- The second window's array: the weight, transposed, then rounded. -/
theorem host0_v2 (W : Valuation τ sig (Elt Ideal)) :
    StableHlo.after (hostOps0 (F := Ideal)) W (Proc.devRef .tc main_v2) = wb (W (Proc.devRef .tc main_arg2)) := by
  after_results_simp; rfl

end Cert.KernelIdeal.Val

end
-- ==== Proof.HRef.lean ====
/-
  The kernel's first product is the reference's: the rounded node features times the rounded, transposed weight is, at the
  ideal values (where rounding to a narrower format changes nothing), the reference's product of the node features with
  the transposed weight, entry by entry.
-/
import proofs.«117114_j45715631899545_1_alg».proof.Proof.ValueR0
import proofs.«117114_j45715631899545_1_alg».proof.Proof.HostRead0
import proofs.«117114_j45715631899545_1_alg».proof.Proof.RefReadGen

noncomputable section

namespace Cert.KernelIdeal.Val

open Idealize.ShloMosaic Idealize.ShloMosaic.ValueIdx

/-- Rows times columns of the rounded operands is the reference's first stage. -/
theorem H_eq_ref (x0 : FVec Ideal Cert.KernelIdeal.S100000x128 .f32) (x2 : FVec Ideal Cert.KernelIdeal.S64x128 .f32) :
    H (xb x0) (wb x2) = Cert.ReferenceIdeal.ReadP.val_main_v1 (F := Ideal) x0 x2 := by
  funext i
  rw [Cert.ReferenceIdeal.ReadP.val_main_v1_apply]
  unfold H
  refine Finset.sum_congr rfl fun k _ => ?_
  have el : (ix2 (⟨(i 0).val, idx2_lt0 i⟩ : Fin 100000) k : Cert.KernelIdeal.S100000x128.Idx) = Cert.ReferenceIdeal.ReadP.lidx_main_v1 i k :=
    funext fun a => Fin.ext (by match a with | ⟨0, _⟩ => rfl | ⟨1, _⟩ => rfl)
  have er : (ix2 k (⟨(i 1).val, idx2_lt1 i⟩ : Fin 64) : Cert.KernelIdeal.S128x64.Idx) = Cert.ReferenceIdeal.ReadP.ridx_main_v1 i k :=
    funext fun a => Fin.ext (by match a with | ⟨0, _⟩ => rfl | ⟨1, _⟩ => rfl)
  rw [el, er]
  rfl

end Cert.KernelIdeal.Val

end
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.LibGcnLaw.lean ====
/-
  The algebra that joins the two arrangements of a graph-convolution layer, over the extended reals.

  One arrangement scales a node's neighbour sum by the node's factor after summing; the other scales each summand by the
  product of the destination's and the source's factors before summing. A factor `c` with `0 ≤ c < ⊤` distributes over
  a finite sum of extended reals whatever the summands are (an infinite summand of either sign is kept by a positive
  finite factor and annihilated by zero on both sides), so the two arrangements agree with no finiteness asked of the
  features. The factor here is `1 / √deg` where the degree is positive and zero elsewhere, which always lies in
  `[0, ⊤)`: the reciprocal root of a positive real is a positive real, and that of `⊤` is `0`.

  Also: a 32-bit index word whose signed value is a row number `0 ≤ n < N` is left alone by the wrap that adds `N` to
  negative words, and clamping its value into `[0, N − 1]` gives `n` back.
-/
import Idealize.ShloMosaic.PureOps.Ideal

noncomputable section

open scoped BigOperators

namespace Cert.Gcn

open Idealize.ShloMosaic

/-- A nonnegative finite factor distributes over a finite sum of extended reals. -/
theorem mul_sum_of_nonneg_of_ne_top {ι : Type*} (s : Finset ι) (c : EReal) (h0 : 0 ≤ c) (hT : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 hT, ih]

/-- THE LAYER LAW. Over the edges `s` into one node whose factor is `c`: scaling the sum of `h e · dsrc e` by `c`
    is summing `h e · (ddst e · dsrc e)`, when every edge of `s` has destination factor `c`. The sums start from
    a zero `z`. -/
theorem layer_law {ι : Type*} (s : Finset ι) (c z : EReal) (hz : z = 0) (h0 : 0 ≤ c) (hT : c ≠ ⊤)
    (h dsrc ddst : ι → EReal) (hd : ∀ e ∈ s, ddst e = c) :
    c * (z + ∑ e ∈ s, h e * dsrc e) = z + ∑ e ∈ s, h e * (ddst e * dsrc e) := by
  subst hz
  rw [zero_add, zero_add, mul_sum_of_nonneg_of_ne_top s c h0 hT]
  refine Finset.sum_congr rfl fun e he => ?_
  rw [hd e he, mul_left_comm]

/-- The reciprocal square root guarded by positivity lies in `[0, ⊤)`. -/
theorem guarded_rsqrt_range (y : EReal) :
    0 ≤ (if 0 < y then Ideal.rsqrt y else 0) ∧ (if 0 < y then Ideal.rsqrt y else 0) ≠ ⊤ := by
  induction y using EReal.rec with
  | bot => simp
  | top => simp
  | coe r =>
    by_cases hr : (0 : EReal) < (r : EReal)
    · have hr' : 0 < r := by exact_mod_cast hr
      rw [if_pos hr, Ideal.rsqrt_coe, if_neg (not_lt.mpr hr'.le), if_neg hr'.ne']
      exact ⟨by exact_mod_cast (inv_nonneg.mpr (Real.sqrt_nonneg r)), EReal.coe_ne_top _⟩
    · rw [if_neg hr]; exact ⟨le_refl _, EReal.zero_ne_top⟩

/-- A word whose signed value is a row number is not negative, so the wrap keeps it; clamped, it is that row. -/
theorem wrap_clamp_of_toInt_eq {N : ℕ} (hN : N < 2 ^ 31) (w : BitVec 32) (n : Fin N) (hw : w.toInt = (n.val : Int)) :
    min (Scalar.select (IntOp.cmpi .slt w 0#32) (IntOp.addi w (BitVec.ofNat 32 N)) w).toInt.toNat (N - 1) = n.val := by
  have hns : w.slt 0#32 = false := by
    rw [BitVec.slt_eq_decide]  -- the signed comparison is the comparison of the signed values
    simp [hw]
  have hsel : Scalar.select (IntOp.cmpi .slt w 0#32) (IntOp.addi w (BitVec.ofNat 32 N)) w = w := by
    unfold Scalar.select IntOp.cmpi
    simp [hns]
  rw [hsel, hw]
  have := n.isLt
  simp only [Int.toNat_natCast]
  omega

end Cert.Gcn

end
-- ==== Proof.LibEdgeReads.lean ====
/-
  HOST LAYOUT OPERATIONS OF A PER-ROW COMPUTATION, READ AT AN INDEX, over arbitrary extents (nothing here mentions a
  program):

  * an `[a]` vector made an `[a, 1]` column by `broadcast_in_dim` along axis 0 reads, at `(e, u)`, the vector at `e`;
  * an `[a, 1]` column broadcast to `[a, b]` by `broadcast_in_dim` along axes 0 and 1 reads, at `(e, c)`, the column at
    `(e, 0)`;
  * column `k` of an `[a, b]` matrix, sliced out as `[a, 1]` and cast to `[a]`, reads, at `e`, the matrix at `(e, k)`;
  * the host's float sum over the second axis of an `[n, 3]` matrix reads, at `e`, the initial value plus the three
    entries of row `e`, added left to right.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.EdgeReads

open Idealize.ShloMosaic Idealize.ShloMosaic.ValueIdx

variable {α : Type}

/-- A vector made a column: at `(e, u)` the vector at `e`. -/
theorem column_of_vector_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) :=
  broadcastInDim_apply _ h x _ _ fun d => by
    match d with
    | ⟨0, _⟩ =>
      show e.val = if a = 1 then 0 else e.val
      split
      · have := e.isLt; omega
      · rfl

/-- A column broadcast along the rows: at `(e, c)` the column at `(e, 0)`. -/
theorem column_broadcast_apply {a b : ℕ} (x : (⟨2, ![a, 1]⟩ : Shape).Idx → α)
    (h : (⟨2, ![a, 1]⟩ : Shape).BroadcastsInDim ⟨2, ![a, b]⟩ ![0, 1]) (e : Fin a) (c : Fin b) :
    broadcastInDim ⟨2, ![a, b]⟩ ![0, 1] h x (ix2 e c) = x (ix2 e (0 : Fin 1)) :=
  broadcastInDim_apply _ h x _ _ fun d => by
    match d with
    | ⟨0, _⟩ =>
      show e.val = if a = 1 then 0 else e.val
      split
      · have := e.isLt; omega
      · rfl
    | ⟨1, _⟩ =>
      show (0 : ℕ) = if (1 : ℕ) = 1 then 0 else c.val
      rw [if_pos rfl]

/-- Column `k` of a matrix as a vector: at `e` the matrix at `(e, k)`. -/
theorem column_slice_apply {a b : ℕ} (k : ℕ) (hk : k < b) (X : (⟨2, ![a, b]⟩ : Shape).Idx → α)
    (hs : (⟨2, ![a, b]⟩ : Shape).Slices ![0, k] ⟨2, ![a, 1]⟩)
    (hc : (⟨2, ![a, 1]⟩ : Shape).ShapeCasts ⟨1, ![a]⟩) (e : Fin a) :
    shapeCast ⟨1, ![a]⟩ (extractStridedSlice ⟨2, ![a, 1]⟩ ![0, k] X hs) hc (ix1 e) = X (ix2 e ⟨k, hk⟩) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply _ X hs _ _ fun d => ?_
    match d with
    | ⟨0, _⟩ => show e.val = 0 + e.val; omega
    | ⟨1, _⟩ => show k = k + 0; omega

/-- The host's sum of each row of an `[n, 3]` matrix: at `e` the initial value plus the row's three entries. -/
theorem hostReduceAdd_rows3_apply {n : ℕ} {u : Shape} (x : FVec Ideal ⟨2, ![n, 3]⟩ .f32) (init : u.Idx → Ideal .f32)
    (h' : (⟨2, ![n, 3]⟩ : Shape).ReducesTo [1] ⟨1, ![n]⟩) (h : (⟨2, ![n, 3]⟩ : Shape).Reduces [1] ⟨1, ![n]⟩)
    (hu : 0 < u.numel) (e : Fin n) :
    Host.reduceAdd x init h' hu (ix1 e)
      = init (Shape.Idx.first hu) + (x (ix2 e 0) + x (ix2 e 1) + x (ix2 e 2)) := by
  rw [hostReduceAdd_apply, Ideal.hostReduceAdd_single h' h]
  have hl : ∀ k : Fin 3, h.lift (ix1 e) k = ix2 e k := fun k => by
    funext d; refine Fin.ext ?_
    match d with
    | ⟨0, _⟩ => rfl
    | ⟨1, _⟩ => rfl
  show init (Shape.Idx.first hu) + ∑ k : Fin 3, x (h.lift (ix1 e) k) = _
  rw [Fin.sum_univ_three, hl 0, hl 1, hl 2]

end Cert.Lib.EdgeReads

end
-- ==== Proof.LibScatterDims.lean ====
/-
  A scatter's dimension numbers are determined by their four data fields: a record over the row-scatter shapes whose
  update window axis is 1, whose inserted axis is 0, whose index component names operand axis 0 and whose index vector is
  axis 1 IS the row scatter's record (the remaining field is a proof). So a lemma about the row scatter applies to any
  record printed with those numbers, whatever proof it carries.

  Hence the host's accumulating row scatter, for ANY such record and any extents, read at an element: element `(i, c)`
  of the result is the operand's element plus the sum of column `c` of the update rows whose index word, read as a
  signed integer, is `i`; a row whose index is not a row of the operand contributes nothing.
-/
import proofs.«117114_j45715631899545_1_alg».proof.Proof.LibHostIndex

noncomputable section

open scoped BigOperators

namespace Cert.Lib.HostIndex

open Idealize.ShloMosaic Idealize.ShloMosaic.ValueIdx

theorem eq_rowScatterDims {N R C : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) : ∃ wf, d = rowScatterDims N R C wf := by
  obtain ⟨u, i, s, v, wf⟩ := d
  dsimp only at h1 h2 h3 h4
  subst h1 h2 h3 h4
  exact ⟨wf, rfl⟩

/-- THE HOST'S ROW SCATTER-ADD OF ANY RECORD WITH THE ROW NUMBERS, READ AT `(i, c)`: the operand's element plus the
    sum of column `c` of the update rows whose index, read signed, is `i` (rows indexed outside `[0, N)` land
    nowhere). -/
theorem hostScatterAdd_rows_apply {N R C w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![R, 1]⟩ w)
    (upd : (⟨2, ![R, C]⟩ : Shape).Idx → EReal) (i : Fin N) (c : Fin C) :
    Host.scatterAdd (F := Ideal) (φ := .f32) d x idx upd (ix2 i c)
      = x (ix2 i c) + ∑ e ∈ Finset.univ.filter (fun e : Fin R => (idx (ix2 e 0)).toInt = (i.val : Int)), upd (ix2 e c) := by
  obtain ⟨wf, rfl⟩ := eq_rowScatterDims d h1 h2 h3 h4
  exact scatterAdd_rows_apply wf x idx upd i c

end Cert.Lib.HostIndex

end
-- ==== Proof.LibSageMean.lean ====
/-
  THE MEAN OVER IN-NEIGHBOURS, TWO WAYS, over arbitrary extents (nothing here mentions a program).

  A segment sum `s` of shape `[N, C]` is turned into a mean by the in-degree of each row, the degree being itself a
  segment sum of ones over the same index column `D`, kept at least one. One program counts the degree as a vector
  `[N]`, takes the reciprocal `1 / max(deg, 1)`, makes it a column and multiplies; the other counts it as a column
  `[N, 1]` and divides by `max(deg, 1)`.

  The two counts agree because an edge lands on row `i` of either exactly when its signed index is `i`, and each
  landing edge contributes the same one. The two quotients agree on every extended real: the divisor `m = max(deg, 1)`
  is at least one, hence not zero, and off zero the quotient `x / m` is by definition `x * m⁻¹`; so
  `s * (1 / m) = s * (1 * m⁻¹) = s * m⁻¹ = s / m`, with no finiteness asked of `s`.
-/
import proofs.«117114_j45715631899545_1_alg».proof.Proof.LibScatterDims
import proofs.«117114_j45715631899545_1_alg».proof.Proof.LibEdgeReads
import Idealize.ShloMosaic.Lib.ValueIdx
import Idealize.ShloMosaic.PureOps.Ideal.Laws

noncomputable section

open scoped BigOperators

namespace Cert.Lib.MeanAgg

open Idealize.ShloMosaic Idealize.ShloMosaic.ValueIdx Cert.Lib.HostIndex Cert.Lib.EdgeReads

/-- A scatter record over the vector shapes with no window axis, the one operand axis inserted and named by the index,
    is the vector scatter's record (the remaining field is a proof). -/
theorem eq_vecScatterDims {N R : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) : ∃ wf, d = vecScatterDims N R wf := by
  obtain ⟨u, i, s, v, wf⟩ := d
  dsimp only at h1 h2 h3 h4
  subst h1 h2 h3 h4
  exact ⟨wf, rfl⟩

/-- THE HOST'S VECTOR SCATTER-ADD OF ANY RECORD WITH THE VECTOR NUMBERS, READ AT `i`: the operand's element plus the sum
    of the updates whose index, read signed, is `i`. -/
theorem hostScatterAdd_vec_apply {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![R, 1]⟩ w)
    (upd : (⟨1, ![R]⟩ : Shape).Idx → EReal) (i : Fin N) :
    Host.scatterAdd (F := Ideal) (φ := .f32) d x idx upd (ix1 i)
      = x (ix1 i) + ∑ e ∈ Finset.univ.filter (fun e : Fin R => (idx (ix2 e 0)).toInt = (i.val : Int)), upd (ix1 e) := by
  obtain ⟨wf, rfl⟩ := eq_vecScatterDims d h1 h2 h3 h4
  exact scatterAdd_vec_apply wf x idx upd i

/-- The f32 word of 1.0 denotes the extended real one. -/
theorem ofBits_one_f32 : Ideal.ofBits .f32 0x3F800000#32 = 1 := by
  simp [Ideal.ofBits, Ideal.ieee, -EReal.coe_mul]; norm_num

/-- Multiplying by the reciprocal of a divisor that is at least one is dividing by it, on every extended real. -/
theorem mul_recip_eq_div (s d : EReal) : s * Ideal.div 1 (max d 1) = Ideal.div s (max d 1) := by
  have hm : max d 1 ≠ 0 := (lt_of_lt_of_le zero_lt_one (le_max_right d 1)).ne'
  unfold Ideal.div
  rw [if_neg hm, if_neg hm, one_mul]

/-- THE TWO MEANS ARE ONE ARRAY. `zv`, `zc` are the zero-filled operands of the two degree counts, `uv`, `uc` their
    all-ones updates, `ov`, `ov'`, `oc` the all-ones arrays of the reciprocal and of the two floors. -/
theorem mean_mul_recip_eq_div {N R C w : Nat}
    (dv : ScatterDims ⟨1, ![N]⟩ ⟨2, ![R, 1]⟩ ⟨1, ![R]⟩)
    (hv1 : dv.updateWindowDims = []) (hv2 : dv.insertedWindowDims = [0]) (hv3 : dv.scatterDimsToOperandDims = [0])
    (hv4 : dv.indexVectorDim = 1)
    (dc : ScatterDims ⟨2, ![N, 1]⟩ ⟨2, ![R, 1]⟩ ⟨2, ![R, 1]⟩)
    (hc1 : dc.updateWindowDims = [1]) (hc2 : dc.insertedWindowDims = [0]) (hc3 : dc.scatterDimsToOperandDims = [0])
    (hc4 : dc.indexVectorDim = 1)
    (s : (⟨2, ![N, C]⟩ : Shape).Idx → EReal) (D : IVec ⟨2, ![R, 1]⟩ w) (zero : EReal)
    (zv ov ov' : (⟨1, ![N]⟩ : Shape).Idx → EReal) (uv : (⟨1, ![R]⟩ : Shape).Idx → EReal)
    (zc oc : (⟨2, ![N, 1]⟩ : Shape).Idx → EReal) (uc : (⟨2, ![R, 1]⟩ : Shape).Idx → EReal)
    (hzv : ∀ i, zv i = zero) (hov : ∀ i, ov i = 1) (hov' : ∀ i, ov' i = 1) (huv : ∀ i, uv i = 1)
    (hzc : ∀ i, zc i = zero) (hoc : ∀ i, oc i = 1) (huc : ∀ i, uc i = 1)
    (hb1 : (⟨1, ![N]⟩ : Shape).BroadcastsInDim ⟨2, ![N, 1]⟩ ![0])
    (hb2 hb2' : (⟨2, ![N, 1]⟩ : Shape).BroadcastsInDim ⟨2, ![N, C]⟩ ![0, 1]) :
    mulf (F := Ideal) (φ := .f32) s (broadcastInDim ⟨2, ![N, C]⟩ ![0, 1] hb2 (broadcastInDim ⟨2, ![N, 1]⟩ ![0] hb1
        (Host.divf (F := Ideal) (φ := .f32) ov
          (maximumf (F := Ideal) (φ := .f32) (Host.scatterAdd (F := Ideal) (φ := .f32) dv zv D uv) ov'))))
      = Host.divf (F := Ideal) (φ := .f32) s (broadcastInDim ⟨2, ![N, C]⟩ ![0, 1] hb2'
          (maximumf (F := Ideal) (φ := .f32) (Host.scatterAdd (F := Ideal) (φ := .f32) dc zc D uc) oc)) := by
  funext j
  obtain ⟨r, c, rfl⟩ : ∃ (r : Fin N) (c : Fin C), j = ix2 r c := ⟨j 0, j 1, eq_ix2 j⟩
  show s (ix2 r c) * broadcastInDim (s := ⟨2, ![N, 1]⟩) ⟨2, ![N, C]⟩ ![0, 1] hb2 _ (ix2 r c)
      = Ideal.div (s (ix2 r c)) (broadcastInDim (s := ⟨2, ![N, 1]⟩) ⟨2, ![N, C]⟩ ![0, 1] hb2' _ (ix2 r c))
  rw [column_broadcast_apply, column_broadcast_apply, column_of_vector_apply]
  show s (ix2 r c) * Ideal.div (ov (ix1 r)) (max (Host.scatterAdd (F := Ideal) (φ := .f32) dv zv D uv (ix1 r)) (ov' (ix1 r)))
      = Ideal.div (s (ix2 r c)) (max (Host.scatterAdd (F := Ideal) (φ := .f32) dc zc D uc (ix2 r (0 : Fin 1))) (oc (ix2 r (0 : Fin 1))))
  rw [hostScatterAdd_vec_apply dv hv1 hv2 hv3 hv4, hostScatterAdd_rows_apply dc hc1 hc2 hc3 hc4, hov, hov', hoc, hzv, hzc,
    Finset.sum_congr rfl (fun e _ => huv (ix1 e)), Finset.sum_congr rfl (fun e _ => huc (ix2 e (0 : Fin 1)))]
  exact mul_recip_eq_div _ _

end Cert.Lib.MeanAgg

end
-- ==== Proof.LibMeanGcn.lean ====
/-
  THE MEAN-NORMALISED GRAPH-CONVOLUTION AGGREGATION, IN ITS TWO ARRANGEMENTS, over arbitrary extents: `N` nodes, `R`
  edges (self loops included), `C` features. Nothing here mentions a program.

  From a source word `s e` and a target word `t e` per edge (32-bit, read signed), the in-degree of node `n` is
  `deg n = 0 + Σ_{e : t e = n} 1`, the normaliser is `dinv n = 1 / √(deg n)` where the degree is positive and `0`
  elsewhere, and the divisor of the mean is `c n = max (deg n) 1`. A gather reads row `row v e`: the word `v e` with the
  extent added where it is negative, then clamped into the rows; a scatter-add lands edge `e` on the row its target
  word names, or nowhere. With `coef e = dinv (row s e) · dinv (row t e)`:

    one arrangement    agg (n, f) = 0 + Σ_{e : t e = n} h (row s e, f) · (coef e / c (row t e))
    the other          agg (n, f) = (0 + Σ_{e : t e = n} h (row s e, f) · coef e) / c n

  They are the same array on ALL extended reals. An edge that lands on `n` has a target word whose signed value is the
  row `n`, so the wrap keeps it and the clamp returns `n`: `c (row t e) = c n`. The divisor `c n` is at least one, so it
  is not zero and division by it is multiplication by its inverse `k`, with `0 ≤ k < ⊤` (the inverse of `⊤` is `0`);
  such a factor distributes over a finite sum of extended reals whatever the summands are.

  Also: when every entry of `h` is a real, every entry of the aggregate is. The degree is a count, hence a real; the
  guarded reciprocal root lies in `[0, ⊤)`, hence is a real; a finite sum of products of reals is a real; and a real
  divided by a real that is at least one is a real.
-/
import proofs.«117114_j45715631899545_1_alg».proof.Proof.LibHostIndex
import proofs.«117114_j45715631899545_1_alg».proof.Proof.LibGcnLaw
import proofs.«117114_j45715631899545_1_alg».proof.Proof.LibEdgeReads
import proofs.«117114_j45715631899545_1_alg».proof.Proof.LibSageMean
import Idealize.ShloMosaic.PureOps.Ideal.Laws
import Idealize.ShloMosaic.Lib.ValueIdx
import Idealize.ShloMosaic.Lib.Pipeline.Value

noncomputable section

open scoped BigOperators

namespace Cert.Lib.MeanGcn

open Idealize.ShloMosaic Idealize.ShloMosaic.ValueIdx Cert.Lib.HostIndex Cert.Lib.EdgeReads Cert.Lib.MeanAgg Cert.Gcn

/-! ## Reals among the extended reals -/

/-- An extended real that is a real. -/
def IsR (x : EReal) : Prop := ∃ r : ℝ, x = (r : EReal)

theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type*} (S : Finset ι) (f : ι → EReal) (hf : ∀ e ∈ S, IsR (f e)) : IsR (∑ e ∈ S, f e) := by
  classical
  induction S using Finset.induction_on with
  | empty => simpa using IsR.zero
  | insert a S ha ih =>
    rw [Finset.sum_insert ha]
    exact (hf a (Finset.mem_insert_self a S)).add (ih fun e he => hf e (Finset.mem_insert_of_mem he))
/-- An extended real in `[0, ⊤)` is a real. -/
theorem IsR.of_range {x : EReal} (h0 : 0 ≤ x) (hT : x ≠ ⊤) : IsR x := by
  induction x using EReal.rec with
  | bot => exact absurd h0 (by simp)
  | top => exact absurd rfl hT
  | coe r => exact ⟨r, rfl⟩
/-- A real divided by a real that is at least one is a real. -/
theorem IsR.div_of_one_le {x c : EReal} (hx : IsR x) (hc : IsR c) (h1 : 1 ≤ c) : IsR (Ideal.div x c) := by
  obtain ⟨a, rfl⟩ := hx; obtain ⟨b, rfl⟩ := hc
  have hb : (1 : ℝ) ≤ b := by exact_mod_cast h1
  have hb0 : b ≠ 0 := by linarith
  rw [Ideal.div_coe hb0]
  exact ⟨a * (1 / b), (EReal.coe_mul a (1 / b)).symm⟩

/-! ## The algebra -/

/-- The inverse of an extended real that is at least one lies in `[0, ⊤)`. -/
theorem inv_range_of_one_le {c : EReal} (h1 : 1 ≤ c) : 0 ≤ c⁻¹ ∧ c⁻¹ ≠ ⊤ := by
  induction c using EReal.rec with
  | bot =>
    have hb : (⊥ : EReal) < 1 := by exact_mod_cast EReal.bot_lt_coe 1
    exact absurd h1 (not_le.mpr hb)
  | top => simp
  | coe r =>
    have hr : (1 : ℝ) ≤ r := by exact_mod_cast h1
    rw [← EReal.coe_inv]
    exact ⟨by exact_mod_cast inv_nonneg.mpr (by linarith), EReal.coe_ne_top _⟩

/-- Division by an extended real that is at least one is multiplication by its inverse. -/
theorem div_eq_mul_inv_of_one_le (x : EReal) {c : EReal} (h1 : 1 ≤ c) : Ideal.div x c = x * c⁻¹ := by
  have hc : c ≠ 0 := (lt_of_lt_of_le zero_lt_one h1).ne'
  unfold Ideal.div
  rw [if_neg hc]

/-- THE LAW. Over the edges `S` into one node whose divisor is `c ≥ 1`: dividing each summand's coefficient by the
    divisor read at the edge (which is `c` on `S`) is dividing the sum by `c`. The sums start from zero. -/
theorem sum_div_law {ι : Type*} (S : Finset ι) (c : EReal) (h1 : 1 ≤ c) (a b g : ι → EReal) (hg : ∀ e ∈ S, g e = c) :
    0 + ∑ e ∈ S, a e * Ideal.div (b e) (g e) = Ideal.div (0 + ∑ e ∈ S, a e * b e) c := by
  obtain ⟨k0, kT⟩ := inv_range_of_one_le h1
  rw [zero_add, zero_add, div_eq_mul_inv_of_one_le _ h1, mul_comm, mul_sum_of_nonneg_of_ne_top S _ k0 kT]
  refine Finset.sum_congr rfl fun e he => ?_
  rw [hg e he, div_eq_mul_inv_of_one_le _ h1, ← mul_assoc, mul_comm]

/-! ## The layer's operations, as the host spells them -/

/-- The shape facts the layer's layout operations cite. -/
structure Facts (N R C : ℕ) : Prop where
  bS_R : (⟨0, ![]⟩ : Shape).BroadcastsInDim ⟨1, ![R]⟩ (![] : Fin 0 → Fin 1)
  bS_N : (⟨0, ![]⟩ : Shape).BroadcastsInDim ⟨1, ![N]⟩ (![] : Fin 0 → Fin 1)
  bS_NC : (⟨0, ![]⟩ : Shape).BroadcastsInDim ⟨2, ![N, C]⟩ (![] : Fin 0 → Fin 2)
  bR_R1 : (⟨1, ![R]⟩ : Shape).BroadcastsInDim ⟨2, ![R, 1]⟩ (![0] : Fin 1 → Fin 2)
  bR1_RC : (⟨2, ![R, 1]⟩ : Shape).BroadcastsInDim ⟨2, ![R, C]⟩ (![0, 1] : Fin 2 → Fin 2)

section Defs

variable {N R C : ℕ} (fx : Facts N R C)
  (sdV : ScatterDims ⟨1, ![N]⟩ ⟨2, ![R, 1]⟩ ⟨1, ![R]⟩)
  (gdV : GatherDims ⟨1, ![N]⟩ ⟨2, ![R, 1]⟩ ⟨1, ![R]⟩)
  (gdM : GatherDims ⟨2, ![N, C]⟩ ⟨2, ![R, 1]⟩ ⟨2, ![R, C]⟩)
  (sdM : ScatterDims ⟨2, ![N, C]⟩ ⟨2, ![R, 1]⟩ ⟨2, ![R, C]⟩)

/-- A per-edge vector as a column. -/
def col {α : Type} (v : (⟨1, ![R]⟩ : Shape).Idx → α) : (⟨2, ![R, 1]⟩ : Shape).Idx → α :=
  broadcastInDim ⟨2, ![R, 1]⟩ ![0] fx.bR_R1 v

/-- The index wrap: the extent added where the word is negative. -/
def wrap (v : IVec ⟨1, ![R]⟩ 32) : IVec ⟨1, ![R]⟩ 32 :=
  select (cmpi .slt v (broadcastInDim ⟨1, ![R]⟩ ![] fx.bS_R (constantI ⟨0, ![]⟩ 32 0#32)))
    (addi v (broadcastInDim ⟨1, ![R]⟩ ![] fx.bS_R (constantI ⟨0, ![]⟩ 32 (BitVec.ofNat 32 N)))) v

/-- The in-degree: ones scatter-added at the target words into zeros. -/
def deg (t : IVec ⟨1, ![R]⟩ 32) : FVec Ideal ⟨1, ![N]⟩ .f32 :=
  Host.scatterAdd (F := Ideal) sdV
    (broadcastInDim ⟨1, ![N]⟩ ![] fx.bS_N (constant (F := Ideal) ⟨0, ![]⟩ .f32 0x00000000#32))
    (col fx t)
    (broadcastInDim ⟨1, ![R]⟩ ![] fx.bS_R (constant (F := Ideal) ⟨0, ![]⟩ .f32 0x3F800000#32))

/-- The normaliser: the reciprocal root of the degree where it is positive, zero elsewhere. -/
def dinv (d : FVec Ideal ⟨1, ![N]⟩ .f32) : FVec Ideal ⟨1, ![N]⟩ .f32 :=
  select (cmpf .ogt d (broadcastInDim ⟨1, ![N]⟩ ![] fx.bS_N (constant (F := Ideal) ⟨0, ![]⟩ .f32 0x00000000#32)))
    (Host.rsqrt d)
    (broadcastInDim ⟨1, ![N]⟩ ![] fx.bS_N (constant (F := Ideal) ⟨0, ![]⟩ .f32 0x00000000#32))

/-- The mean's divisor: the degree kept at least one. -/
def cmax (d : FVec Ideal ⟨1, ![N]⟩ .f32) : FVec Ideal ⟨1, ![N]⟩ .f32 :=
  maximumf d (broadcastInDim ⟨1, ![N]⟩ ![] fx.bS_N (constant (F := Ideal) ⟨0, ![]⟩ .f32 0x3F800000#32))

/-- The symmetric coefficient of an edge: the normalisers gathered at its two ends, multiplied. -/
def coef (dv : FVec Ideal ⟨1, ![N]⟩ .f32) (s t : IVec ⟨1, ![R]⟩ 32) : FVec Ideal ⟨1, ![R]⟩ .f32 :=
  mulf (Host.gather gdV dv (col fx (wrap fx s))) (Host.gather gdV dv (col fx (wrap fx t)))

/-- The coefficient divided by the divisor gathered at the target. -/
def coefK (dv cm : FVec Ideal ⟨1, ![N]⟩ .f32) (s t : IVec ⟨1, ![R]⟩ 32) : FVec Ideal ⟨1, ![R]⟩ .f32 :=
  Host.divf (coef fx gdV dv s t) (Host.gather gdV cm (col fx (wrap fx t)))

/-- The messages `h[src] · cf` scatter-added at the target words into zeros. -/
def aggOf (h : FVec Ideal ⟨2, ![N, C]⟩ .f32) (s t : IVec ⟨1, ![R]⟩ 32) (cf : FVec Ideal ⟨1, ![R]⟩ .f32) :
    FVec Ideal ⟨2, ![N, C]⟩ .f32 :=
  Host.scatterAdd (F := Ideal) sdM
    (broadcastInDim ⟨2, ![N, C]⟩ ![] fx.bS_NC (constant (F := Ideal) ⟨0, ![]⟩ .f32 0x00000000#32))
    (col fx t)
    (mulf (Host.gather gdM h (col fx (wrap fx s))) (broadcastInDim ⟨2, ![R, C]⟩ ![0, 1] fx.bR1_RC (col fx cf)))

/-- The arrangement that divides each edge's coefficient. -/
def kagg (h : FVec Ideal ⟨2, ![N, C]⟩ .f32) (s t : IVec ⟨1, ![R]⟩ 32) : FVec Ideal ⟨2, ![N, C]⟩ .f32 :=
  aggOf fx gdM sdM h s t (coefK fx gdV (dinv fx (deg fx sdV t)) (cmax fx (deg fx sdV t)) s t)

/-- The arrangement that divides the sum; the divisor is made a column and broadcast along the features. -/
def ragg (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    (h : FVec Ideal ⟨2, ![N, C]⟩ .f32) (s t : IVec ⟨1, ![R]⟩ 32) : FVec Ideal ⟨2, ![N, C]⟩ .f32 :=
  Host.divf (aggOf fx gdM sdM h s t (coef fx gdV (dinv fx (deg fx sdV t)) s t))
    (broadcastInDim ⟨2, ![N, C]⟩ ![0, 1] bN1_NC (broadcastInDim ⟨2, ![N, 1]⟩ ![0] bN_N1 (cmax fx (deg fx sdV t))))

end Defs

/-! ## The operations read at an index -/

section Reads

variable {N R C : ℕ} (fx : Facts N R C)

/-- A scalar broadcast reads the scalar. -/
theorem scalar_bcast_apply {α : Type} {t : Shape}
    (h : (⟨0, ![]⟩ : Shape).BroadcastsInDim t (![] : Fin 0 → Fin t.rank)) (y : (⟨0, ![]⟩ : Shape).Idx → α) (j : t.Idx) :
    broadcastInDim t ![] h y j = y (fun a => a.elim0) :=
  broadcastInDim_apply _ h y j (fun a => a.elim0) (fun a => a.elim0)

/-- The f32 word of 0.0 denotes zero. -/
theorem ofBits_zero_f32 : Ideal.ofBits .f32 0x00000000#32 = 0 := by
  simp [Ideal.ofBits, Ideal.ieee]

theorem col_apply {α : Type} (v : (⟨1, ![R]⟩ : Shape).Idx → α) (e : Fin R) (u : Fin 1) :
    col fx v (ix2 e u) = v (ix1 e) :=
  column_of_vector_apply v fx.bR_R1 e u

/-- The wrap of one word. -/
def wrapW (N : ℕ) (w : BitVec 32) : BitVec 32 :=
  Scalar.select (IntOp.cmpi .slt w 0#32) (IntOp.addi w (BitVec.ofNat 32 N)) w

theorem wrap_apply (v : IVec ⟨1, ![R]⟩ 32) (i : (⟨1, ![R]⟩ : Shape).Idx) : wrap fx v i = wrapW N (v i) := by
  show Scalar.select (IntOp.cmpi .slt (v i) (broadcastInDim ⟨1, ![R]⟩ ![] fx.bS_R (constantI ⟨0, ![]⟩ 32 0#32) i))
      (IntOp.addi (v i) (broadcastInDim ⟨1, ![R]⟩ ![] fx.bS_R (constantI ⟨0, ![]⟩ 32 (BitVec.ofNat 32 N)) i)) (v i) = _
  rw [scalar_bcast_apply, scalar_bcast_apply]
  rfl

/-- The row a gather through the wrap reads for edge `e`: the wrapped word, signed, clamped into the rows. -/
def rowOf (hN : 0 < N) (v : IVec ⟨1, ![R]⟩ 32) (e : Fin R) : Fin N :=
  ⟨min (wrapW N (v (ix1 e))).toInt.toNat (N - 1), by omega⟩

/-- An edge whose word names the row `n` reads row `n` through the wrap. -/
theorem rowOf_eq (hN : 0 < N) (hN' : N < 2 ^ 31) (v : IVec ⟨1, ![R]⟩ 32) (e : Fin R) (n : Fin N)
    (hw : (v (ix1 e)).toInt = (n.val : Int)) : rowOf hN v e = n :=
  Fin.ext (wrap_clamp_of_toInt_eq hN' (v (ix1 e)) n hw)

/-- The edges that land on node `n`. -/
def inTo (t : IVec ⟨1, ![R]⟩ 32) (n : Fin N) : Finset (Fin R) :=
  Finset.univ.filter fun e => (t (ix1 e)).toInt = (n.val : Int)

theorem eq_vecGatherDims (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) : ∃ wf, d = vecGatherDims N R wf := by
  obtain ⟨o, cs, ob, sb, sm, iv, ss, wf⟩ := d
  dsimp only at h1 h2 h3 h4 h5 h6 h7
  subst h1 h2 h3 h4 h5 h6 h7
  exact ⟨wf, rfl⟩

variable {sdV : ScatterDims ⟨1, ![N]⟩ ⟨2, ![R, 1]⟩ ⟨1, ![R]⟩}
  {gdV : GatherDims ⟨1, ![N]⟩ ⟨2, ![R, 1]⟩ ⟨1, ![R]⟩}
  {gdM : GatherDims ⟨2, ![N, C]⟩ ⟨2, ![R, 1]⟩ ⟨2, ![R, C]⟩}
  {sdM : ScatterDims ⟨2, ![N, C]⟩ ⟨2, ![R, 1]⟩ ⟨2, ![R, C]⟩}

/-- A vector gathered through the wrap, at edge `e`. -/
theorem gatherV_apply (hN : 0 < N) (hg : ∃ wf, gdV = vecGatherDims N R wf) {α : Type}
    (x : (⟨1, ![N]⟩ : Shape).Idx → α) (v : IVec ⟨1, ![R]⟩ 32) (e : Fin R) :
    Host.gather gdV x (col fx (wrap fx v)) (ix1 e) = x (ix1 (rowOf hN v e)) := by
  obtain ⟨wf, rfl⟩ := hg
  rw [gather_vec_apply hN wf]
  refine congrArg x (congrArg ix1 (Fin.ext ?_))
  show min (col fx (wrap fx v) (ix2 e 0)).toInt.toNat (N - 1) = min (wrapW N (v (ix1 e))).toInt.toNat (N - 1)
  rw [col_apply, wrap_apply]

/-- A matrix's rows gathered through the wrap, at `(e, f)`. -/
theorem gatherM_apply (hN : 0 < N) (hg : ∃ wf, gdM = rowGatherDims N R C wf) {α : Type}
    (x : (⟨2, ![N, C]⟩ : Shape).Idx → α) (v : IVec ⟨1, ![R]⟩ 32) (e : Fin R) (f : Fin C) :
    Host.gather gdM x (col fx (wrap fx v)) (ix2 e f) = x (ix2 (rowOf hN v e) f) := by
  obtain ⟨wf, rfl⟩ := hg
  rw [gather_rows_apply hN wf]
  refine congrArg x (congrArg (fun a => ix2 a f) (Fin.ext ?_))
  show min (col fx (wrap fx v) (ix2 e 0)).toInt.toNat (N - 1) = min (wrapW N (v (ix1 e))).toInt.toNat (N - 1)
  rw [col_apply, wrap_apply]

/-- The degree of node `n`, as a value. -/
def degV (t : IVec ⟨1, ![R]⟩ 32) (n : Fin N) : EReal := 0 + ∑ _e ∈ inTo t n, (1 : EReal)

theorem deg_apply (hs : ∃ wf, sdV = vecScatterDims N R wf) (t : IVec ⟨1, ![R]⟩ 32) (n : Fin N) :
    deg fx sdV t (ix1 n) = degV t n := by
  obtain ⟨wf, rfl⟩ := hs
  refine (scatterAdd_vec_apply wf _ _ _ n).trans ?_
  have hz : broadcastInDim ⟨1, ![N]⟩ ![] fx.bS_N (constant (F := Ideal) ⟨0, ![]⟩ .f32 0x00000000#32) (ix1 n) = 0 :=
    (scalar_bcast_apply _ _ _).trans ofBits_zero_f32
  have ho : ∀ e : Fin R,
      broadcastInDim ⟨1, ![R]⟩ ![] fx.bS_R (constant (F := Ideal) ⟨0, ![]⟩ .f32 0x3F800000#32) (ix1 e) = 1 :=
    fun e => (scalar_bcast_apply _ _ _).trans ofBits_one_f32
  rw [hz]
  simp only [ho, col_apply]
  rfl

/-- The normaliser of node `n`, as a value. -/
def dinvV (t : IVec ⟨1, ![R]⟩ 32) (n : Fin N) : EReal :=
  if 0 < degV t n then Ideal.rsqrt (degV t n) else 0

/-- The mean's divisor at node `n`, as a value. -/
def cmaxV (t : IVec ⟨1, ![R]⟩ 32) (n : Fin N) : EReal := max (degV t n) 1

theorem select_ogt_zero (y a b : EReal) : Scalar.select (Ideal.cmp .ogt y 0) a b = if 0 < y then a else b := by
  by_cases h : 0 < y <;> simp [Scalar.select, Ideal.cmp, h]

theorem dinv_apply (hs : ∃ wf, sdV = vecScatterDims N R wf) (t : IVec ⟨1, ![R]⟩ 32) (n : Fin N) :
    dinv fx (deg fx sdV t) (ix1 n) = dinvV t n := by
  show Scalar.select (Ideal.cmp .ogt (deg fx sdV t (ix1 n))
      (broadcastInDim ⟨1, ![N]⟩ ![] fx.bS_N (constant (F := Ideal) ⟨0, ![]⟩ .f32 0x00000000#32) (ix1 n)))
      (Ideal.rsqrt (deg fx sdV t (ix1 n)))
      (broadcastInDim ⟨1, ![N]⟩ ![] fx.bS_N (constant (F := Ideal) ⟨0, ![]⟩ .f32 0x00000000#32) (ix1 n)) = _
  have hz : broadcastInDim ⟨1, ![N]⟩ ![] fx.bS_N (constant (F := Ideal) ⟨0, ![]⟩ .f32 0x00000000#32) (ix1 n) = 0 :=
    (scalar_bcast_apply _ _ _).trans ofBits_zero_f32
  rw [hz, deg_apply fx hs, select_ogt_zero]
  rfl

theorem cmax_apply (hs : ∃ wf, sdV = vecScatterDims N R wf) (t : IVec ⟨1, ![R]⟩ 32) (n : Fin N) :
    cmax fx (deg fx sdV t) (ix1 n) = cmaxV t n := by
  show max (deg fx sdV t (ix1 n))
      (broadcastInDim ⟨1, ![N]⟩ ![] fx.bS_N (constant (F := Ideal) ⟨0, ![]⟩ .f32 0x3F800000#32) (ix1 n)) = _
  have ho : broadcastInDim ⟨1, ![N]⟩ ![] fx.bS_N (constant (F := Ideal) ⟨0, ![]⟩ .f32 0x3F800000#32) (ix1 n) = 1 :=
    (scalar_bcast_apply _ _ _).trans ofBits_one_f32
  rw [ho, deg_apply fx hs]
  rfl

/-- The symmetric coefficient of edge `e`, as a value. -/
def coefV (hN : 0 < N) (s t : IVec ⟨1, ![R]⟩ 32) (e : Fin R) : EReal :=
  dinvV t (rowOf hN s e) * dinvV t (rowOf hN t e)

theorem coef_apply (hN : 0 < N) (hs : ∃ wf, sdV = vecScatterDims N R wf) (hg : ∃ wf, gdV = vecGatherDims N R wf)
    (s t : IVec ⟨1, ![R]⟩ 32) (e : Fin R) :
    coef fx gdV (dinv fx (deg fx sdV t)) s t (ix1 e) = coefV hN s t e := by
  show Host.gather gdV (dinv fx (deg fx sdV t)) (col fx (wrap fx s)) (ix1 e)
      * Host.gather gdV (dinv fx (deg fx sdV t)) (col fx (wrap fx t)) (ix1 e) = _
  rw [gatherV_apply fx hN hg, gatherV_apply fx hN hg, dinv_apply fx hs, dinv_apply fx hs]
  rfl

theorem coefK_apply (hN : 0 < N) (hs : ∃ wf, sdV = vecScatterDims N R wf) (hg : ∃ wf, gdV = vecGatherDims N R wf)
    (s t : IVec ⟨1, ![R]⟩ 32) (e : Fin R) :
    coefK fx gdV (dinv fx (deg fx sdV t)) (cmax fx (deg fx sdV t)) s t (ix1 e)
      = Ideal.div (coefV hN s t e) (cmaxV t (rowOf hN t e)) := by
  show Ideal.div (coef fx gdV (dinv fx (deg fx sdV t)) s t (ix1 e))
      (Host.gather gdV (cmax fx (deg fx sdV t)) (col fx (wrap fx t)) (ix1 e)) = _
  rw [coef_apply fx hN hs hg, gatherV_apply fx hN hg, cmax_apply fx hs]

/-- The scatter-added messages at `(n, f)`: a sum over the edges that land on `n`. -/
theorem aggOf_apply (hN : 0 < N) (hg : ∃ wf, gdM = rowGatherDims N R C wf) (hs : ∃ wf, sdM = rowScatterDims N R C wf)
    (h : FVec Ideal ⟨2, ![N, C]⟩ .f32) (s t : IVec ⟨1, ![R]⟩ 32) (cf : FVec Ideal ⟨1, ![R]⟩ .f32) (n : Fin N) (f : Fin C) :
    aggOf fx gdM sdM h s t cf (ix2 n f) = 0 + ∑ e ∈ inTo t n, h (ix2 (rowOf hN s e) f) * cf (ix1 e) := by
  obtain ⟨wf, rfl⟩ := hs
  refine (scatterAdd_rows_apply wf _ _ _ n f).trans ?_
  have hz : broadcastInDim ⟨2, ![N, C]⟩ ![] fx.bS_NC (constant (F := Ideal) ⟨0, ![]⟩ .f32 0x00000000#32) (ix2 n f) = 0 :=
    (scalar_bcast_apply _ _ _).trans ofBits_zero_f32
  have hm : ∀ e : Fin R,
      mulf (F := Ideal) (φ := .f32) (Host.gather gdM h (col fx (wrap fx s)))
        (broadcastInDim ⟨2, ![R, C]⟩ ![0, 1] fx.bR1_RC (col fx cf)) (ix2 e f)
        = h (ix2 (rowOf hN s e) f) * cf (ix1 e) := fun e => by
    show Host.gather gdM h (col fx (wrap fx s)) (ix2 e f)
        * broadcastInDim ⟨2, ![R, C]⟩ ![0, 1] fx.bR1_RC (col fx cf) (ix2 e f) = _
    rw [gatherM_apply fx hN hg, column_broadcast_apply, col_apply]
  rw [hz]
  simp only [hm, col_apply]
  rfl

end Reads

/-! ## The two arrangements are one array; its entries are reals when the features' are -/

section Main

variable {N R C : ℕ}

/-- THE TWO ARRANGEMENTS AGREE, on all extended reals, whatever facts and records each side cites. -/
theorem kagg_eq_ragg (hN : 0 < N) (hN' : N < 2 ^ 31) (fx fx' : Facts N R C)
    (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    {sdV sdV' : ScatterDims ⟨1, ![N]⟩ ⟨2, ![R, 1]⟩ ⟨1, ![R]⟩}
    {gdV gdV' : GatherDims ⟨1, ![N]⟩ ⟨2, ![R, 1]⟩ ⟨1, ![R]⟩}
    {gdM gdM' : GatherDims ⟨2, ![N, C]⟩ ⟨2, ![R, 1]⟩ ⟨2, ![R, C]⟩}
    {sdM sdM' : ScatterDims ⟨2, ![N, C]⟩ ⟨2, ![R, 1]⟩ ⟨2, ![R, C]⟩}
    (hsV : ∃ wf, sdV = vecScatterDims N R wf) (hsV' : ∃ wf, sdV' = vecScatterDims N R wf)
    (hgV : ∃ wf, gdV = vecGatherDims N R wf) (hgV' : ∃ wf, gdV' = vecGatherDims N R wf)
    (hgM : ∃ wf, gdM = rowGatherDims N R C wf) (hgM' : ∃ wf, gdM' = rowGatherDims N R C wf)
    (hsM : ∃ wf, sdM = rowScatterDims N R C wf) (hsM' : ∃ wf, sdM' = rowScatterDims N R C wf)
    (h : FVec Ideal ⟨2, ![N, C]⟩ .f32) (s t : IVec ⟨1, ![R]⟩ 32) :
    kagg fx sdV gdV gdM sdM h s t = ragg fx' sdV' gdV' gdM' sdM' bN_N1 bN1_NC h s t := by
  funext i
  obtain ⟨n, f, rfl⟩ : ∃ (n : Fin N) (f : Fin C), i = ix2 n f := ⟨i 0, i 1, eq_ix2 i⟩
  show aggOf fx gdM sdM h s t (coefK fx gdV (dinv fx (deg fx sdV t)) (cmax fx (deg fx sdV t)) s t) (ix2 n f)
      = Ideal.div (aggOf fx' gdM' sdM' h s t (coef fx' gdV' (dinv fx' (deg fx' sdV' t)) s t) (ix2 n f))
          (broadcastInDim ⟨2, ![N, C]⟩ ![0, 1] bN1_NC
            (broadcastInDim ⟨2, ![N, 1]⟩ ![0] bN_N1 (cmax fx' (deg fx' sdV' t))) (ix2 n f))
  rw [aggOf_apply fx hN hgM hsM, aggOf_apply fx' hN hgM' hsM', column_broadcast_apply, column_of_vector_apply,
    cmax_apply fx' hsV']
  simp only [coefK_apply fx hN hsV hgV, coef_apply fx' hN hsV' hgV']
  refine sum_div_law (inTo t n) (cmaxV t n) (le_max_right _ _) _ _ (fun e => cmaxV t (rowOf hN t e)) fun e he => ?_
  rw [rowOf_eq hN hN' t e n (Finset.mem_filter.mp he).2]

/-- The degree is a count of ones: a real. -/
theorem degV_real (t : IVec ⟨1, ![R]⟩ 32) (n : Fin N) : IsR (degV t n) :=
  IsR.zero.add (IsR.sum _ _ fun _ _ => IsR.one)

theorem dinvV_real (t : IVec ⟨1, ![R]⟩ 32) (n : Fin N) : IsR (dinvV t n) :=
  IsR.of_range (guarded_rsqrt_range _).1 (guarded_rsqrt_range _).2

theorem cmaxV_real (t : IVec ⟨1, ![R]⟩ 32) (n : Fin N) : IsR (cmaxV t n) := by
  obtain ⟨r, hr⟩ := degV_real t n
  unfold cmaxV
  rw [hr, ← EReal.coe_one, ← EReal.coe_strictMono.monotone.map_max]
  exact ⟨_, rfl⟩

/-- The dividing-after arrangement at `(n, f)`, as a value. -/
theorem ragg_apply (hN : 0 < N) (fx : Facts N R C)
    (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    {sdV : ScatterDims ⟨1, ![N]⟩ ⟨2, ![R, 1]⟩ ⟨1, ![R]⟩} {gdV : GatherDims ⟨1, ![N]⟩ ⟨2, ![R, 1]⟩ ⟨1, ![R]⟩}
    {gdM : GatherDims ⟨2, ![N, C]⟩ ⟨2, ![R, 1]⟩ ⟨2, ![R, C]⟩} {sdM : ScatterDims ⟨2, ![N, C]⟩ ⟨2, ![R, 1]⟩ ⟨2, ![R, C]⟩}
    (hsV : ∃ wf, sdV = vecScatterDims N R wf) (hgV : ∃ wf, gdV = vecGatherDims N R wf)
    (hgM : ∃ wf, gdM = rowGatherDims N R C wf) (hsM : ∃ wf, sdM = rowScatterDims N R C wf)
    (h : FVec Ideal ⟨2, ![N, C]⟩ .f32) (s t : IVec ⟨1, ![R]⟩ 32) (n : Fin N) (f : Fin C) :
    ragg fx sdV gdV gdM sdM bN_N1 bN1_NC h s t (ix2 n f)
      = Ideal.div (0 + ∑ e ∈ inTo t n, h (ix2 (rowOf hN s e) f) * coefV hN s t e) (cmaxV t n) := by
  show Ideal.div (aggOf fx gdM sdM h s t (coef fx gdV (dinv fx (deg fx sdV t)) s t) (ix2 n f))
      (broadcastInDim ⟨2, ![N, C]⟩ ![0, 1] bN1_NC
        (broadcastInDim ⟨2, ![N, 1]⟩ ![0] bN_N1 (cmax fx (deg fx sdV t))) (ix2 n f)) = _
  rw [aggOf_apply fx hN hgM hsM, column_broadcast_apply, column_of_vector_apply, cmax_apply fx hsV]
  simp only [coef_apply fx hN hsV hgV]

/-- EVERY ENTRY OF THE AGGREGATE IS A REAL when every entry of the features is. -/
theorem ragg_real (hN : 0 < N) (fx : Facts N R C)
    (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    {sdV : ScatterDims ⟨1, ![N]⟩ ⟨2, ![R, 1]⟩ ⟨1, ![R]⟩} {gdV : GatherDims ⟨1, ![N]⟩ ⟨2, ![R, 1]⟩ ⟨1, ![R]⟩}
    {gdM : GatherDims ⟨2, ![N, C]⟩ ⟨2, ![R, 1]⟩ ⟨2, ![R, C]⟩} {sdM : ScatterDims ⟨2, ![N, C]⟩ ⟨2, ![R, 1]⟩ ⟨2, ![R, C]⟩}
    (hsV : ∃ wf, sdV = vecScatterDims N R wf) (hgV : ∃ wf, gdV = vecGatherDims N R wf)
    (hgM : ∃ wf, gdM = rowGatherDims N R C wf) (hsM : ∃ wf, sdM = rowScatterDims N R C wf)
    (h : FVec Ideal ⟨2, ![N, C]⟩ .f32) (s t : IVec ⟨1, ![R]⟩ 32) (hh : ∀ i, IsR (h i)) (i : (⟨2, ![N, C]⟩ : Shape).Idx) :
    IsR (ragg fx sdV gdV gdM sdM bN_N1 bN1_NC h s t i) := by
  obtain ⟨n, f, rfl⟩ : ∃ (n : Fin N) (f : Fin C), i = ix2 n f := ⟨i 0, i 1, eq_ix2 i⟩
  rw [ragg_apply hN fx bN_N1 bN1_NC hsV hgV hgM hsM]
  have hsum : IsR (0 + ∑ e ∈ inTo t n, h (ix2 (rowOf hN s e) f) * coefV hN s t e) :=
    IsR.zero.add (IsR.sum _ _ fun e _ => (hh _).mul ((dinvV_real t _).mul (dinvV_real t _)))
  exact IsR.div_of_one_le hsum (cmaxV_real t n) (le_max_right _ _)

/-- A contraction of two arrays of reals, started from zero, is an array of reals. -/
theorem matmul_real {sl sr so : Shape} (d : DotDims sl sr so) (l : sl.Idx → EReal) (r : sr.Idx → EReal)
    (hl : ∀ i, IsR (l i)) (hr : ∀ i, IsR (r i)) (j : so.Idx) : IsR (Ideal.matmul d l r (fun _ => 0) j) :=
  IsR.zero.add (IsR.sum _ _ fun k _ => (hl _).mul (hr _))

end Main

end Cert.Lib.MeanGcn

end
-- ==== Proof.AggDefs.lean ====
/-
  The aggregation stage of the two programs, as terms over the features `h` (the product of the node features and the
  weights, one row per node) and the edge list `ei` (row 0 the sources, row 1 the targets).

  Both programs build the source and target words the same way: a row of the edge list followed by one self loop per
  node. The kernel program then divides every edge's symmetric coefficient by the mean's divisor gathered at the edge's
  target before the messages are summed (`KAgg`); the reference sums the messages and divides each node's sum by its
  divisor (`RAgg`). Each is the general layer of the mean-normalised aggregation at this program's extents
  (100000 nodes, 1700000 edges with the self loops, 64 features), spelt with that program's own records and facts.
-/
import proofs.«117114_j45715631899545_1_alg».proof.Proof.Gen.KernelIdeal
import proofs.«117114_j45715631899545_1_alg».proof.Proof.Gen.ReferenceIdeal
import proofs.«117114_j45715631899545_1_alg».proof.Proof.LibMeanGcn

noncomputable section

namespace Cert.Bridge.Agg

open Idealize.ShloMosaic Cert.Lib.MeanGcn Cert.Lib.HostIndex

namespace K

open Cert.KernelIdeal Cert.KernelIdeal.Gen

/-- The layout facts of the layer, as the kernel program proves them. -/
theorem facts : Facts 100000 1700000 64 :=
  ⟨bcast_S_S1700000, bcast_S_S100000, bcast_S_S100000x64, bcast_S1700000_S1700000x1_0, bcast_S1700000x1_S1700000x64_0_1⟩

/-- The source words: row 0 of the edge list, then the self loops. -/
def src (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
      ⟨S100000, iotaInDim S100000 32 0⟩] concatenates_S1600000_S100000_S1700000_d0

/-- The target words: row 1 of the edge list, then the self loops. -/
def tgt (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
      ⟨S100000, iotaInDim S100000 32 0⟩] concatenates_S1600000_S100000_S1700000_d0

theorem okSV : ∃ wf, scatter_S100000_S1700000x1_S1700000_n_0_0_1 = vecScatterDims 100000 1700000 wf :=
  ⟨scatter_S100000_S1700000x1_S1700000_n_0_0_1_wf, rfl⟩
theorem okGV : ∃ wf, gather_S100000_S1700000x1_S1700000_n_0_n_n_0_1_1 = vecGatherDims 100000 1700000 wf :=
  ⟨gather_S100000_S1700000x1_S1700000_n_0_n_n_0_1_1_wf, rfl⟩
theorem okGM : ∃ wf, gather_S100000x64_S1700000x1_S1700000x64_1_0_n_n_0_1_164 = rowGatherDims 100000 1700000 64 wf :=
  ⟨gather_S100000x64_S1700000x1_S1700000x64_1_0_n_n_0_1_164_wf, rfl⟩
theorem okSM : ∃ wf, scatter_S100000x64_S1700000x1_S1700000x64_1_0_0_1 = rowScatterDims 100000 1700000 64 wf :=
  ⟨scatter_S100000x64_S1700000x1_S1700000x64_1_0_0_1_wf, rfl⟩

end K

namespace R

open Cert.ReferenceIdeal Cert.ReferenceIdeal.Gen

/-- The layout facts of the layer, as the reference program proves them. -/
theorem facts : Facts 100000 1700000 64 :=
  ⟨bcast_S_S1700000, bcast_S_S100000, bcast_S_S100000x64, bcast_S1700000_S1700000x1_0, bcast_S1700000x1_S1700000x64_0_1⟩

/-- The source words: row 0 of the edge list, then the self loops. -/
def src (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
      ⟨S100000, iotaInDim S100000 32 0⟩] concatenates_S1600000_S100000_S1700000_d0

/-- The target words: row 1 of the edge list, then the self loops. -/
def tgt (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
      ⟨S100000, iotaInDim S100000 32 0⟩] concatenates_S1600000_S100000_S1700000_d0

theorem okSV : ∃ wf, scatter_S100000_S1700000x1_S1700000_n_0_0_1 = vecScatterDims 100000 1700000 wf :=
  ⟨scatter_S100000_S1700000x1_S1700000_n_0_0_1_wf, rfl⟩
theorem okGV : ∃ wf, gather_S100000_S1700000x1_S1700000_n_0_n_n_0_1_1 = vecGatherDims 100000 1700000 wf :=
  ⟨gather_S100000_S1700000x1_S1700000_n_0_n_n_0_1_1_wf, rfl⟩
theorem okGM : ∃ wf, gather_S100000x64_S1700000x1_S1700000x64_1_0_n_n_0_1_164 = rowGatherDims 100000 1700000 64 wf :=
  ⟨gather_S100000x64_S1700000x1_S1700000x64_1_0_n_n_0_1_164_wf, rfl⟩
theorem okSM : ∃ wf, scatter_S100000x64_S1700000x1_S1700000x64_1_0_0_1 = rowScatterDims 100000 1700000 64 wf :=
  ⟨scatter_S100000x64_S1700000x1_S1700000x64_1_0_0_1_wf, rfl⟩

end R

/-- THE KERNEL PROGRAM'S AGGREGATE from the features and the edge list: every edge's coefficient divided by the mean's
    divisor at its target, then the messages summed at the targets. -/
def KAgg (h : FVec Ideal Cert.KernelIdeal.S100000x64 .f32) (ei : IVec Cert.KernelIdeal.S2x1600000 32) :
    FVec Ideal Cert.KernelIdeal.S100000x64 .f32 :=
  kagg K.facts Cert.KernelIdeal.scatter_S100000_S1700000x1_S1700000_n_0_0_1
    Cert.KernelIdeal.gather_S100000_S1700000x1_S1700000_n_0_n_n_0_1_1
    Cert.KernelIdeal.gather_S100000x64_S1700000x1_S1700000x64_1_0_n_n_0_1_164
    Cert.KernelIdeal.scatter_S100000x64_S1700000x1_S1700000x64_1_0_0_1 h (K.src ei) (K.tgt ei)

/-- THE REFERENCE'S AGGREGATE from the features and the edge list: the messages summed at the targets, then each node's
    sum divided by the mean's divisor. -/
def RAgg (h : FVec Ideal Cert.ReferenceIdeal.S100000x64 .f32) (ei : IVec Cert.ReferenceIdeal.S2x1600000 32) :
    FVec Ideal Cert.ReferenceIdeal.S100000x64 .f32 :=
  ragg R.facts Cert.ReferenceIdeal.scatter_S100000_S1700000x1_S1700000_n_0_0_1
    Cert.ReferenceIdeal.gather_S100000_S1700000x1_S1700000_n_0_n_n_0_1_1
    Cert.ReferenceIdeal.gather_S100000x64_S1700000x1_S1700000x64_1_0_n_n_0_1_164
    Cert.ReferenceIdeal.scatter_S100000x64_S1700000x1_S1700000x64_1_0_0_1
    Cert.ReferenceIdeal.Gen.bcast_S100000_S100000x1_0 Cert.ReferenceIdeal.Gen.bcast_S100000x1_S100000x64_0_1
    h (R.src ei) (R.tgt ei)

end Cert.Bridge.Agg

end
-- ==== Proof.AggTerm.lean ====
/-
  The kernel program's host operations between its first and second regions, read back as terms: the array its second
  region takes as input is the aggregate `KAgg` of the first region's output and the edge list, and the bias row is the
  bias argument recast as a one-row matrix.

  The operations come in three stretches (the second is the outlined selection of the normaliser). Each stretch is read
  at the few arrays the next one uses, and the three readings are composed.
-/
import proofs.«117114_j45715631899545_1_alg».proof.Proof.AggDefs
import proofs.«117114_j45715631899545_1_alg».proof.Proof.Gen.KernelIdeal.Launch
import Idealize.ShloMosaic.Lib.StableHlo.Run

noncomputable section

namespace Cert.Bridge.Agg

open Idealize.ShloMosaic Idealize.SL.Sem Idealize.ShloMosaic.StableHlo Cert.KernelIdeal Cert.KernelIdeal.Gen
open Cert.Lib.MeanGcn

/-! ## The first stretch: the index words, the degree, its comparison with zero and its reciprocal root -/

section First
variable (W : Valuation τ sig (Elt Ideal))

theorem first_v3 : StableHlo.after (hostOps1 (F := Ideal)) W (Proc.devRef .tc main_v3) = W (Proc.devRef .tc main_v3) := by
  after_results
theorem first_arg3 :
    StableHlo.after (hostOps1 (F := Ideal)) W (Proc.devRef .tc main_arg3) = W (Proc.devRef .tc main_arg3) := by
  after_results
theorem first_v7 :
    StableHlo.after (hostOps1 (F := Ideal)) W (Proc.devRef .tc main_v7) = K.src (W (Proc.devRef .tc main_arg1)) := by
  after_results
  rfl
theorem first_v10 :
    StableHlo.after (hostOps1 (F := Ideal)) W (Proc.devRef .tc main_v10) = K.tgt (W (Proc.devRef .tc main_arg1)) := by
  after_results
  rfl
theorem first_v14 :
    StableHlo.after (hostOps1 (F := Ideal)) W (Proc.devRef .tc main_v14)
      = deg K.facts scatter_S100000_S1700000x1_S1700000_n_0_0_1 (K.tgt (W (Proc.devRef .tc main_arg1))) := by
  after_results
  rfl
theorem first_v16 :
    StableHlo.after (hostOps1 (F := Ideal)) W (Proc.devRef .tc main_v16)
      = cmpf .ogt (deg K.facts scatter_S100000_S1700000x1_S1700000_n_0_0_1 (K.tgt (W (Proc.devRef .tc main_arg1))))
          (broadcastInDim S100000 ![] bcast_S_S100000 (constant (F := Ideal) S_ .f32 0x00000000#32)) := by
  after_results
  rfl
theorem first_v17 :
    StableHlo.after (hostOps1 (F := Ideal)) W (Proc.devRef .tc main_v17)
      = Host.rsqrt (deg K.facts scatter_S100000_S1700000x1_S1700000_n_0_0_1 (K.tgt (W (Proc.devRef .tc main_arg1)))) := by
  after_results
  rfl
theorem first_cst2 :
    StableHlo.after (hostOps1 (F := Ideal)) W (Proc.devRef .tc main_cst_2) = constant (F := Ideal) S_ .f32 0x00000000#32 := by
  after_results

end First

/-! ## The second stretch: the selection of the normaliser -/

section Second
variable (V : Valuation τ sig (Elt Ideal))

theorem second_v3 : StableHlo.after (hostOps1_1 (F := Ideal)) V (Proc.devRef .tc main_v3) = V (Proc.devRef .tc main_v3) := by
  after_results
theorem second_arg3 :
    StableHlo.after (hostOps1_1 (F := Ideal)) V (Proc.devRef .tc main_arg3) = V (Proc.devRef .tc main_arg3) := by
  after_results
theorem second_v7 : StableHlo.after (hostOps1_1 (F := Ideal)) V (Proc.devRef .tc main_v7) = V (Proc.devRef .tc main_v7) := by
  after_results
theorem second_v10 :
    StableHlo.after (hostOps1_1 (F := Ideal)) V (Proc.devRef .tc main_v10) = V (Proc.devRef .tc main_v10) := by
  after_results
theorem second_v14 :
    StableHlo.after (hostOps1_1 (F := Ideal)) V (Proc.devRef .tc main_v14) = V (Proc.devRef .tc main_v14) := by
  after_results
theorem second_v18 :
    StableHlo.after (hostOps1_1 (F := Ideal)) V (Proc.devRef .tc main_v18)
      = select (V (Proc.devRef .tc main_v16)) (V (Proc.devRef .tc main_v17))
          (broadcastInDim S100000 ![] bcast_S_S100000 (V (Proc.devRef .tc main_cst_2))) := by
  after_results
  rfl

end Second

/-! ## The third stretch: the coefficients, the messages and their sum -/

section Third
variable (V : Valuation τ sig (Elt Ideal))

set_option maxHeartbeats 4000000 in
theorem third_v56 :
    StableHlo.after (hostOps1_2 (F := Ideal)) V (Proc.devRef .tc main_v56)
      = aggOf K.facts gather_S100000x64_S1700000x1_S1700000x64_1_0_n_n_0_1_164
          scatter_S100000x64_S1700000x1_S1700000x64_1_0_0_1 (V (Proc.devRef .tc main_v3)) (V (Proc.devRef .tc main_v7))
          (V (Proc.devRef .tc main_v10))
          (coefK K.facts gather_S100000_S1700000x1_S1700000_n_0_n_n_0_1_1 (V (Proc.devRef .tc main_v18))
            (cmax K.facts (V (Proc.devRef .tc main_v14))) (V (Proc.devRef .tc main_v7)) (V (Proc.devRef .tc main_v10))) := by
  after_results_simp
  rfl

set_option maxHeartbeats 4000000 in
theorem third_v57 :
    StableHlo.after (hostOps1_2 (F := Ideal)) V (Proc.devRef .tc main_v57)
      = shapeCast S1x64 (V (Proc.devRef .tc main_arg3)) shapeCasts_S64_S1x64 := by
  after_results_simp
  rfl

end Third

/-! ## The three stretches composed -/

/-- The aggregate the host computes from the first region's output and the edge list. -/
theorem kagg_term (W : Valuation τ sig (Elt Ideal)) :
    StableHlo.after (hostOps1_2 (F := Ideal)) (StableHlo.after hostOps1_1 (StableHlo.after hostOps1 W))
        (Proc.devRef .tc main_v56)
      = KAgg (W (Proc.devRef .tc main_v3)) (W (Proc.devRef .tc main_arg1)) := by
  rw [third_v56, second_v3, second_v7, second_v10, second_v14, second_v18, first_v3, first_v7, first_v10, first_v14,
    first_v16, first_v17, first_cst2]
  rfl

/-- The bias as a one-row matrix. -/
theorem kbias_term (W : Valuation τ sig (Elt Ideal)) :
    StableHlo.after (hostOps1_2 (F := Ideal)) (StableHlo.after hostOps1_1 (StableHlo.after hostOps1 W))
        (Proc.devRef .tc main_v57)
      = shapeCast S1x64 (W (Proc.devRef .tc main_arg3)) shapeCasts_S64_S1x64 := by
  rw [third_v57, second_arg3, first_arg3]

end Cert.Bridge.Agg

end
-- ==== Proof.AggLaw.lean ====
/-
  THE TWO PROGRAMS' AGGREGATES ARE THE SAME ARRAY, on all extended reals, and the reference's has real entries when the
  features have.

  Both follow from the general layer: the kernel program divides each edge's coefficient by the mean's divisor read at
  the edge's target, the reference divides each node's sum; an edge that lands on a node reads that node's divisor, which
  is at least one, so its inverse lies in `[0, ⊤)` and distributes over the node's sum. The two programs build the same
  source and target words (the same operations on the same edge list), and each cites its own records and facts, which
  the general law leaves free.
-/
import proofs.«117114_j45715631899545_1_alg».proof.Proof.AggDefs

noncomputable section

namespace Cert.Bridge.Agg

open Idealize.ShloMosaic Cert.Lib.MeanGcn

/-- The two programs' source words are the same vector. -/
theorem src_eq (ei : IVec Cert.KernelIdeal.S2x1600000 32) : K.src ei = R.src ei := rfl

/-- The two programs' target words are the same vector. -/
theorem tgt_eq (ei : IVec Cert.KernelIdeal.S2x1600000 32) : K.tgt ei = R.tgt ei := rfl

/-- THE AGGREGATION LAW: dividing every edge's coefficient by the divisor at its target, or dividing every node's sum
    by its divisor, gives the same aggregate; no finiteness is asked of the features. -/
theorem agg_eq (h : FVec Ideal Cert.KernelIdeal.S100000x64 .f32) (ei : IVec Cert.KernelIdeal.S2x1600000 32) :
    KAgg h ei = RAgg h ei := by
  unfold KAgg RAgg
  rw [← src_eq ei, ← tgt_eq ei]
  exact kagg_eq_ragg (by norm_num) (by norm_num) K.facts R.facts _ _ K.okSV R.okSV K.okGV R.okGV K.okGM R.okGM
    K.okSM R.okSM h (K.src ei) (K.tgt ei)

/-- FINITENESS: every entry of the reference's aggregate is a real when every entry of the features is. -/
theorem ragg_real (h : FVec Ideal Cert.ReferenceIdeal.S100000x64 .f32) (ei : IVec Cert.ReferenceIdeal.S2x1600000 32)
    (hh : ∀ i, ∃ r : ℝ, h i = (r : EReal)) : ∀ i, ∃ r : ℝ, RAgg h ei i = (r : EReal) := fun i =>
  Cert.Lib.MeanGcn.ragg_real (by norm_num) R.facts _ _ R.okSV R.okGV R.okGM R.okSM h (R.src ei) (R.tgt ei) hh i

end Cert.Bridge.Agg

end
-- ==== Proof.AggRef.lean ====
/-
  The reference's aggregate, as its operations were read back one at a time, is `RAgg` of its own features (the product
  of the node features and the transposed weights) and the edge list: the same operations in the same order.
-/
import proofs.«117114_j45715631899545_1_alg».proof.Proof.AggDefs
import proofs.«117114_j45715631899545_1_alg».proof.Proof.RefReadGen

noncomputable section

namespace Cert.Bridge.Agg

open Idealize.ShloMosaic Cert.ReferenceIdeal Cert.ReferenceIdeal.Gen

set_option maxHeartbeats 4000000 in
/-- The reference's operations up to the division of the summed messages, composed. -/
theorem ragg_val (x0 : (⟨S100000x128, .f32⟩ : BufTy).Contents (Elt Ideal))
    (x1 : (⟨S2x1600000, .i32⟩ : BufTy).Contents (Elt Ideal)) (x2 : (⟨S64x128, .f32⟩ : BufTy).Contents (Elt Ideal)) :
    Cert.ReferenceIdeal.ReadP.val_main_v49 (F := Ideal) x0 x1 x2
      = RAgg (Cert.ReferenceIdeal.ReadP.val_main_v1 (F := Ideal) x0 x2) x1 := rfl

end Cert.Bridge.Agg

end
-- ==== Proof.HrefReal.lean ====
/- The reference's feature matrix, the product of the node features with the transposed weights, is real-valued when
   the features and the weights are: each entry is a sum over the 128 contracted positions of an entry of the features
   times an entry of the weights, and inside the extended reals the reals are closed under products and finite sums. -/
import proofs.«117114_j45715631899545_1_alg».proof.Proof.RefReadGen
import Idealize.ShloMosaic.PureOps.Ideal.Laws

namespace Cert.Bridge.Agg

open Idealize.ShloMosaic Cert.ReferenceIdeal Cert.ReferenceIdeal.Gen
open scoped BigOperators

/-- A finite sum of extended reals each of which is a real is a real. -/
private theorem sum_is_real {ι : Type} (S : Finset ι) (f : ι → EReal) (hf : ∀ k ∈ S, ∃ r : ℝ, f k = (r : EReal)) :
    ∃ r : ℝ, ∑ k ∈ S, f k = (r : EReal) := by
  classical
  induction S using Finset.induction_on with
  | empty => exact ⟨0, by rw [Finset.sum_empty, EReal.coe_zero]⟩
  | insert a S ha ih =>
    obtain ⟨ra, hra⟩ := hf a (Finset.mem_insert_self a S)
    obtain ⟨rs, hrs⟩ := ih (fun k hk => hf k (Finset.mem_insert_of_mem hk))
    exact ⟨ra + rs, by rw [Finset.sum_insert ha, hra, hrs, EReal.coe_add]⟩

/-- Every entry of the reference's feature matrix is a real: entry `i` is the sum over `k` of the feature entry at
    (row of `i`, `k`) times the weight entry at (column of `i`, `k`). -/
theorem href_real (x0 : (⟨S100000x128, .f32⟩ : BufTy).Contents (Elt Ideal)) (x2 : (⟨S64x128, .f32⟩ : BufTy).Contents (Elt Ideal))
    (hx : ∀ i, ∃ r : ℝ, x0 i = (r : EReal)) (hw : ∀ i, ∃ r : ℝ, x2 i = (r : EReal)) :
    ∀ i, ∃ r : ℝ, Cert.ReferenceIdeal.ReadP.val_main_v1 (F := Ideal) x0 x2 i = (r : EReal) := by
  intro i
  rw [Cert.ReferenceIdeal.ReadP.val_main_v1_apply x0 x2 i]
  refine sum_is_real Finset.univ _ (fun k _ => ?_)
  obtain ⟨a, ha⟩ := hx (Cert.ReferenceIdeal.ReadP.lidx_main_v1 i k)
  obtain ⟨b, hb⟩ := hw (Cert.ReferenceIdeal.ReadP.idx_main_v0 (Cert.ReferenceIdeal.ReadP.ridx_main_v1 i k))
  refine ⟨a * b, ?_⟩
  rw [Cert.ReferenceIdeal.ReadP.val_main_v0_apply x2 (Cert.ReferenceIdeal.ReadP.ridx_main_v1 i k), ha, hb, EReal.coe_mul]

end Cert.Bridge.Agg
-- ==== Proof.PostRef.lean ====
/-
  The reference's side of the batch normalization, as one pure function of extended reals.

  From agg (100000 × 64) and the [64] arrays bias, gamma, beta: out = agg + bias along every row, the activation
  a = out > 0 ? out : c·out, the column mean mu = (0 + Σ a)/N, the column variance var = (0 + Σ (a − mu)²)/N, and
  y = ((a − mu)·rsqrt(var + eps))·gamma + beta, every [64] array laid along the rows by two broadcasts. Spelt with the
  reference program's own operations, and read entry by entry.
-/
import proofs.«117114_j45715631899545_1_alg».proof.Proof.Gen.ReferenceIdeal
import Idealize.ShloMosaic.Lib.Pipeline.Value
import Idealize.ShloMosaic.Lib.ValueLayout
import Idealize.ShloMosaic.Lib.KernelVsHost
import Idealize.ShloMosaic.Lib.IdealHost
import Idealize.ShloMosaic.PureOps.Ideal.Laws

noncomputable section

namespace Cert.Bridge.PostRef

open Idealize.ShloMosaic Idealize.ShloMosaic.ValueIdx
open Cert.ReferenceIdeal Cert.ReferenceIdeal.Gen

/-! ## The reference's operations, composed -/

/-- A [64] array laid along each of the 100000 rows: first as one row, then that row down the rows. -/
def rbc (v : FVec Ideal S64 .f32) : FVec Ideal S100000x64 .f32 :=
  broadcastInDim S100000x64 ![0, 1] bcast_S1x64_S100000x64_0_1 (broadcastInDim S1x64 ![1] bcast_S64_S1x64_1 v)

/-- A float literal at every entry of a [64] array, and of a [100000, 64] array. -/
def rsplat64 (w : BitVec 32) : FVec Ideal S64 .f32 :=
  broadcastInDim S64 ![] bcast_S_S64 (constant (F := Ideal) S_ .f32 w)
def rsplatN (w : BitVec 32) : FVec Ideal S100000x64 .f32 :=
  broadcastInDim S100000x64 ![] bcast_S_S100000x64 (constant (F := Ideal) S_ .f32 w)

/-- The column sums of a [100000, 64] array from the literal 0. -/
def rsum (y : FVec Ideal S100000x64 .f32) : FVec Ideal S64 .f32 :=
  Host.reduceAdd y (constant (F := Ideal) S_ .f32 0x00000000#32) reducesTo_S100000x64_S64_d0 h_S_

/-- out = agg + bias. -/
def ROut (agg : FVec Ideal S100000x64 .f32) (b : FVec Ideal S64 .f32) : FVec Ideal S100000x64 .f32 :=
  addf agg (rbc b)

/-- The activation: out where out > 0, the literal slope times out elsewhere. -/
def RAct (agg : FVec Ideal S100000x64 .f32) (b : FVec Ideal S64 .f32) : FVec Ideal S100000x64 .f32 :=
  select (cmpf .ogt (ROut agg b) (rsplatN 0x00000000#32)) (ROut agg b) (mulf (rsplatN 0x3C23D70A#32) (ROut agg b))

/-- The column means. -/
def RMean (agg : FVec Ideal S100000x64 .f32) (b : FVec Ideal S64 .f32) : FVec Ideal S64 .f32 :=
  Host.divf (rsum (RAct agg b)) (rsplat64 0x47C35000#32)

/-- The deviations from the column means. -/
def RDev (agg : FVec Ideal S100000x64 .f32) (b : FVec Ideal S64 .f32) : FVec Ideal S100000x64 .f32 :=
  subf (RAct agg b) (rbc (RMean agg b))

/-- The column variances: the mean of the squared deviations. -/
def RVar (agg : FVec Ideal S100000x64 .f32) (b : FVec Ideal S64 .f32) : FVec Ideal S64 .f32 :=
  Host.divf (rsum (mulf (RDev agg b) (RDev agg b))) (rsplat64 0x47C35000#32)

/-- The normalized, scaled and shifted activation. -/
def RPost (agg : FVec Ideal S100000x64 .f32) (b g be : FVec Ideal S64 .f32) : FVec Ideal S100000x64 .f32 :=
  addf
    (mulf (mulf (RDev agg b) (rbc (Host.rsqrt (addf (RVar agg b) (rsplat64 0x3727C5AC#32))))) (rbc g))
    (rbc be)

/-! ## Read at an entry -/

theorem rbc_apply (v : FVec Ideal S64 .f32) (n : Fin 100000) (f : Fin 64) : rbc v (ix2 n f) = v (ix1 f) := by
  unfold rbc
  refine (broadcastInDim_oneRow_apply bcast_S1x64_S100000x64_0_1 _ n f).trans ?_
  refine broadcastInDim_apply ![1] bcast_S64_S1x64_1 v (ix2 (0 : Fin 1) f) (ix1 f) fun a => ?_
  match a with
  | ⟨0, _⟩ => show f.val = if (64 : Nat) = 1 then 0 else f.val; rw [if_neg (by decide)]

theorem rsplat64_apply (w : BitVec 32) (j : S64.Idx) : rsplat64 w j = Ideal.ofBits .f32 w := rfl
theorem rsplatN_apply (w : BitVec 32) (j : S100000x64.Idx) : rsplatN w j = Ideal.ofBits .f32 w := rfl

theorem rsum_apply (y : FVec Ideal S100000x64 .f32) (f : Fin 64) :
    rsum y (ix1 f) = Ideal.ofBits .f32 0x00000000#32 + ∑ k : Fin 100000, y (ix2 k f) := by
  unfold rsum
  simp only [Host.reduceAdd, Ideal.hostReduceAdd_def]
  rw [Ideal.hostReduceAdd_single reducesTo_S100000x64_S64_d0 (by decide)]
  refine congrArg (_ + ·) (Finset.sum_congr rfl fun k _ => ?_)
  exact congrArg y (funext fun a => Fin.ext (by match a with | ⟨0, _⟩ => rfl | ⟨1, _⟩ => rfl))

theorem RAct_apply (agg : FVec Ideal S100000x64 .f32) (b : FVec Ideal S64 .f32) (n : Fin 100000) (f : Fin 64) :
    RAct agg b (ix2 n f)
      = Scalar.select (Ideal.cmp .ogt (agg (ix2 n f) + b (ix1 f)) (Ideal.ofBits .f32 0x00000000#32))
          (agg (ix2 n f) + b (ix1 f)) (Ideal.ofBits .f32 0x3C23D70A#32 * (agg (ix2 n f) + b (ix1 f))) := by
  unfold RAct ROut
  simp only [select_apply, cmpf_apply, mulf_apply, addf_apply, rsplatN_apply, rbc_apply]
  rfl

theorem RMean_apply (agg : FVec Ideal S100000x64 .f32) (b : FVec Ideal S64 .f32) (f : Fin 64) :
    RMean agg b (ix1 f)
      = Ideal.div (Ideal.ofBits .f32 0x00000000#32 + ∑ k : Fin 100000, RAct agg b (ix2 k f))
          (Ideal.ofBits .f32 0x47C35000#32) := by
  unfold RMean
  rw [hostDivf_apply, rsum_apply, rsplat64_apply]

theorem RVar_apply (agg : FVec Ideal S100000x64 .f32) (b : FVec Ideal S64 .f32) (f : Fin 64) :
    RVar agg b (ix1 f)
      = Ideal.div (Ideal.ofBits .f32 0x00000000#32
            + ∑ k : Fin 100000, (RAct agg b (ix2 k f) - RMean agg b (ix1 f)) * (RAct agg b (ix2 k f) - RMean agg b (ix1 f)))
          (Ideal.ofBits .f32 0x47C35000#32) := by
  have e : ∀ k : Fin 100000, mulf (RDev agg b) (RDev agg b) (ix2 k f)
      = (RAct agg b (ix2 k f) - RMean agg b (ix1 f)) * (RAct agg b (ix2 k f) - RMean agg b (ix1 f)) := fun k => by
    unfold RDev
    simp only [mulf_apply, subf_apply, rbc_apply]
  unfold RVar
  rw [hostDivf_apply, rsum_apply, rsplat64_apply]
  simp only [e]

theorem RPost_apply (agg : FVec Ideal S100000x64 .f32) (b g be : FVec Ideal S64 .f32) (n : Fin 100000) (f : Fin 64) :
    RPost agg b g be (ix2 n f)
      = ((RAct agg b (ix2 n f) - RMean agg b (ix1 f))
            * Ideal.rsqrt (RVar agg b (ix1 f) + Ideal.ofBits .f32 0x3727C5AC#32)) * g (ix1 f) + be (ix1 f) := by
  unfold RPost RDev
  simp only [addf_apply, mulf_apply, subf_apply, rbc_apply]
  rfl

end Cert.Bridge.PostRef

end
-- ==== Proof.LibVarLaw.lean ====
/-
  The variance law over the extended reals.

  For finitely many REAL numbers x_i and n their count, the mean of the squared deviations from the mean,
  (∑ (x_i − (∑ x)/n)²)/n, is the mean of the squares minus the square of the mean, (∑ x_i²)/n − ((∑ x)/n)². Over the extended
  reals, with the ideal quotient, the same holds when every entry is a real number and the divisor is a real that is not
  zero (at an infinite entry the two sides differ: one is +∞, the other −∞). This is the step between a batch
  normalization that takes its variance textbook-wise and one that accumulates sums and sums of squares.
-/
import Idealize.ShloMosaic.PureOps.Ideal

noncomputable section

namespace Cert.Lib.VarLaw

open Idealize.ShloMosaic
open scoped BigOperators

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- In the reals: with `n` the number of terms, the mean of the squared deviations from the mean is the mean of the
    squares minus the square of the mean. -/
theorem var_real {ι : Type*} [Fintype ι] (f : ι → ℝ) (n : ℝ) (hn : n ≠ 0) (hcard : (Fintype.card ι : ℝ) = n) :
    (∑ i, (f i - (∑ k, f k) * (1 / n)) * (f i - (∑ k, f k) * (1 / n))) * (1 / n)
      = (∑ i, f i * f i) * (1 / n) - (∑ i, f i) * (1 / n) * ((∑ i, f i) * (1 / n)) := by
  have key : ∀ m : ℝ, ∑ i, (f i - m) * (f i - m)
      = (∑ i, f i * f i) - 2 * m * (∑ i, f i) + (Fintype.card ι : ℝ) * (m * m) := by
    intro m
    have e : ∀ i, (f i - m) * (f i - m) = f i * f i - 2 * m * f i + m * m := fun i => by ring
    simp only [e, Finset.sum_add_distrib, Finset.sum_sub_distrib, ← Finset.mul_sum, Finset.sum_const, Finset.card_univ,
      nsmul_eq_mul]
    ring
  rw [key, hcard]
  field_simp
  ring

/-- The same over the extended reals, for real entries and a real divisor that is not zero, with the ideal quotient. -/
theorem var_law {ι : Type*} [Fintype ι] (x : ι → EReal) (hx : ∀ i, ∃ r : ℝ, x i = (r : EReal)) (n : ℝ) (hn : n ≠ 0)
    (hcard : (Fintype.card ι : ℝ) = n) :
    Ideal.div (∑ i, (x i - Ideal.div (∑ k, x k) (n : EReal)) * (x i - Ideal.div (∑ k, x k) (n : EReal))) (n : EReal)
      = Ideal.div (∑ i, x i * x i) (n : EReal) - Ideal.div (∑ i, x i) (n : EReal) * Ideal.div (∑ i, x i) (n : EReal) := by
  choose f hf using hx
  obtain rfl : x = fun i => (f i : EReal) := funext hf
  simp only [Ideal.div_coe hn, ← coe_sum, ← EReal.coe_mul, ← EReal.coe_sub]
  exact congrArg _ (var_real f n hn hcard)

end Cert.Lib.VarLaw

end
-- ==== Proof.PostLaw.lean ====
/-
  The two batch normalizations agree.

  The kernel program accumulates the column sums s = Σ a and q = Σ a² of the activation a and normalizes with
  mean = s/N and var = max(q/N − mean², 0); the reference takes mu = (0 + Σ a)/N and var = (0 + Σ (a − mu)²)/N. When
  every entry of a is a real number (it is: a real plus a real, compared, or times the literal slope) the variance law
  E[a²] − (E a)² = E[(a − E a)²] makes the two variances equal, and the right side is not negative, so the maximum with
  0 changes nothing. Everything after the variance is the same operations on both sides.
-/
import proofs.«117114_j45715631899545_1_alg».proof.Proof.PostKernel
import proofs.«117114_j45715631899545_1_alg».proof.Proof.PostRef
import proofs.«117114_j45715631899545_1_alg».proof.Proof.LibVarLaw

noncomputable section

namespace Cert.Bridge.Post

open Idealize.ShloMosaic Idealize.ShloMosaic.ValueIdx
open scoped BigOperators

/-! ## The literals -/

/-- The literal both programs divide by is the real number 100000, the number of rows. -/
theorem ofBits_count : Ideal.ofBits .f32 0x47C35000#32 = ((100000 : ℝ) : EReal) := by
  simp [Ideal.ofBits, Ideal.ieee, -EReal.coe_mul]; norm_num

/-- The literal slope is a real number. -/
theorem ofBits_slope_real : ∃ l : ℝ, Ideal.ofBits .f32 0x3C23D70A#32 = (l : EReal) := by
  show ∃ l : ℝ, Ideal.ieee 8 23 (0x3C23D70A#32 : BitVec 32) = (l : EReal)
  unfold Ideal.ieee
  simp only []
  rw [if_neg (by decide), if_neg (by decide)]
  exact ⟨_, rfl⟩

/-- The activation of a real sum is a real number. -/
theorem act1_real (a b : ℝ) : ∃ r : ℝ, act1 (a : EReal) (b : EReal) = (r : EReal) := by
  obtain ⟨l, hl⟩ := ofBits_slope_real
  unfold act1 Scalar.select
  rw [hl]
  split
  · exact ⟨a + b, (EReal.coe_add a b).symm⟩
  · exact ⟨l * (a + b), by rw [EReal.coe_mul, EReal.coe_add]⟩

/-! ## The variance is not negative -/

/-- For real entries and a positive real divisor, the mean of the squared deviations from the mean is not negative. -/
theorem var_nonneg {ι : Type*} [Fintype ι] (x : ι → EReal) (hx : ∀ i, ∃ r : ℝ, x i = (r : EReal)) (n : ℝ) (hn : 0 < n) :
    0 ≤ Ideal.div (∑ i, (x i - Ideal.div (∑ k, x k) (n : EReal)) * (x i - Ideal.div (∑ k, x k) (n : EReal))) (n : EReal) := by
  choose f hf using hx
  obtain rfl : x = fun i => (f i : EReal) := funext hf
  simp only [Ideal.div_coe hn.ne', ← Cert.Lib.VarLaw.coe_sum, ← EReal.coe_mul, ← EReal.coe_sub]
  rw [EReal.coe_nonneg]
  exact mul_nonneg (Finset.sum_nonneg fun i _ => mul_self_nonneg _) (by positivity)

/-! ## The law -/

/-- With real entries of agg and of the bias, and s and q the column sums of the activation and of its square, the kernel
    program's normalization from s and q is the reference's normalization. -/
theorem post_eq (agg : FVec Ideal Cert.KernelIdeal.S100000x64 .f32) (b g be : FVec Ideal Cert.KernelIdeal.S64 .f32)
    (hagg : ∀ i, ∃ r : ℝ, agg i = (r : EReal)) (hb : ∀ i, ∃ r : ℝ, b i = (r : EReal))
    (s q : FVec Ideal Cert.KernelIdeal.S1x64 .f32)
    (hs : ∀ f : Fin 64, s (ix2 (0 : Fin 1) f) = ∑ n : Fin 100000, KAct agg (row b) (ix2 n f))
    (hq : ∀ f : Fin 64, q (ix2 (0 : Fin 1) f)
      = ∑ n : Fin 100000, KAct agg (row b) (ix2 n f) * KAct agg (row b) (ix2 n f)) :
    KNorm (KAct agg (row b)) (mean2 s) (invstd2 s q) (gamma2 g) (beta2 be) = PostRef.RPost agg b g be := by
  funext i
  obtain ⟨n, f, rfl⟩ : ∃ (n : Fin 100000) (f : Fin 64), i = ix2 n f := ⟨i 0, i 1, eq_ix2 i⟩
  -- the activation is the same entry on both sides, and a real number
  have hA : ∀ k : Fin 100000, PostRef.RAct agg b (ix2 k f) = KAct agg (row b) (ix2 k f) := fun k => by
    rw [PostRef.RAct_apply, KAct_apply, row_apply]; rfl
  have hreal : ∀ k : Fin 100000, ∃ r : ℝ, KAct agg (row b) (ix2 k f) = (r : EReal) := fun k => by
    obtain ⟨ra, ha⟩ := hagg (ix2 k f)
    obtain ⟨rb, hb'⟩ := hb (ix1 f)
    rw [KAct_apply, row_apply, ha, hb']
    exact act1_real ra rb
  -- the variance law and the sign of the variance, at this column
  have hv := Cert.Lib.VarLaw.var_law (fun k : Fin 100000 => KAct agg (row b) (ix2 k f)) hreal 100000 (by norm_num) (by simp)
  have hn := var_nonneg (fun k : Fin 100000 => KAct agg (row b) (ix2 k f)) hreal 100000 (by norm_num)
  simp only [] at hv hn
  rw [hv] at hn
  rw [KNorm_apply, PostRef.RPost_apply, mean2_apply, invstd2_apply, gamma2_apply, beta2_apply, PostRef.RVar_apply,
    PostRef.RMean_apply]
  simp only [hA, hs, hq, Ideal.ofBits_zero_f32, zero_add, ofBits_count]
  rw [hv, max_eq_left hn]

end Cert.Bridge.Post

end
-- ==== Proof.PostRefLink.lean ====
/-
  The reference's composed normalization is the value its read-back names: the result of the reference program, as a
  function of its six arguments, is the composed function at the aggregated features the program computes before it.
-/
import proofs.«117114_j45715631899545_1_alg».proof.Proof.RefReadGen
import proofs.«117114_j45715631899545_1_alg».proof.Proof.PostRef

noncomputable section

namespace Cert.Bridge.PostRef

open Idealize.ShloMosaic
open Cert.ReferenceIdeal Cert.ReferenceIdeal.Gen Cert.ReferenceIdeal.ReadP

/-- The activation the reference program computes is the composed one at its aggregated features. -/
theorem ract_link (x0 : (⟨S100000x128, .f32⟩ : BufTy).Contents (Elt Ideal)) (x1 : (⟨S2x1600000, .i32⟩ : BufTy).Contents (Elt Ideal))
    (x2 : (⟨S64x128, .f32⟩ : BufTy).Contents (Elt Ideal)) (x3 : (⟨S64, .f32⟩ : BufTy).Contents (Elt Ideal)) :
    val_main_v57 (F := Ideal) x0 x1 x2 x3 = RAct (val_main_v49 (F := Ideal) x0 x1 x2) x3 := rfl

/-- The reference program's result is the composed normalization at its aggregated features. -/
theorem rpost_link (x0 : (⟨S100000x128, .f32⟩ : BufTy).Contents (Elt Ideal)) (x1 : (⟨S2x1600000, .i32⟩ : BufTy).Contents (Elt Ideal))
    (x2 : (⟨S64x128, .f32⟩ : BufTy).Contents (Elt Ideal)) (x3 x4 x5 : (⟨S64, .f32⟩ : BufTy).Contents (Elt Ideal)) :
    val_main_v82 (F := Ideal) x0 x1 x2 x3 x4 x5 = RPost (val_main_v49 (F := Ideal) x0 x1 x2) x3 x4 x5 := rfl

end Cert.Bridge.PostRef

end
-- ==== Proof.Bridge.lean ====
/-
  The kernel program's result is the reference's. Through the run: the first region's product is the reference's first
  stage; the host's aggregation with the division folded into the per-edge coefficient is the reference's aggregation
  divided afterwards (equal on all extended reals); and from an aggregated array of real numbers (the inputs are finite) the
  second region's activation and sums, the host's statistics and the third region's normalisation give what the
  reference's mean / variance / normalisation give (the variance law).
-/
import proofs.«117114_j45715631899545_1_alg».proof.Proof.KernelValue
import proofs.«117114_j45715631899545_1_alg».proof.Proof.HRef
import proofs.«117114_j45715631899545_1_alg».proof.Proof.AggTerm
import proofs.«117114_j45715631899545_1_alg».proof.Proof.AggLaw
import proofs.«117114_j45715631899545_1_alg».proof.Proof.AggRef
import proofs.«117114_j45715631899545_1_alg».proof.Proof.HrefReal
import proofs.«117114_j45715631899545_1_alg».proof.Proof.PostLaw
import proofs.«117114_j45715631899545_1_alg».proof.Proof.PostRefLink

noncomputable section

namespace Cert.KernelIdeal.Val

open Cert.KernelIdeal Cert.KernelIdeal.Gen Cert.KernelIdeal.Fr Cert.Bridge.Post Cert.Bridge.Agg
open Idealize.ShloMosaic Idealize.ShloMosaic.TcCoe Idealize.ShloMosaic.ValueIdx Idealize.SL.Sem

variable (m : (ℓ : Loc nD τ sig) → Buf (Elt Ideal) ℓ) (ρ : Dev nD → PrngReg)

/-- The product array the first region leaves is the reference's first stage of the argument arrays. -/
theorem h_out (c : Dev nD) : W2 m ρ c (Proc.devRef .tc main_v3)
    = Cert.ReferenceIdeal.ReadP.val_main_v1 (F := Ideal) (m ((c : Thread nD τ).loc main_arg0)) (m ((c : Thread nD τ).loc main_arg2)) := by
  refine (W2_arr m ρ c 2).trans ((final0 (Vin0 m ρ) c).trans ?_)
  show H (W1 m ρ c (Proc.devRef .tc main_v0)) (W1 m ρ c (Proc.devRef .tc main_v2)) = _
  rw [show W1 m ρ c (Proc.devRef .tc main_v0) = xb (W0 m ρ c (Proc.devRef .tc main_arg0)) from host0_v0 (W0 m ρ c),
    show W1 m ρ c (Proc.devRef .tc main_v2) = wb (W0 m ρ c (Proc.devRef .tc main_arg2)) from host0_v2 (W0 m ρ c)]
  exact H_eq_ref _ _

/-- The aggregated array the second region finds is the reference's aggregated array of the argument arrays. -/
theorem agg_in (c : Dev nD) : aggIn m ρ c
    = Cert.ReferenceIdeal.ReadP.val_main_v49 (F := Ideal) (m ((c : Thread nD τ).loc main_arg0)) (m ((c : Thread nD τ).loc main_arg1)) (m ((c : Thread nD τ).loc main_arg2)) := by
  show W5 m ρ c (Proc.devRef .tc main_v56) = _
  rw [show W5 m ρ c (Proc.devRef .tc main_v56) = KAgg (W2 m ρ c (Proc.devRef .tc main_v3)) (W2 m ρ c (Proc.devRef .tc main_arg1)) from kagg_term (W2 m ρ c),
    h_out, W2_main_arg1, agg_eq, ← ragg_val]

/-- The bias row the second region finds is the bias argument as a row. -/
theorem bias_in (c : Dev nD) : biasIn m ρ c = row (m ((c : Thread nD τ).loc main_arg3)) := by
  show W5 m ρ c (Proc.devRef .tc main_v57) = _
  rw [show W5 m ρ c (Proc.devRef .tc main_v57) = shapeCast S1x64 (W2 m ρ c (Proc.devRef .tc main_arg3)) shapeCasts_S64_S1x64 from kbias_term (W2 m ρ c),
    W2_main_arg3]
  rfl

/-- THE VALUE: from finite node features, weight and bias, the kernel program's result array is the reference's result
    term of the same argument arrays. -/
theorem kernel_value (c : Dev nD)
    (hx : ∀ i, ∃ r : ℝ, m ((c : Thread nD τ).loc main_arg0) i = (r : EReal))
    (hw : ∀ i, ∃ r : ℝ, m ((c : Thread nD τ).loc main_arg2) i = (r : EReal))
    (hb : ∀ i, ∃ r : ℝ, m ((c : Thread nD τ).loc main_arg3) i = (r : EReal)) :
    W8 m ρ c (Proc.devRef .tc main_v76)
      = Cert.ReferenceIdeal.ReadP.val_main_v82 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5)) := by
  rw [result_from_agg, agg_in, bias_in, Cert.Bridge.PostRef.rpost_link]
  refine post_eq _ _ _ _ ?_ hb _ _ (fun f => SumArr_apply _ f) (fun f => SqArr_apply _ f)
  rw [ragg_val]
  exact ragg_real _ _ (href_real _ _ hx hw)

end Cert.KernelIdeal.Val

end
-- ==== Proof.lean ====
/-
  A graph-convolution layer followed by a leaky rectifier and a batch normalisation, computed by three tiled kernels with
  host gather / scatter-add between them, against the plain array program.

  Both programs form h = x · Wᵀ, count each node's in-degree with self loops, weight every edge by the reciprocal square
  roots of its two endpoints' degrees, sum the weighted messages into each target node, divide by the degree (at least one),
  add the bias, apply the rectifier, and normalise every column by its mean and variance over the 100000 nodes.
  The kernel program differs in three ways, none of which changes the result on finite inputs at the ideal values:
  * it rounds x and Wᵀ to a narrower format before multiplying, and multiplies 5000 rows at a time (rounding is the
    identity at the ideal values; a block of rows of a product is the product of the block of rows);
  * it divides each edge's coefficient by the target's degree before the sum instead of dividing the sum afterwards (the
    divisor is a real number at least one and the same for every edge of a target, so it moves through the finite sum on all
    extended reals);
  * it accumulates each column's sum and sum of squares over twenty blocks of rows and forms the variance as the mean of
    squares minus the squared mean, clamped at zero, where the reference takes the mean of squared deviations (for finitely
    many real numbers these agree, and the latter is not negative).
  The three frames: each kernel program's run is put together from its three regions (one body obligation per region, the
  middle one carrying its two accumulator rows from point to point) and the host stretches between them; the reference's
  frame is its run with the result dropped. The idealising pass rewrote nothing, so there is nothing to preserve.
-/
import proofs.«117114_j45715631899545_1_alg».proof.Defs
import proofs.«117114_j45715631899545_1_alg».proof.Proof.Gen.Kernel
import proofs.«117114_j45715631899545_1_alg».proof.Proof.Gen.KernelIdeal
import proofs.«117114_j45715631899545_1_alg».proof.Proof.Gen.ReferenceIdeal
import proofs.«117114_j45715631899545_1_alg».proof.Proof.Gen.Pre_finite_inputs
import proofs.«117114_j45715631899545_1_alg».proof.Proof.K.FrameRun
import proofs.«117114_j45715631899545_1_alg».proof.Proof.FrameRun
import proofs.«117114_j45715631899545_1_alg».proof.Proof.RefRunGen
import proofs.«117114_j45715631899545_1_alg».proof.Proof.RefReadGen
import proofs.«117114_j45715631899545_1_alg».proof.Proof.PreReal
import proofs.«117114_j45715631899545_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Fr.frame m ρ

/-- So does the kernel program at the ideal values. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealising pass rewrote nothing. -/
theorem preserves : Cert.preserves_Kernel_KernelIdeal := trivial

/-- At the ideal values, from memories agreeing on the arguments and finite float inputs, both programs end with the same
    result array: the reference's result term of the argument arrays. -/
theorem algebraic : Cert.algebraic_KernelIdeal_ReferenceIdeal := by
  intro m ρ m' ρ' hpre hagree
  refine ⟨fun c => Cert.ReferenceIdeal.ReadP.val_main_v82 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run _ _ _).mono (fun r h c => ?_) (Cert.KernelIdeal.Fr.run_all (F := Ideal) m ρ)
    obtain ⟨hx, hw, hb⟩ := Cert.Bridge.Pre.reals_of_pre _ _ _ _ _ _ (hpre c)
    exact ⟨(h c _ (Cert.KernelIdeal.Fr.mem_uc Cert.KernelIdeal.main_v76 (by decide))).trans
        (Cert.KernelIdeal.Val.kernel_value m ρ c hx hw hb),
      (h c _ (Cert.KernelIdeal.Fr.mem_uc Cert.KernelIdeal.main_arg0 (by decide))).trans (Cert.KernelIdeal.Fr.W8_main_arg0 m ρ c),
      (h c _ (Cert.KernelIdeal.Fr.mem_uc Cert.KernelIdeal.main_arg1 (by decide))).trans (Cert.KernelIdeal.Fr.W8_main_arg1 m ρ c),
      (h c _ (Cert.KernelIdeal.Fr.mem_uc Cert.KernelIdeal.main_arg2 (by decide))).trans (Cert.KernelIdeal.Fr.W8_main_arg2 m ρ c),
      (h c _ (Cert.KernelIdeal.Fr.mem_uc Cert.KernelIdeal.main_arg3 (by decide))).trans (Cert.KernelIdeal.Fr.W8_main_arg3 m ρ c),
      (h c _ (Cert.KernelIdeal.Fr.mem_uc Cert.KernelIdeal.main_arg4 (by decide))).trans (Cert.KernelIdeal.Fr.W8_main_arg4 m ρ c),
      (h c _ (Cert.KernelIdeal.Fr.mem_uc Cert.KernelIdeal.main_arg5 (by decide))).trans (Cert.KernelIdeal.Fr.W8_main_arg5 m ρ c)⟩
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v82_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
